-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S286000x602 : Shape := ⟨2, ![286000, 602]⟩
abbrev S602x256 : Shape := ⟨2, ![602, 256]⟩
abbrev S256 : Shape := ⟨1, ![256]⟩
abbrev S256x41 : Shape := ⟨2, ![256, 41]⟩
abbrev S41 : Shape := ⟨1, ![41]⟩
abbrev S275000 : Shape := ⟨1, ![275000]⟩
abbrev S10000 : Shape := ⟨1, ![10000]⟩
abbrev S_ : Shape := ⟨0, ![]⟩

class Facts : Prop where
  bcast_S_S286000x602 : S_.BroadcastsInDim S286000x602 (![] : Fin 0 → Fin S286000x602.rank)
  reducesTo_S286000x602_S_d0_1 : S286000x602.ReducesTo [0, 1] S_
  h_S_ : 0 < S_.numel
  bcast_S_S602x256 : S_.BroadcastsInDim S602x256 (![] : Fin 0 → Fin S602x256.rank)
  reducesTo_S602x256_S_d0_1 : S602x256.ReducesTo [0, 1] S_
  bcast_S_S256 : S_.BroadcastsInDim S256 (![] : Fin 0 → Fin S256.rank)
  reducesTo_S256_S_d0 : S256.ReducesTo [0] S_
  bcast_S_S256x41 : S_.BroadcastsInDim S256x41 (![] : Fin 0 → Fin S256x41.rank)
  reducesTo_S256x41_S_d0_1 : S256x41.ReducesTo [0, 1] S_
  bcast_S_S41 : S_.BroadcastsInDim S41 (![] : Fin 0 → Fin S41.rank)
  reducesTo_S41_S_d0 : S41.ReducesTo [0] S_

variable [Facts]

def fn_part1 {F : FTy → Type} [FloatOps F] (main_arg4 : FVec F S256x41 .f32) (main_arg5 : FVec F S256x41 .f32) (main_arg6 : FVec F S41 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x41 .f32 := Host.absf main_arg4
  let main_cst_6 : FVec F S_ .f32 := constant S_ .f32 0x7F800000#32
  let main_v20 : FVec F S256x41 .f32 := broadcastInDim S256x41 ![] bcast_S_S256x41 main_cst_6
  let main_v21 : IVec S256x41 1 := cmpf .olt main_v19 main_v20
  let main_c_7 : IVec S_ 1 := constantI S_ 1 1#1
  let main_v22 : IVec S_ 1 := (fun x v => Host.reduce IntOp.andi x v reducesTo_S256x41_S_d0_1 h_S_) main_v21 main_c_7
  let main_v23 : IVec S_ 1 := andi main_v18 main_v22
  let main_v24 : FVec F S256x41 .f32 := Host.absf main_arg5
  let main_cst_8 : FVec F S_ .f32 := constant S_ .f32 0x7F800000#32
  let main_v25 : FVec F S256x41 .f32 := broadcastInDim S256x41 ![] bcast_S_S256x41 main_cst_8
  let main_v26 : IVec S256x41 1 := cmpf .olt main_v24 main_v25
  let main_c_9 : IVec S_ 1 := constantI S_ 1 1#1
  let main_v27 : IVec S_ 1 := (fun x v => Host.reduce IntOp.andi x v reducesTo_S256x41_S_d0_1 h_S_) main_v26 main_c_9
  let main_v28 : IVec S_ 1 := andi main_v23 main_v27
  let main_v29 : FVec F S41 .f32 := Host.absf main_arg6
  let main_cst_10 : FVec F S_ .f32 := constant S_ .f32 0x7F800000#32
  let main_v30 : FVec F S41 .f32 := broadcastInDim S41 ![] bcast_S_S41 main_cst_10
  let main_v31 : IVec S41 1 := cmpf .olt main_v29 main_v30
  let main_c_11 : IVec S_ 1 := constantI S_ 1 1#1
  let main_v32 : IVec S_ 1 := (fun x v => Host.reduce IntOp.andi x v reducesTo_S41_S_d0 h_S_) main_v31 main_c_11
  let main_v33 : IVec S_ 1 := andi main_v28 main_v32
  main_v33

def fn {F : FTy → Type} [FloatOps F] (main_arg0 : FVec F S286000x602 .f32) (main_arg1 : FVec F S602x256 .f32) (main_arg2 : FVec F S602x256 .f32) (main_arg3 : FVec F S256 .f32) (main_arg4 : FVec F S256x41 .f32) (main_arg5 : FVec F S256x41 .f32) (main_arg6 : FVec F S41 .f32) (main_arg7 : IVec S275000 32) (main_arg8 : IVec S275000 32) (main_arg9 : IVec S10000 32) (main_arg10 : IVec S10000 32) : IVec S_ 1 :=
  let main_v0 : FVec F S286000x602 .f32 := Host.absf main_arg0
  let main_cst : FVec F S_ .f32 := constant S_ .f32 0x7F800000#32
  let main_v1 : FVec F S286000x602 .f32 := broadcastInDim S286000x602 ![] bcast_S_S286000x602 main_cst
  let main_v2 : IVec S286000x602 1 := cmpf .olt main_v0 main_v1
  let main_c : IVec S_ 1 := constantI S_ 1 1#1
  let main_v3 : IVec S_ 1 := (fun x v => Host.reduce IntOp.andi x v reducesTo_S286000x602_S_d0_1 h_S_) main_v2 main_c
  let main_v4 : FVec F S602x256 .f32 := Host.absf main_arg1
  let main_cst_0 : FVec F S_ .f32 := constant S_ .f32 0x7F800000#32
  let main_v5 : FVec F S602x256 .f32 := broadcastInDim S602x256 ![] bcast_S_S602x256 main_cst_0
  let main_v6 : IVec S602x256 1 := cmpf .olt main_v4 main_v5
  let main_c_1 : IVec S_ 1 := constantI S_ 1 1#1
  let main_v7 : IVec S_ 1 := (fun x v => Host.reduce IntOp.andi x v reducesTo_S602x256_S_d0_1 h_S_) main_v6 main_c_1
  let main_v8 : IVec S_ 1 := andi main_v3 main_v7
  let main_v9 : FVec F S602x256 .f32 := Host.absf main_arg2
  let main_cst_2 : FVec F S_ .f32 := constant S_ .f32 0x7F800000#32
  let main_v10 : FVec F S602x256 .f32 := broadcastInDim S602x256 ![] bcast_S_S602x256 main_cst_2
  let main_v11 : IVec S602x256 1 := cmpf .olt main_v9 main_v10
  let main_c_3 : IVec S_ 1 := constantI S_ 1 1#1
  let main_v12 : IVec S_ 1 := (fun x v => Host.reduce IntOp.andi x v reducesTo_S602x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S286000x602 : Shape := ⟨2, ![286000, 602]⟩
abbrev S602x256 : Shape := ⟨2, ![602, 256]⟩
abbrev S256 : Shape := ⟨1, ![256]⟩
abbrev S256x41 : Shape := ⟨2, ![256, 41]⟩
abbrev S41 : Shape := ⟨1, ![41]⟩
abbrev S275000 : Shape := ⟨1, ![275000]⟩
abbrev S10000 : Shape := ⟨1, ![10000]⟩
abbrev S286000x256 : Shape := ⟨2, ![286000, 256]⟩
abbrev S4400x602 : Shape := ⟨2, ![4400, 602]⟩
abbrev S4400x256 : Shape := ⟨2, ![4400, 256]⟩
abbrev S11000x256 : Shape := ⟨2, ![11000, 256]⟩
abbrev S2200x602 : Shape := ⟨2, ![2200, 602]⟩
abbrev S2200x256 : Shape := ⟨2, ![2200, 256]⟩
abbrev S_ : Shape := ⟨0, ![]⟩
abbrev S275000x1 : Shape := ⟨2, ![275000, 1]⟩
abbrev S275000x256 : Shape := ⟨2, ![275000, 256]⟩
abbrev S11000 : Shape := ⟨1, ![11000]⟩
abbrev S11000x1 : Shape := ⟨2, ![11000, 1]⟩
abbrev S1x256 : Shape := ⟨2, ![1, 256]⟩
abbrev S11000x41 : Shape := ⟨2, ![11000, 41]⟩
abbrev S2200x41 : Shape := ⟨2, ![2200, 41]⟩
abbrev S1000x41 : Shape := ⟨2, ![1000, 41]⟩
abbrev S1000x256 : Shape := ⟨2, ![1000, 256]⟩
abbrev S10000x1 : Shape := ⟨2, ![10000, 1]⟩
abbrev S10000x41 : Shape := ⟨2, ![10000, 41]⟩
abbrev S1000 : Shape := ⟨1, ![1000]⟩
abbrev S1000x1 : Shape := ⟨2, ![1000, 1]⟩
abbrev S1x41 : Shape := ⟨2, ![1, 41]⟩

abbrev nBuf : Space → Nat
  | .hbm => 70
  | .vmem => 29
  | .smem => 0
  | _ => 0

abbrev bufTy : (tb : Table) → Fin (tcTables nBuf tb) → BufTy
  | .hbm, ⟨0, _⟩ => ⟨S286000x602, .f32⟩
  | .hbm, ⟨1, _⟩ => ⟨S602x256, .f32⟩
  | .hbm, ⟨2, _⟩ => ⟨S602x256, .f32⟩
  | .hbm, ⟨3, _⟩ => ⟨S256, .f32⟩
  | .hbm, ⟨4, _⟩ => ⟨S256x41, .f32⟩
  | .hbm, ⟨5, _⟩ => ⟨S256x41, .f32⟩
  | .hbm, ⟨6, _⟩ => ⟨S41, .f32⟩
  | .hbm, ⟨7, _⟩ => ⟨S275000, .i32⟩
  | .hbm, ⟨8, _⟩ => ⟨S275000, .i32⟩
  | .hbm, ⟨9, _⟩ => ⟨S10000, .i32⟩
  | .hbm, ⟨10, _⟩ => ⟨S10000, .i32⟩
  | .hbm, ⟨11, _⟩ => ⟨S286000x256, .bf16⟩
  | .hbm, ⟨12, _⟩ => ⟨S11000x256, .f32⟩
  | .hbm, ⟨13, _⟩ => ⟨S_, .i32⟩
  | .hbm, ⟨14, _⟩ => ⟨S275000, .i32⟩
  | .hbm, ⟨15, _⟩ => ⟨S275000, .i1⟩
  | .hbm, ⟨16, _⟩ => ⟨S_, .i32⟩
  | .hbm, ⟨17, _⟩ => ⟨S275000, .i32⟩
  | .hbm, ⟨18, _⟩ => ⟨S275000, .i32⟩
  | .hbm, ⟨19, _⟩ => ⟨S275000, .i32⟩
  | .hbm, ⟨20, _⟩ => ⟨S275000x1, .i32⟩
  | .hbm, ⟨21, _⟩ => ⟨S275000x256, .bf16⟩
  | .hbm, ⟨22, _⟩ => ⟨S275000x256, .f32⟩
  | .hbm, ⟨23, _⟩ => ⟨S_, .f32⟩
  | .hbm, ⟨24, _⟩ => ⟨S11000x256, .f32⟩
  | .hbm, ⟨25, _⟩ => ⟨S275000x1, .i32⟩
  | .hbm, ⟨26, _⟩ => ⟨S11000x256, .f32⟩
  | .hbm, ⟨27, _⟩ => ⟨S_, .f32⟩
  | .hbm, ⟨28, _⟩ => ⟨S275000, .f32⟩
  | .hbm, ⟨29, _⟩ => ⟨S_, .f32⟩
  | .hbm, ⟨30, _⟩ => ⟨S11000, .f32⟩
  | .hbm, ⟨31, _⟩ => ⟨S275000x1, .i32⟩
  | .hbm, ⟨32, _⟩ => ⟨S11000, .f32⟩
  | .hbm, ⟨33, _⟩ => ⟨S_, .f32⟩
  | .hbm, ⟨34, _⟩ => ⟨S11000, .f32⟩
  | .hbm, ⟨35, _⟩ => ⟨S11000, .f32⟩
  | .hbm, ⟨36, _⟩ => ⟨S11000x1, .f32⟩
  | .hbm, ⟨37, _⟩ => ⟨S11000x256, .f32⟩
  | .hbm, ⟨38, _⟩ => ⟨S11000x256, .f32⟩
  | .hbm, ⟨39, _⟩ => ⟨S1x256, .f32⟩
  | .hbm, ⟨40, _⟩ => ⟨S11000x256, .bf16⟩
  | .hbm, ⟨41, _⟩ => ⟨S11000x41, .f32⟩
  | .hbm, ⟨42, _⟩ => ⟨S1000x41, .f32⟩
  | .hbm, ⟨43, _⟩ => ⟨S_, .i32⟩
  | .hbm, ⟨44, _⟩ => ⟨S10000, .i32⟩
  | .hbm, ⟨45, _⟩ => ⟨S10000, .i1⟩
  | .hbm, ⟨46, _⟩ => ⟨S_, .i32⟩
  | .hbm, ⟨47, _⟩ => ⟨S10000, .i32⟩
  | .hbm, ⟨48, _⟩ => ⟨S10000, .i32⟩
  | .hbm, ⟨49, _⟩ => ⟨S10000, .i32⟩
  | .hbm, ⟨50, _⟩ => ⟨S10000x1, .i32⟩
  | .hbm, ⟨51, _⟩ => ⟨S10000x41, .f32⟩
  | .hbm, ⟨52, _⟩ => ⟨S_, .f32⟩
  | .hbm, ⟨53, _⟩ => ⟨S1000x41, .f32⟩
  | .hbm, ⟨54, _⟩ => ⟨S10000x1, .i32⟩
  | .hbm, ⟨55, _⟩ => ⟨S1000x41, .f32⟩
  | .hbm, ⟨56, _⟩ => ⟨S_, .f32⟩
  | .hbm, ⟨57, _⟩ => ⟨S10000, .f32⟩
  | .hbm, ⟨58, _⟩ => ⟨S_, .f32⟩
  | .hbm, ⟨59, _⟩ => ⟨S1000, .f32⟩
  | .hbm, ⟨60, _⟩ => ⟨S10000x1, .i32⟩
  | .hbm, ⟨61, _⟩ => ⟨S1000, .f32⟩
  | .hbm, ⟨62, _⟩ => ⟨S_, .f32⟩
  | .hbm, ⟨63, _⟩ => ⟨S1000, .f32⟩
  | .hbm, ⟨64, _⟩ => ⟨S1000, .f32⟩
  | .hbm, ⟨65, _⟩ => ⟨S1000x1, .f32⟩
  | .hbm, ⟨66, _⟩ => ⟨S1000x41, .f32⟩
  | .hbm, ⟨67, _⟩ => ⟨S1000x41, .f32⟩
  | .hbm, ⟨68, _⟩ => ⟨S1x41, .f32⟩
  | .hbm, ⟨69, _⟩ => ⟨S1000x41, .f32⟩
  | .local _ .vmem, ⟨0, _⟩ => ⟨S4400x602, .f32⟩
  | .local _ .vmem, ⟨1, _⟩ => ⟨S4400x602, .f32⟩
  | .local _ .vmem, ⟨2, _⟩ => ⟨S602x256, .f32⟩
  | .local _ .vmem, ⟨3, _⟩ => ⟨S4400x256, .bf16⟩
  | .local _ .vmem, ⟨4, _⟩ => ⟨S4400x256, .bf16⟩
  | .local _ .vmem, ⟨5, _⟩ => ⟨S2200x602, .f32⟩
  | .local _ .vmem, ⟨6, _⟩ => ⟨S2200x602, .f32⟩
  | .local _ .vmem, ⟨7, _⟩ => ⟨S602x256, .f32⟩
  | .local _ .vmem, ⟨8, _⟩ => ⟨S2200x256, .f32⟩
  | .local _ .vmem, ⟨9, _⟩ => ⟨S2200x256, .f32⟩
  | .local _ .vmem, ⟨10, _⟩ => ⟨S2200x256, .f32⟩
  | .local _ .vmem, ⟨11, _⟩ => ⟨S2200x256, .f32⟩
  | .local _ .vmem, ⟨12, _⟩ => ⟨S2200x256, .f32⟩
  | .local _ .vmem, ⟨13, _⟩ => ⟨S2200x256, .f32⟩
  | .local _ .vmem, ⟨14, _⟩ => ⟨S1x256, .f32⟩
  | .local _ .vmem, ⟨15, _⟩ => ⟨S2200x256, .bf16⟩
  | .local _ .vmem, ⟨16, _⟩ => ⟨S2200x256, .bf16⟩
  | .local _ .vmem, ⟨17, _⟩ => ⟨S2200x256, .bf16⟩
  | .local _ .vmem, ⟨18, _⟩ => ⟨S2200x256, .bf16⟩
  | .local _ .vmem, ⟨19, _⟩ => ⟨S256x41, .f32⟩
  | .local _ .vmem, ⟨20, _⟩ => ⟨S2200x41, .f32⟩
  | .local _ .vmem, ⟨21, _⟩ => ⟨S2200x41, .f32⟩
  | .local _ .vmem, ⟨22, _⟩ => ⟨S1000x256, .bf16⟩
  | .local _ .vmem, ⟨23, _⟩ => ⟨S256x41, .f32⟩
  | .local _ .vmem, ⟨24, _⟩ => ⟨S1000x41, .f32⟩
  | .local _ .vmem, ⟨25, _⟩ => ⟨S1000x41, .f32⟩
  | .local _ .vmem, ⟨26, _⟩ => ⟨S1000x41, .f32⟩
  | .local _ .vmem, ⟨27, _⟩ => ⟨S1x41, .f32⟩
  | .local _ .vmem, ⟨28, _⟩ => ⟨S1000x41, .f32⟩
  | _, _ => ⟨S286000x602, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg3_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc5_sem0_0 : DmaSem sig := 25
abbrev cc5_sem1_0 : DmaSem sig := 26
abbrev cc5_sem2_0 : DmaSem sig := 27
abbrev cc5_sem3_0 : DmaSem sig := 28

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4400x602 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S602x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4400x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2200x602 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S602x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2200x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2200x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2200x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2200x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2200x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x41 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2200x41 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S1000x256 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S256x41 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1000x41 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1000x41 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1000x41 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S1x41 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1000x41 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

class Facts₀ : Prop where
  inb_S4400x602_S4400x602_0_0 : ∀ a, (![0, 0] : Fin 2 → Nat) a + S4400x602.size a ≤ S4400x602.size a
  h_S4400x602 : 0 < S4400x602.numel
  bitsLt_bf16_f32 : FTy.bits .bf16 < FTy.bits .f32
  inb_S602x256_S602x256_0_0 : ∀ a, (![0, 0] : Fin 2 → Nat) a + S602x256.size a ≤ S602x256.size a
  h_S602x256 : 0 < S602x256.numel
  inb_S4400x256_S4400x256_0_0 : ∀ a, (![0, 0] : Fin 2 → Nat) a + S4400x256.size a ≤ S4400x256.size a
  h_S4400x256 : 0 < S4400x256.numel
  packedbf16_S4400x256_S4400x256_0_0 : (Rect.unit (s := S4400x256) ![0, 0] S4400x256.size inb_S4400x256_S4400x256_0_0).PackedRows (EltTy.packing .bf16)
  inb_S2200x602_S2200x602_0_0 : ∀ a, (![0, 0] : Fin 2 → Nat) a + S2200x602.size a ≤ S2200x602.size a
  h_S2200x602 : 0 < S2200x602.numel
  inb_S2200x256_S2200x256_0_0 : ∀ a, (![0, 0] : Fin 2 → Nat) a + S2200x256.size a ≤ S2200x256.size a
  h_S2200x256 : 0 < S2200x256.numel
  bcast_S_S275000 : S_.BroadcastsInDim S275000 (![] : Fin 0 → Fin S275000.rank)
  bcast_S275000_S275000x1_0 : S275000.BroadcastsInDim S275000x1 (![0] : Fin 1 → Fin S275000x1.rank)
  bcast_S_S11000x256 : S_.BroadcastsInDim S11000x256 (![] : Fin 0 → Fin S11000x256.rank)
  bcast_S_S11000 : S_.BroadcastsInDim S11000 (![] : Fin 0 → Fin S11000.rank)
  bcast_S11000_S11000x1_0 : S11000.BroadcastsInDim S11000x1 (![0] : Fin 1 → Fin S11000x1.rank)
  bcast_S11000x1_S11000x256_0_1 : S11000x1.BroadcastsInDim S11000x256 (![0, 1] : Fin 2 → Fin S11000x256.rank)
  shapeCasts_S256_S1x256 : S256.ShapeCasts S1x256
  shapeCasts_S2200x256_S2200x256 : S2200x256.ShapeCasts S2200x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2200x256 : S1x256.Broadcasts S2200x256
  packedbf16_S2200x256_S2200x256_0_0 : (Rect.unit (s := S2200x256) ![0, 0] S2200x256.size inb_S2200x256_S2200x256_0_0).PackedRows (EltTy.packing .bf16)
  inb_S256x41_S256x41_0_0 : ∀ a, (![0, 0] : Fin 2 → Nat) a + S256x41.size a ≤ S256x41.size a
  h_S256x41 : 0 < S256x41.numel
  inb_S2200x41_S2200x41_0_0 : ∀ a, (![0, 0] : Fin 2 → Nat) a + S2200x41.size a ≤ S2200x41.size a
  h_S2200x41 : 0 < S2200x41.numel
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S1000x41_S1000x41_0_0 : ∀ a, (![0, 0] : Fin 2 → Nat) a + S1000x41.size a ≤ S1000x41.size a
  h_S1000x41 : 0 < S1000x41.numel
  bcast_S_S10000 : S_.BroadcastsInDim S10000 (![] : Fin 0 → Fin S10000.rank)
  bcast_S10000_S10000x1_0 : S10000.BroadcastsInDim S10000x1 (![0] : Fin 1 → Fin S10000x1.rank)
  bcast_S_S1000x41 : S_.BroadcastsInDim S1000x41 (![] : Fin 0 → Fin S1000x41.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x41_0_1 : S1000x1.BroadcastsInDim S1000x41 (![0, 1] : Fin 2 → Fin S1000x41.rank)
  shapeCasts_S41_S1x41 : S41.ShapeCasts S1x41
  shapeCasts_S1000x41_S1000x41 : S1000x41.ShapeCasts S1000x41
  inb_S1x41_S1x41_0_0 : ∀ a, (![0, 0] : Fin 2 → Nat) a + S1x41.size a ≤ S1x41.size a
  h_S1x41 : 0 < S1x41.numel
  shapeCasts_S1x41_S1x41 : S1x41.ShapeCasts S1x41
  broadcasts_S1x41_S1000x41 : S1x41.Broadcasts S1000x41
  dot_S4400x602_S602x256_S4400x256_1_0_0_1_n_n_wf : DotDims.WF S4400x602 S602x256 S4400x256 [1] [0] [0] [1] [] []
  dot_S2200x602_S602x256_S2200x256_1_0_0_1_n_n_wf : DotDims.WF S2200x602 S602x256 S2200x256 [1] [0] [0] [1] [] []
  gather_S286000x256_S275000x1_S275000x256_1_0_n_n_0_1_1256_wf : GatherDims.WF S286000x256 S275000x1 S275000x256 [1] [0] [] [0] [] 1 ![1, 256]
  scatter_S11000x256_S275000x1_S275000x256_1_0_0_1_wf : ScatterDims.WF S11000x256 S275000x1 S275000x256 [1] [0] [0] 1
  scatter_S11000_S275000x1_S275000_n_0_0_1_wf : ScatterDims.WF S11000 S275000x1 S275000 [] [0] [0] 1
  dot_S2200x256_S256x41_S2200x41_1_0_0_1_n_n_wf : DotDims.WF S2200x256 S256x41 S2200x41 [1] [0] [0] [1] [] []
  dot_S1000x256_S256x41_S1000x41_1_0_0_1_n_n_wf : DotDims.WF S1000x256 S256x41 S1000x41 [1] [0] [0] [1] [] []
  gather_S11000x41_S10000x1_S10000x41_1_0_n_n_0_1_141_wf : GatherDims.WF S11000x41 S10000x1 S10000x41 [1] [0] [] [0] [] 1 ![1, 41]
  scatter_S1000x41_S10000x1_S10000x41_1_0_0_1_wf : ScatterDims.WF S1000x41 S10000x1 S10000x41 [1] [0] [0] 1
  scatter_S1000_S10000x1_S10000_n_0_0_1_wf : ScatterDims.WF S1000 S10000x1 S10000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4400x602.size a ≤ S286000x602.size a
  hwx0_0 : ∀ i : grid0.Coords, EltTy.bits .f32 = 32 ∨ (Rect.block (s := S286000x602) S4400x602.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S602x256.size a ≤ S602x256.size a
  hwx0_1 : ∀ i : grid0.Coords, EltTy.bits .f32 = 32 ∨ (Rect.block (s := S602x256) S602x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4400x256.size a ≤ S286000x256.size a
  hwx0_2 : ∀ i : grid0.Coords, EltTy.bits .bf16 = 32 ∨ (Rect.block (s := S286000x256) S4400x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2200x602.size a ≤ S286000x602.size a
  hwx1_0 : ∀ i : grid1.Coords, EltTy.bits .f32 = 32 ∨ (Rect.block (s := S286000x602) S2200x602.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S602x256.size a ≤ S602x256.size a
  hwx1_1 : ∀ i : grid1.Coords, EltTy.bits .f32 = 32 ∨ (Rect.block (s := S602x256) S602x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2200x256.size a ≤ S11000x256.size a
  hwx1_2 : ∀ i : grid1.Coords, EltTy.bits .f32 = 32 ∨ (Rect.block (s := S11000x256) S2200x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2200x256.size a ≤ S11000x256.size a
  hwx2_0 : ∀ i : grid2.Coords, EltTy.bits .f32 = 32 ∨ (Rect.block (s := S11000x256) S2200x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2200x256.size a ≤ S11000x256.size a
  hwx2_1 : ∀ i : grid2.Coords, EltTy.bits .f32 = 32 ∨ (Rect.block (s := S11000x256) S2200x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2200x256.size a ≤ S11000x256.size a
  hwx2_3 : ∀ i : grid2.Coords, EltTy.bits .bf16 = 32 ∨ (Rect.block (s := S11000x256) S2200x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2200x256.size a ≤ S11000x256.size a
  hwx3_0 : ∀ i : grid3.Coords, EltTy.bits .bf16 = 32 ∨ (Rect.block (s := S11000x256) S2200x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x41.size a ≤ S256x41.size a
  hwx3_1 : ∀ i : grid3.Coords, EltTy.bits .f32 = 32 ∨ (Rect.block (s := S256x41) S256x41.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2200x41.size a ≤ S11000x41.size a
  hwx3_2 : ∀ i : grid3.Coords, EltTy.bits .f32 = 32 ∨ (Rect.block (s := S11000x41) S2200x41.size (cc3_transform_2 i) (hinb3_2 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S11000x256.size a
  hwx4_0 : ∀ i : grid4.Coords, EltTy.bits .bf16 = 32 ∨ (Rect.block (s := S11000x256) S1000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x41.size a ≤ S256x41.size a
  hwx4_1 : ∀ i : grid4.Coords, EltTy.bits .f32 = 32 ∨ (Rect.block (s := S256x41) S256x41.size (cc4_transform_1 i) (hinb4_1 i)).WholeWords (EltTy.packing .f32)
  hstage4_2 : ∀ j, (stage4_2 j).IsWhole
  nbuf4_2 : grid4.bufCount reads4_2 false = 1
  hreads4_2 : ∀ i i' : grid4.Coords, (∀ a, reads4_2 a = true → i a = i' a) → cc4_transform_2 i = cc4_transform_2 i'
  hinb4_2 : ∀ (i : grid4.Coords) a, (cc4_transform_2 i a + 1) * S1000x41.size a ≤ S1000x41.size a
  hwx4_2 : ∀ i : grid4.Coords, EltTy.bits .f32 = 32 ∨ (Rect.block (s := S1000x41) S1000x41.size (cc4_transform_2 i) (hinb4_2 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S1000x41.size a ≤ S1000x41.size a
  hwx5_0 : ∀ i : grid5.Coords, EltTy.bits .f32 = 32 ∨ (Rect.block (s := S1000x41) S1000x41.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S1000x41.size a ≤ S1000x41.size a
  hwx5_1 : ∀ i : grid5.Coords, EltTy.bits .f32 = 32 ∨ (Rect.block (s := S1000x41) S1000x41.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x41.size a ≤ S1x41.size a
  hwx5_2 : ∀ i : grid5.Coords, EltTy.bits .f32 = 32 ∨ (Rect.block (s := S1x41) S1x41.size (cc5_transform_2 i) (hinb5_2 i)).WholeWords (EltTy.packing .f32)
  hstage5_3 : ∀ j, (stage5_3 j).IsWhole
  nbuf5_3 : grid5.bufCount reads5_3 false = 1
  hreads5_3 : ∀ i i' : grid5.Coords, (∀ a, reads5_3 a = true → i a = i' a) → cc5_transform_3 i = cc5_transform_3 i'
  hinb5_3 : ∀ (i : grid5.Coords) a, (cc5_transform_3 i a + 1) * S1000x41.size a ≤ S1000x41.size a
  hwx5_3 : ∀ i : grid5.Coords, EltTy.bits .f32 = 32 ∨ (Rect.block (s := S1000x41) S1000x41.size (cc5_transform_3 i) (hinb5_3 i)).WholeWords (EltTy.packing .f32)

variable [Facts₀]

def dot_S4400x602_S602x256_S4400x256_1_0_0_1_n_n : DotDims S4400x602 S602x256 S4400x256 where
  lhsContracting := [1]
  rhsContracting := [0]
  lhsNonContracting := [0]
  rhsNonContracting := [1]
  lhsBatch := []
  rhsBatch := []
  wf := dot_S4400x602_S602x256_S4400x256_1_0_0_1_n_n_wf
def dot_S2200x602_S602x256_S2200x256_1_0_0_1_n_n : DotDims S2200x602 S602x256 S2200x256 where
  lhsContracting := [1]
  rhsContracting := [0]
  lhsNonContracting := [0]
  rhsNonContracting := [1]
  lhsBatch := []
  rhsBatch := []
  wf := dot_S2200x602_S602x256_S2200x256_1_0_0_1_n_n_wf
def gather_S286000x256_S275000x1_S275000x256_1_0_n_n_0_1_1256 : GatherDims S286000x256 S275000x1 S275000x256 where
  offsetDims := [1]
  collapsedSliceDims := [0]
  operandBatchingDims := []
  startIndicesBatchingDims := []
  startIndexMap := [0]
  indexVectorDim := 1
  sliceSizes := ![1, 256]
  wf := gather_S286000x256_S275000x1_S275000x256_1_0_n_n_0_1_1256_wf
def scatter_S11000x256_S275000x1_S275000x256_1_0_0_1 : ScatterDims S11000x256 S275000x1 S275000x256 where
  updateWindowDims := [1]
  insertedWindowDims := [0]
  scatterDimsToOperandDims := [0]
  indexVectorDim := 1
  wf := scatter_S11000x256_S275000x1_S275000x256_1_0_0_1_wf
def scatter_S11000_S275000x1_S275000_n_0_0_1 : ScatterDims S11000 S275000x1 S275000 where
  updateWindowDims := []
  insertedWindowDims := [0]
  scatterDimsToOperandDims := [0]
  indexVectorDim := 1
  wf := scatter_S11000_S275000x1_S275000_n_0_0_1_wf
def dot_S2200x256_S256x41_S2200x41_1_0_0_1_n_n : DotDims S2200x256 S256x41 S2200x41 where
  lhsContracting := [1]
  rhsContracting := [0]
  lhsNonContracting := [0]
  rhsNonContracting := [1]
  lhsBatch := []
  rhsBatch := []
  wf := dot_S2200x256_S256x41_S2200x41_1_0_0_1_n_n_wf
def dot_S1000x256_S256x41_S1000x41_1_0_0_1_n_n : DotDims S1000x256 S256x41 S1000x41 where
  lhsContracting := [1]
  rhsContracting := [0]
  lhsNonContracting := [0]
  rhsNonContracting := [1]
  lhsBatch := []
  rhsBatch := []
  wf := dot_S1000x256_S256x41_S1000x41_1_0_0_1_n_n_wf
def gather_S11000x41_S10000x1_S10000x41_1_0_n_n_0_1_141 : GatherDims S11000x41 S10000x1 S10000x41 where
  offsetDims := [1]
  collapsedSliceDims := [0]
  operandBatchingDims := []
  startIndicesBatchingDims := []
  startIndexMap := [0]
  indexVectorDim := 1
  sliceSizes := ![1, 41]
  wf := gather_S11000x41_S10000x1_S10000x41_1_0_n_n_0_1_141_wf
def scatter_S1000x41_S10000x1_S10000x41_1_0_0_1 : ScatterDims S1000x41 S10000x1 S10000x41 where
  updateWindowDims := [1]
  insertedWindowDims := [0]
  scatterDimsToOperandDims := [0]
  indexVectorDim := 1
  wf := scatter_S1000x41_S10000x1_S10000x41_1_0_0_1_wf
def scatter_S1000_S10000x1_S10000_n_0_0_1 : ScatterDims S1000 S10000x1 S10000 where
  updateWindowDims := []
  insertedWindowDims := [0]
  scatterDimsToOperandDims := [0]
  indexVectorDim := 1
  wf := scatter_S1000_S10000x1_S10000_n_0_0_1_wf

abbrev win0_0 : Pipeline.Window sig grid0 :=
  Pipeline.Window.ofSpec (Memref.whole main_arg0) S4400x602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S602x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4400x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2200x602.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S602x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2200x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v1) S2200x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2200x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S2200x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v23) S2200x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S256x41.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S2200x41.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v23) S1000x256.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S256x41.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v25) S1000x41.size cc4_transform_2 reads4_2 true false 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v25) S1000x41.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v44) S1000x41.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v45) S1x41.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v46) S1000x41.size cc5_transform_3 reads5_3 true false 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S286000x602 : Shape := ⟨2, ![286000, 602]⟩
abbrev S602x256 : Shape := ⟨2, ![602, 256]⟩
abbrev S256 : Shape := ⟨1, ![256]⟩
abbrev S256x41 : Shape := ⟨2, ![256, 41]⟩
abbrev S41 : Shape := ⟨1, ![41]⟩
abbrev S275000 : Shape := ⟨1, ![275000]⟩
abbrev S10000 : Shape := ⟨1, ![10000]⟩
abbrev S11000x602 : Shape := ⟨2, ![11000, 602]⟩
abbrev S_ : Shape := ⟨0, ![]⟩
abbrev S275000x1 : Shape := ⟨2, ![275000, 1]⟩
abbrev S275000x602 : Shape := ⟨2, ![275000, 602]⟩
abbrev S11000 : Shape := ⟨1, ![11000]⟩
abbrev S11000x1 : Shape := ⟨2, ![11000, 1]⟩
abbrev S11000x256 : Shape := ⟨2, ![11000, 256]⟩
abbrev S1x256 : Shape := ⟨2, ![1, 256]⟩
abbrev S1000x256 : Shape := ⟨2, ![1000, 256]⟩
abbrev S10000x1 : Shape := ⟨2, ![10000, 1]⟩
abbrev S10000x256 : Shape := ⟨2, ![10000, 256]⟩
abbrev S1000 : Shape := ⟨1, ![1000]⟩
abbrev S1000x1 : Shape := ⟨2, ![1000, 1]⟩
abbrev S1000x41 : Shape := ⟨2, ![1000, 41]⟩
abbrev S1x41 : Shape := ⟨2, ![1, 41]⟩

abbrev nBuf : Space → Nat
  | .hbm => 78
  | .vmem => 0
  | .smem => 0
  | _ => 0

abbrev bufTy : (tb : Table) → Fin (tcTables nBuf tb) → BufTy
  | .hbm, ⟨0, _⟩ => ⟨S286000x602, .f32⟩
  | .hbm, ⟨1, _⟩ => ⟨S602x256, .f32⟩
  | .hbm, ⟨2, _⟩ => ⟨S602x256, .f32⟩
  | .hbm, ⟨3, _⟩ => ⟨S256, .f32⟩
  | .hbm, ⟨4, _⟩ => ⟨S256x41, .f32⟩
  | .hbm, ⟨5, _⟩ => ⟨S256x41, .f32⟩
  | .hbm, ⟨6, _⟩ => ⟨S41, .f32⟩
  | .hbm, ⟨7, _⟩ => ⟨S275000, .i32⟩
  | .hbm, ⟨8, _⟩ => ⟨S275000, .i32⟩
  | .hbm, ⟨9, _⟩ => ⟨S10000, .i32⟩
  | .hbm, ⟨10, _⟩ => ⟨S10000, .i32⟩
  | .hbm, ⟨11, _⟩ => ⟨S11000x602, .f32⟩
  | .hbm, ⟨12, _⟩ => ⟨S_, .i32⟩
  | .hbm, ⟨13, _⟩ => ⟨S275000, .i32⟩
  | .hbm, ⟨14, _⟩ => ⟨S275000, .i1⟩
  | .hbm, ⟨15, _⟩ => ⟨S_, .i32⟩
  | .hbm, ⟨16, _⟩ => ⟨S275000, .i32⟩
  | .hbm, ⟨17, _⟩ => ⟨S275000, .i32⟩
  | .hbm, ⟨18, _⟩ => ⟨S275000, .i32⟩
  | .hbm, ⟨19, _⟩ => ⟨S275000x1, .i32⟩
  | .hbm, ⟨20, _⟩ => ⟨S275000x602, .f32⟩
  | .hbm, ⟨21, _⟩ => ⟨S_, .f32⟩
  | .hbm, ⟨22, _⟩ => ⟨S11000x602, .f32⟩
  | .hbm, ⟨23, _⟩ => ⟨S275000x1, .i32⟩
  | .hbm, ⟨24, _⟩ => ⟨S11000x602, .f32⟩
  | .hbm, ⟨25, _⟩ => ⟨S_, .f32⟩
  | .hbm, ⟨26, _⟩ => ⟨S275000, .f32⟩
  | .hbm, ⟨27, _⟩ => ⟨S_, .f32⟩
  | .hbm, ⟨28, _⟩ => ⟨S11000, .f32⟩
  | .hbm, ⟨29, _⟩ => ⟨S275000x1, .i32⟩
  | .hbm, ⟨30, _⟩ => ⟨S11000, .f32⟩
  | .hbm, ⟨31, _⟩ => ⟨S_, .f32⟩
  | .hbm, ⟨32, _⟩ => ⟨S11000, .f32⟩
  | .hbm, ⟨33, _⟩ => ⟨S11000, .f32⟩
  | .hbm, ⟨34, _⟩ => ⟨S11000x1, .f32⟩
  | .hbm, ⟨35, _⟩ => ⟨S11000x602, .f32⟩
  | .hbm, ⟨36, _⟩ => ⟨S11000x602, .f32⟩
  | .hbm, ⟨37, _⟩ => ⟨S11000x256, .f32⟩
  | .hbm, ⟨38, _⟩ => ⟨S11000x256, .f32⟩
  | .hbm, ⟨39, _⟩ => ⟨S11000x256, .f32⟩
  | .hbm, ⟨40, _⟩ => ⟨S1x256, .f32⟩
  | .hbm, ⟨41, _⟩ => ⟨S11000x256, .f32⟩
  | .hbm, ⟨42, _⟩ => ⟨S11000x256, .f32⟩
  | .hbm, ⟨43, _⟩ => ⟨S_, .f32⟩
  | .hbm, ⟨44, _⟩ => ⟨S11000x256, .f32⟩
  | .hbm, ⟨45, _⟩ => ⟨S11000x256, .f32⟩
  | .hbm, ⟨46, _⟩ => ⟨S1000x256, .f32⟩
  | .hbm, ⟨47, _⟩ => ⟨S_, .i32⟩
  | .hbm, ⟨48, _⟩ => ⟨S10000, .i32⟩
  | .hbm, ⟨49, _⟩ => ⟨S10000, .i1⟩
  | .hbm, ⟨50, _⟩ => ⟨S_, .i32⟩
  | .hbm, ⟨51, _⟩ => ⟨S10000, .i32⟩
  | .hbm, ⟨52, _⟩ => ⟨S10000, .i32⟩
  | .hbm, ⟨53, _⟩ => ⟨S10000, .i32⟩
  | .hbm, ⟨54, _⟩ => ⟨S10000x1, .i32⟩
  | .hbm, ⟨55, _⟩ => ⟨S10000x256, .f32⟩
  | .hbm, ⟨56, _⟩ => ⟨S_, .f32⟩
  | .hbm, ⟨57, _⟩ => ⟨S1000x256, .f32⟩
  | .hbm, ⟨58, _⟩ => ⟨S10000x1, .i32⟩
  | .hbm, ⟨59, _⟩ => ⟨S1000x256, .f32⟩
  | .hbm, ⟨60, _⟩ => ⟨S_, .f32⟩
  | .hbm, ⟨61, _⟩ => ⟨S10000, .f32⟩
  | .hbm, ⟨62, _⟩ => ⟨S_, .f32⟩
  | .hbm, ⟨63, _⟩ => ⟨S1000, .f32⟩
  | .hbm, ⟨64, _⟩ => ⟨S10000x1, .i32⟩
  | .hbm, ⟨65, _⟩ => ⟨S1000, .f32⟩
  | .hbm, ⟨66, _⟩ => ⟨S_, .f32⟩
  | .hbm, ⟨67, _⟩ => ⟨S1000, .f32⟩
  | .hbm, ⟨68, _⟩ => ⟨S1000, .f32⟩
  | .hbm, ⟨69, _⟩ => ⟨S1000x1, .f32⟩
  | .hbm, ⟨70, _⟩ => ⟨S1000x256, .f32⟩
  | .hbm, ⟨71, _⟩ => ⟨S1000x256, .f32⟩
  | .hbm, ⟨72, _⟩ => ⟨S1000x41, .f32⟩
  | .hbm, ⟨73, _⟩ => ⟨S1000x41, .f32⟩
  | .hbm, ⟨74, _⟩ => ⟨S1000x41, .f32⟩
  | .hbm, ⟨75, _⟩ => ⟨S1x41, .f32⟩
  | .hbm, ⟨76, _⟩ => ⟨S1000x41, .f32⟩
  | .hbm, ⟨77, _⟩ => ⟨S1000x41, .f32⟩
  | _, _ => ⟨S286000x602, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  slices_S286000x602_S11000x602_0_0 : S286000x602.Slices ![0, 0] S11000x602
  bcast_S_S275000 : S_.BroadcastsInDim S275000 (![] : Fin 0 → Fin S275000.rank)
  bcast_S275000_S275000x1_0 : S275000.BroadcastsInDim S275000x1 (![0] : Fin 1 → Fin S275000x1.rank)
  bcast_S_S11000x602 : S_.BroadcastsInDim S11000x602 (![] : Fin 0 → Fin S11000x602.rank)
  bcast_S_S11000 : S_.BroadcastsInDim S11000 (![] : Fin 0 → Fin S11000.rank)
  bcast_S11000_S11000x1_0 : S11000.BroadcastsInDim S11000x1 (![0] : Fin 1 → Fin S11000x1.rank)
  bcast_S11000x1_S11000x602_0_1 : S11000x1.BroadcastsInDim S11000x602 (![0, 1] : Fin 2 → Fin S11000x602.rank)
  bcast_S256_S1x256_1 : S256.BroadcastsInDim S1x256 (![1] : Fin 1 → Fin S1x256.rank)
  bcast_S1x256_S11000x256_0_1 : S1x256.BroadcastsInDim S11000x256 (![0, 1] : Fin 2 → Fin S11000x256.rank)
  bcast_S_S11000x256 : S_.BroadcastsInDim S11000x256 (![] : Fin 0 → Fin S11000x256.rank)
  slices_S11000x256_S1000x256_0_0 : S11000x256.Slices ![0, 0] S1000x256
  bcast_S_S10000 : S_.BroadcastsInDim S10000 (![] : Fin 0 → Fin S10000.rank)
  bcast_S10000_S10000x1_0 : S10000.BroadcastsInDim S10000x1 (![0] : Fin 1 → Fin S10000x1.rank)
  bcast_S_S1000x256 : S_.BroadcastsInDim S1000x256 (![] : Fin 0 → Fin S1000x256.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x256_0_1 : S1000x1.BroadcastsInDim S1000x256 (![0, 1] : Fin 2 → Fin S1000x256.rank)
  bcast_S41_S1x41_1 : S41.BroadcastsInDim S1x41 (![1] : Fin 1 → Fin S1x41.rank)
  bcast_S1x41_S1000x41_0_1 : S1x41.BroadcastsInDim S1000x41 (![0, 1] : Fin 2 → Fin S1000x41.rank)
  gather_S286000x602_S275000x1_S275000x602_1_0_n_n_0_1_1602_wf : GatherDims.WF S286000x602 S275000x1 S275000x602 [1] [0] [] [0] [] 1 ![1, 602]
  scatter_S11000x602_S275000x1_S275000x602_1_0_0_1_wf : ScatterDims.WF S11000x602 S275000x1 S275000x602 [1] [0] [0] 1
  scatter_S11000_S275000x1_S275000_n_0_0_1_wf : ScatterDims.WF S11000 S275000x1 S275000 [] [0] [0] 1
  dot_S11000x602_S602x256_S11000x256_1_0_0_1_n_n_wf : DotDims.WF S11000x602 S602x256 S11000x256 [1] [0] [0] [1] [] []
  gather_S11000x256_S10000x1_S10000x256_1_0_n_n_0_1_1256_wf : GatherDims.WF S11000x256 S10000x1 S10000x256 [1] [0] [] [0] [] 1 ![1, 256]
  scatter_S1000x256_S10000x1_S10000x256_1_0_0_1_wf : ScatterDims.WF S1000x256 S10000x1 S10000x256 [1] [0] [0] 1
  scatter_S1000_S10000x1_S10000_n_0_0_1_wf : ScatterDims.WF S1000 S10000x1 S10000 [] [0] [0] 1
  dot_S1000x256_S256x41_S1000x41_1_0_0_1_n_n_wf : DotDims.WF S1000x256 S256x41 S1000x41 [1] [0] [0] [1] [] []

variable [Facts₀]

def gather_S286000x602_S275000x1_S275000x602_1_0_n_n_0_1_1602 : GatherDims S286000x602 S275000x1 S275000x602 where
  offsetDims := [1]
  collapsedSliceDims := [0]
  operandBatchingDims := []
  startIndicesBatchingDims := []
  startIndexMap := [0]
  indexVectorDim := 1
  sliceSizes := ![1, 602]
  wf := gather_S286000x602_S275000x1_S275000x602_1_0_n_n_0_1_1602_wf
def scatter_S11000x602_S275000x1_S275000x602_1_0_0_1 : ScatterDims S11000x602 S275000x1 S275000x602 where
  updateWindowDims := [1]
  insertedWindowDims := [0]
  scatterDimsToOperandDims := [0]
  indexVectorDim := 1
  wf := scatter_S11000x602_S275000x1_S275000x602_1_0_0_1_wf
def scatter_S11000_S275000x1_S275000_n_0_0_1 : ScatterDims S11000 S275000x1 S275000 where
  updateWindowDims := []
  insertedWindowDims := [0]
  scatterDimsToOperandDims := [0]
  indexVectorDim := 1
  wf := scatter_S11000_S275000x1_S275000_n_0_0_1_wf
def dot_S11000x602_S602x256_S11000x256_1_0_0_1_n_n : DotDims S11000x602 S602x256 S11000x256 where
  lhsContracting := [1]
  rhsContracting := [0]
  lhsNonContracting := [0]
  rhsNonContracting := [1]
  lhsBatch := []
  rhsBatch := []
  wf := dot_S11000x602_S602x256_S11000x256_1_0_0_1_n_n_wf
def gather_S11000x256_S10000x1_S10000x256_1_0_n_n_0_1_1256 : GatherDims S11000x256 S10000x1 S10000x256 where
  offsetDims := [1]
  collapsedSliceDims := [0]
  operandBatchingDims := []
  startIndicesBatchingDims := []
  startIndexMap := [0]
  indexVectorDim := 1
  sliceSizes := ![1, 256]
  wf := gather_S11000x256_S10000x1_S10000x256_1_0_n_n_0_1_1256_wf
def scatter_S1000x256_S10000x1_S10000x256_1_0_0_1 : ScatterDims S1000x256 S10000x1 S10000x256 where
  updateWindowDims := [1]
  insertedWindowDims := [0]
  scatterDimsToOperandDims := [0]
  indexVectorDim := 1
  wf := scatter_S1000x256_S10000x1_S10000x256_1_0_0_1_wf
def scatter_S1000_S10000x1_S10000_n_0_0_1 : ScatterDims S1000 S10000x1 S10000 where
  updateWindowDims := []
  insertedWindowDims := [0]
  scatterDimsToOperandDims := [0]
  indexVectorDim := 1
  wf := scatter_S1000_S10000x1_S10000_n_0_0_1_wf
def dot_S1000x256_S256x41_S1000x41_1_0_0_1_n_n : DotDims S1000x256 S256x41 S1000x41 where
  lhsContracting := [1]
  rhsContracting := [0]
  lhsNonContracting := [0]
  rhsNonContracting := [1]
  lhsBatch := []
  rhsBatch := []
  wf := dot_S1000x256_S256x41_S1000x41_1_0_0_1_n_n_wf

class Facts : Prop extends Facts₀ where

variable [Facts]
-- ==== Proof.FiniteArgs.lean ====
/-
  Every entry of the seven floating-point argument arrays is a real number.

  The precondition is the conjunction, over the seven arrays, of "every entry x has |x| < +∞", each stated as a
  reduction by `and` of the elementwise comparison. Read at the one index of the result, the conjunction splits into
  its seven reductions; a reduction by `and` that is 1 had a 1 at every entry; and over the extended reals
  max x (-x) < ⊤ excludes x = ⊤ and x = ⊥, so x is the image of a real.
-/
import proofs.«129063_j1872605741714_2_alg».proof.Defs
import Idealize.ShloMosaic.Lib.ReduceAll
import Idealize.ShloMosaic.Lib.ValueIdx
import Idealize.ShloMosaic.PureOps.Ideal.Laws

noncomputable section

namespace Cert.KernelIdeal.FiniteArgs

open Idealize.ShloMosaic Idealize.ShloMosaic.ValueIdx

/-- The f32 pattern with all-ones exponent, zero significand and sign 0 denotes +∞. -/
theorem inf_bits : Ideal.ofBits .f32 0x7F800000#32 = (⊤ : EReal) := by
  simp [Ideal.ofBits, Ideal.ieee]

/-- An extended real whose absolute value max x (-x) is below ⊤ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The element fact: the ordered comparison |x| < +∞ coming out 1 makes x a real. -/
theorem real_of_cmp (x : Ideal .f32)
    (h : FloatOps.cmpf (F := Ideal) (φ := .f32) .olt (FloatOps.hostAbsf (F := Ideal) (φ := .f32) x)
      (Ideal.ofBits .f32 0x7F800000#32) = 1#1) :
    ∃ r : ℝ, x = (r : EReal) := by
  rw [inf_bits] at h
  apply real_of_abs_lt_top
  have h' : BitVec.ofBool (decide (max x (-x) < (⊤ : EReal))) = 1#1 := h
  by_contra hn
  rw [decide_eq_false hn] at h'
  exact absurd h' (by decide)

/-- The rank-0 index set has one element. -/
instance : Subsingleton Cert.Pre_finite_inputs.S_.Idx := ⟨fun a b => funext fun d => d.elim0⟩

variable [Cert.Pre_finite_inputs.Facts]

/-- Under the precondition, on every device, every entry of each of the seven floating-point argument arrays is a
    real number. -/
theorem args_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal)) := by
  have h0 := congrFun (h c) ix0
  dsimp only [Cert.Pre_finite_inputs.fn, Cert.Pre_finite_inputs.fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨fun i => real_of_cmp _ (Host.reduce_andi_all _ _ _ _ ix0 h0 i),
    fun i => real_of_cmp _ (Host.reduce_andi_all _ _ _ _ ix0 h1 i),
    fun i => real_of_cmp _ (Host.reduce_andi_all _ _ _ _ ix0 h2 i),
    fun i => real_of_cmp _ (Host.reduce_andi_all _ _ _ _ ix0 h3 i),
    fun i => real_of_cmp _ (Host.reduce_andi_all _ _ _ _ ix0 h4 i),
    fun i => real_of_cmp _ (Host.reduce_andi_all _ _ _ _ ix0 h5 i),
    fun i => real_of_cmp _ (Host.reduce_andi_all _ _ _ _ ix0 h6 i)⟩

/-- Every entry of argument 0 is a real number. -/
theorem arg0_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) :=
  (args_real m h c).1

/-- Every entry of argument 1 is a real number. -/
theorem arg1_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) :=
  (args_real m h c).2.1

/-- Every entry of argument 2 is a real number. -/
theorem arg2_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) :=
  (args_real m h c).2.2.1

/-- Every entry of argument 3 is a real number. -/
theorem arg3_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (args_real m h c).2.2.2.1

/-- Every entry of argument 4 is a real number. -/
theorem arg4_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg4) i = (r : EReal) :=
  (args_real m h c).2.2.2.2.1

/-- Every entry of argument 5 is a real number. -/
theorem arg5_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg5) i = (r : EReal) :=
  (args_real m h c).2.2.2.2.2.1

/-- Every entry of argument 6 is a real number. -/
theorem arg6_real (m : (ℓ : Loc Cert.KernelIdeal.nD Cert.KernelIdeal.τ Cert.KernelIdeal.sig) → Buf (Elt Ideal) ℓ)
    (h : Cert.Pre_KernelIdeal m) (c : Dev Cert.KernelIdeal.nD) :
    ∀ i, ∃ r : ℝ, m ((c.tc : Thread Cert.KernelIdeal.nD Cert.KernelIdeal.τ).loc Cert.KernelIdeal.main_arg6) i = (r : EReal) :=
  (args_real m h c).2.2.2.2.2.2

end Cert.KernelIdeal.FiniteArgs
-- ==== Proof.SageSpec.lean ====
/-
  Two-layer mean-aggregation message passing over the extended reals, written in two arrangements.

  A layer maps node features `f` to `act (f[:M] · Ws + mean_agg(f) · Wn + b)`, where `mean_agg(f)[d]` is the sum of
  the rows `f[src e]` over the edges `e` with `dst e = d`, divided by `max (number of such edges) 1`.
  The "projected" arrangement multiplies by `Wn` BEFORE gathering and averaging (`mean_agg(f · Wn)`), the "plain" one
  after (`mean_agg(f) · Wn`). The edge lists enter as the [E, 1] integer arrays the gather and the scatter read:
  a source index is clamped into the rows of the table, a destination index selects the edges of a segment.
-/
import Idealize.ShloMosaic.PureOps.Ideal
import Idealize.ShloMosaic.Lib.ValueIdx

noncomputable section

namespace Cert.SageSpec

open Idealize.ShloMosaic Idealize.ShloMosaic.ValueIdx

/-- The table row an edge reads: its source index, read signed and clamped into `[0, N - 1]`. -/
def rowOf (N : Nat) (hN : 0 < N) {E : Nat} (I : IVec ⟨2, ![E, 1]⟩ 32) (e : Fin E) : Fin N :=
  ⟨min (I (ix2 e ⟨0, Nat.one_pos⟩)).toInt.toNat (N - 1), by omega⟩

/-- The edges of segment `r`: those whose destination index, read signed, is `r`. -/
def seg {E M : Nat} (I : IVec ⟨2, ![E, 1]⟩ 32) (r : Fin M) : Finset (Fin E) :=
  Finset.univ.filter (fun e : Fin E => (I (ix2 e ⟨0, Nat.one_pos⟩)).toInt = (r.val : ℤ))

/-- The divisor of segment `r`: its number of edges, at least one. -/
def cnt {E M : Nat} (I : IVec ⟨2, ![E, 1]⟩ 32) (r : Fin M) : EReal :=
  max ((0 : EReal) + ∑ _e ∈ seg I r, (1 : EReal)) 1

/-- The mean over segment `r` of a per-edge value. -/
def segMean {E M : Nat} (I : IVec ⟨2, ![E, 1]⟩ 32) (r : Fin M) (v : Fin E → EReal) : EReal :=
  Ideal.div ((0 : EReal) + ∑ e ∈ seg I r, v e) (cnt I r)

section Net

variable (x : (⟨2, ![286000, 602]⟩ : Shape).Idx → EReal)
  (ws0 wn0 : (⟨2, ![602, 256]⟩ : Shape).Idx → EReal) (b0 : (⟨1, ![256]⟩ : Shape).Idx → EReal)
  (ws1 wn1 : (⟨2, ![256, 41]⟩ : Shape).Idx → EReal) (b1 : (⟨1, ![41]⟩ : Shape).Idx → EReal)
  (s0 d0 : IVec ⟨2, ![275000, 1]⟩ 32) (s1 d1 : IVec ⟨2, ![10000, 1]⟩ 32)

/-- Destination node `d` of the first layer as a row of the feature table. -/
def up0 (d : Fin 11000) : Fin 286000 := ⟨d.val, by have := d.isLt; omega⟩
/-- Destination node `d` of the second layer as a row of the hidden table. -/
def up1 (d : Fin 1000) : Fin 11000 := ⟨d.val, by have := d.isLt; omega⟩

/-- The first layer's self term: row `d` of the features times the self weights. -/
def self0 (d : Fin 11000) (j : Fin 256) : EReal := ∑ k : Fin 602, x (ix2 (up0 d) k) * ws0 (ix2 k j)

/-- Every feature row projected by the neighbour weights. -/
def proj0 (r : Fin 286000) (j : Fin 256) : EReal := ∑ k : Fin 602, x (ix2 r k) * wn0 (ix2 k j)

/-- The hidden layer, projected arrangement: the mean of the PROJECTED source rows. -/
def hidP (d : Fin 11000) (j : Fin 256) : EReal :=
  max ((self0 x ws0 d j + segMean d0 d (fun e => proj0 x wn0 (rowOf 286000 (by decide) s0 e) j)) + b0 (ix1 j)) 0

/-- The hidden layer, plain arrangement: the mean of the source rows, then projected. -/
def hidR (d : Fin 11000) (j : Fin 256) : EReal :=
  max ((self0 x ws0 d j
      + ∑ k : Fin 602, segMean d0 d (fun e => x (ix2 (rowOf 286000 (by decide) s0 e) k)) * wn0 (ix2 k j)) + b0 (ix1 j)) 0

/-- The output, projected arrangement, over a hidden table `h`. -/
def outP (h : Fin 11000 → Fin 256 → EReal) (d : Fin 1000) (j : Fin 41) : EReal :=
  ((∑ k : Fin 256, h (up1 d) k * ws1 (ix2 k j))
    + segMean d1 d (fun e => ∑ k : Fin 256, h (rowOf 11000 (by decide) s1 e) k * wn1 (ix2 k j))) + b1 (ix1 j)

/-- The output, plain arrangement, over a hidden table `h`. -/
def outR (h : Fin 11000 → Fin 256 → EReal) (d : Fin 1000) (j : Fin 41) : EReal :=
  ((∑ k : Fin 256, h (up1 d) k * ws1 (ix2 k j))
    + ∑ k : Fin 256, segMean d1 d (fun e => h (rowOf 11000 (by decide) s1 e) k) * wn1 (ix2 k j)) + b1 (ix1 j)

/-- The kernel's arrangement end to end. -/
def netP (d : Fin 1000) (j : Fin 41) : EReal := outP ws1 wn1 b1 s1 d1 (hidP x ws0 wn0 b0 s0 d0) d j
/-- The reference's arrangement end to end. -/
def netR (d : Fin 1000) (j : Fin 41) : EReal := outR ws1 wn1 b1 s1 d1 (hidR x ws0 wn0 b0 s0 d0) d j

end Net

end Cert.SageSpec

end
-- ==== Proof.LibSegMean.lean ====
/-
  REAL-VALUED EXTENDED REALS AND THE SEGMENT-MEAN EXCHANGE LAW.

  Over the extended reals multiplication does not distribute over addition in general (an infinite factor against a
  sum of opposite signs breaks it), so "project the rows, then average them" and "average the rows, then project"
  agree only where every value involved is an honest real number. This file names that condition (`IsReal`), shows
  it is closed under the operations a segment mean uses (sums, products, maxima, division by a nonzero real), and
  proves the exchange law: for a finite set `S` of rows, a weight vector `w` over a finite contraction index and a
  nonzero real divisor `C`,

      ∑ k, ((∑ e ∈ S, a e k) / C) * w k  =  (∑ e ∈ S, ∑ k, a e k * w k) / C .

  The divisor of a mean, `max (count of S) 1`, is a real number at least one, which gives the corollary with the
  divisor spelt as that count.
-/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Tactic.Ring
import Mathlib.Tactic.FieldSimp

noncomputable section

open scoped BigOperators

namespace Idealize.ShloMosaic.SegMean

open Idealize.ShloMosaic

/-! ## Real-valued extended reals -/

/-- An extended real that is the coercion of a real number (neither infinity). -/
def IsReal (v : EReal) : Prop := ∃ r : ℝ, v = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.max {a b : EReal} (ha : IsReal a) (hb : IsReal b) : IsReal (max a b) := by
  rcases le_total a b with h | h
  · rw [max_eq_right h]; exact hb
  · rw [max_eq_left h]; exact ha

/-- The coercion of a finite sum of reals is the sum of the coercions. -/
theorem coe_finset_sum {E : Type} (S : Finset E) (f : E → ℝ) :
    ((∑ e ∈ S, f e : ℝ) : EReal) = ∑ e ∈ S, (f e : EReal) := by
  classical
  induction S using Finset.induction_on with
  | empty => simp
  | insert x s hx ih => rw [Finset.sum_insert hx, Finset.sum_insert hx, EReal.coe_add, ih]

/-- A finite sum of real-valued terms is real-valued. -/
theorem isReal_finset_sum {E : Type} (S : Finset E) (f : E → EReal)
    (hf : ∀ e ∈ S, IsReal (f e)) : IsReal (∑ e ∈ S, f e) := by
  classical
  induction S using Finset.induction_on with
  | empty => rw [Finset.sum_empty]; exact isReal_zero
  | insert x s hx ih =>
    rw [Finset.sum_insert hx]
    exact (hf x (Finset.mem_insert_self x s)).add
      (ih (fun e he => hf e (Finset.mem_insert_of_mem he)))

/-- A sum over a finite type of real-valued terms is real-valued. -/
theorem isReal_sum {K : Type} [Fintype K] (f : K → EReal) (hf : ∀ k, IsReal (f k)) :
    IsReal (∑ k, f k) := by
  exact isReal_finset_sum Finset.univ f (fun k _ => hf k)

/-- Division of a real-valued dividend by a nonzero real-valued divisor is real-valued. -/
theorem IsReal.div {a c : EReal} (ha : IsReal a) (hc : IsReal c) (hc0 : c ≠ 0) :
    IsReal (Ideal.div a c) := by
  obtain ⟨x, rfl⟩ := ha
  obtain ⟨y, rfl⟩ := hc
  have hy : y ≠ 0 := fun h => hc0 (by rw [h]; rfl)
  rw [Ideal.div_coe hy]
  exact (isReal_coe x).mul (isReal_coe _)

/-! ## The divisor of a mean: the count of a finite set, floored at one -/

/-- The sum of ones over a finite set is its cardinality, a real number. -/
theorem sum_one_eq_card {E : Type} (S : Finset E) :
    (∑ _e ∈ S, (1 : EReal)) = ((S.card : ℝ) : EReal) := by
  have h : (∑ _e ∈ S, (1 : EReal)) = ∑ _e ∈ S, (((1 : ℝ)) : EReal) := rfl
  rw [h, ← coe_finset_sum S (fun _ => (1 : ℝ))]
  simp

/-- The divisor of a segment mean, `max (0 + count) 1`, is a real number. -/
theorem isReal_max_count {E : Type} (S : Finset E) :
    IsReal (max ((0 : EReal) + ∑ _e ∈ S, (1 : EReal)) 1) :=
  (isReal_zero.add (isReal_finset_sum S _ (fun _ _ => isReal_one))).max isReal_one

/-- The divisor of a segment mean is at least one. -/
theorem one_le_max_count {E : Type} (S : Finset E) :
    (1 : EReal) ≤ max ((0 : EReal) + ∑ _e ∈ S, (1 : EReal)) 1 := le_max_right _ _

/-- The divisor of a segment mean is not zero. -/
theorem max_count_ne_zero {E : Type} (S : Finset E) :
    max ((0 : EReal) + ∑ _e ∈ S, (1 : EReal)) 1 ≠ 0 := by
  intro h
  have h1 := one_le_max_count S
  rw [h] at h1
  exact absurd h1 (by norm_num)

/-! ## The exchange law -/

/-- Projecting after averaging is projecting before averaging, at real values: for real-valued rows `a e`, a real-valued
    weight vector `w` and a nonzero real divisor `C`, the contraction of the averaged row with `w` is the average of the
    contracted rows. In the reals this is distributivity and the exchange of two finite sums; the hypotheses are what
    carries it to the extended reals. -/
theorem sum_div_mul_eq_div_sum {E K : Type} [Fintype K] (S : Finset E) (a : E → K → EReal)
    (w : K → EReal) (C : EReal) (ha : ∀ e k, IsReal (a e k)) (hw : ∀ k, IsReal (w k)) (hC : IsReal C)
    (hC0 : C ≠ 0) :
    ∑ k, Ideal.div ((0 : EReal) + ∑ e ∈ S, a e k) C * w k
      = Ideal.div ((0 : EReal) + ∑ e ∈ S, ∑ k, a e k * w k) C := by
  choose a' ha' using ha
  choose w' hw' using hw
  obtain ⟨c, rfl⟩ := hC
  have hc : c ≠ 0 := fun h => hC0 (by rw [h]; rfl)
  -- each summand on the left is the coercion of a real number
  have lhs : ∀ k, Ideal.div ((0 : EReal) + ∑ e ∈ S, a e k) (c : EReal) * w k
      = (((∑ e ∈ S, a' e k) * (1 / c) * w' k : ℝ) : EReal) := by
    intro k
    rw [Ideal.div_coe hc, zero_add, hw' k, Finset.sum_congr rfl (fun e _ => ha' e k),
      ← coe_finset_sum S (fun e => a' e k), ← EReal.coe_mul, ← EReal.coe_mul]
  -- each contracted row on the right is the coercion of a real number
  have inner : ∀ e, ∑ k, a e k * w k = ((∑ k, a' e k * w' k : ℝ) : EReal) := by
    intro e
    rw [coe_finset_sum]
    exact Finset.sum_congr rfl (fun k _ => by rw [ha' e k, hw' k, EReal.coe_mul])
  rw [Finset.sum_congr rfl (fun k _ => lhs k), Ideal.div_coe hc, zero_add,
    Finset.sum_congr rfl (fun e _ => inner e), ← coe_finset_sum, ← coe_finset_sum, ← EReal.coe_mul]
  congr 1
  -- the law in the reals
  rw [Finset.sum_comm, Finset.sum_mul]
  refine Finset.sum_congr rfl (fun k _ => ?_)
  rw [← Finset.sum_mul]
  ring

/-- The exchange law with the divisor spelt as a segment mean's: the count of the segment, floored at one. -/
theorem sum_div_count_mul_eq_div_count_sum {E K : Type} [Fintype K] (S : Finset E) (a : E → K → EReal)
    (w : K → EReal) (ha : ∀ e k, IsReal (a e k)) (hw : ∀ k, IsReal (w k)) :
    ∑ k, Ideal.div ((0 : EReal) + ∑ e ∈ S, a e k) (max ((0 : EReal) + ∑ _e ∈ S, (1 : EReal)) 1) * w k
      = Ideal.div ((0 : EReal) + ∑ e ∈ S, ∑ k, a e k * w k) (max ((0 : EReal) + ∑ _e ∈ S, (1 : EReal)) 1) :=
  sum_div_mul_eq_div_sum S a w _ ha hw (isReal_max_count S) (max_count_ne_zero S)

end Idealize.ShloMosaic.SegMean
-- ==== Proof.SageLaw.lean ====
/-
  The two arrangements of the two-layer mean-aggregation network agree at real-valued inputs.

  The arrangements differ in one place per layer: whether the rows are contracted with the neighbour weights before
  or after the segment mean. At real values the mean of contracted rows is the contraction of the mean row (the
  exchange law of a finite sum, a division by a nonzero real and a product), so the first layers agree; the first
  layer of real inputs is again real-valued (sums, products, a real quotient and a maximum with zero), so the same law
  applies to the second layer over it.
-/
import proofs.«129063_j1872605741714_2_alg».proof.Proof.SageSpec
import proofs.«129063_j1872605741714_2_alg».proof.Proof.LibSegMean

noncomputable section

namespace Cert.SageSpec

open Idealize.ShloMosaic Idealize.ShloMosaic.ValueIdx Idealize.ShloMosaic.SegMean

/-! ## The segment mean at real values -/

/-- The mean of contracted rows is the contraction of the mean row, at real values. -/
theorem segMean_sum_mul {E M K : Nat} (I : IVec ⟨2, ![E, 1]⟩ 32) (r : Fin M) (a : Fin E → Fin K → EReal)
    (w : Fin K → EReal) (ha : ∀ e k, IsReal (a e k)) (hw : ∀ k, IsReal (w k)) :
    segMean I r (fun e => ∑ k : Fin K, a e k * w k) = ∑ k : Fin K, segMean I r (fun e => a e k) * w k := by
  unfold segMean cnt
  exact (sum_div_count_mul_eq_div_count_sum (seg I r) a w ha hw).symm

/-- The mean of real values is real. -/
theorem segMean_real {E M : Nat} (I : IVec ⟨2, ![E, 1]⟩ 32) (r : Fin M) (v : Fin E → EReal)
    (hv : ∀ e, IsReal (v e)) : IsReal (segMean I r v) := by
  unfold segMean cnt
  exact (isReal_zero.add (isReal_finset_sum _ _ (fun e _ => hv e))).div (isReal_max_count _)
    (max_count_ne_zero _)

section Net

variable (x : (⟨2, ![286000, 602]⟩ : Shape).Idx → EReal)
  (ws0 wn0 : (⟨2, ![602, 256]⟩ : Shape).Idx → EReal) (b0 : (⟨1, ![256]⟩ : Shape).Idx → EReal)
  (ws1 wn1 : (⟨2, ![256, 41]⟩ : Shape).Idx → EReal) (b1 : (⟨1, ![41]⟩ : Shape).Idx → EReal)
  (s0 d0 : IVec ⟨2, ![275000, 1]⟩ 32) (s1 d1 : IVec ⟨2, ![10000, 1]⟩ 32)

/-- The hidden layers of the two arrangements agree at real features and real neighbour weights. -/
theorem hid_eq (hx : ∀ i, IsReal (x i)) (hwn0 : ∀ i, IsReal (wn0 i)) (d : Fin 11000) (j : Fin 256) :
    hidP x ws0 wn0 b0 s0 d0 d j = hidR x ws0 wn0 b0 s0 d0 d j := by
  unfold hidP hidR proj0
  rw [segMean_sum_mul d0 d (fun e k => x (ix2 (rowOf 286000 (by decide) s0 e) k)) (fun k => wn0 (ix2 k j))
    (fun _ _ => hx _) (fun _ => hwn0 _)]

/-- The hidden layer of real inputs is real-valued. -/
theorem hidR_real (hx : ∀ i, IsReal (x i)) (hws0 : ∀ i, IsReal (ws0 i)) (hwn0 : ∀ i, IsReal (wn0 i))
    (hb0 : ∀ i, IsReal (b0 i)) (d : Fin 11000) (j : Fin 256) : IsReal (hidR x ws0 wn0 b0 s0 d0 d j) := by
  unfold hidR self0
  refine IsReal.max (IsReal.add (IsReal.add ?_ ?_) (hb0 _)) isReal_zero
  · exact isReal_sum _ (fun _ => (hx _).mul (hws0 _))
  · exact isReal_sum _ (fun _ => (segMean_real d0 d _ (fun _ => hx _)).mul (hwn0 _))

/-- The output layers of the two arrangements agree over a real-valued hidden table, at real neighbour weights. -/
theorem out_eq (h : Fin 11000 → Fin 256 → EReal) (hh : ∀ d k, IsReal (h d k)) (hwn1 : ∀ i, IsReal (wn1 i))
    (d : Fin 1000) (j : Fin 41) : outP ws1 wn1 b1 s1 d1 h d j = outR ws1 wn1 b1 s1 d1 h d j := by
  unfold outP outR
  rw [segMean_sum_mul d1 d (fun e k => h (rowOf 11000 (by decide) s1 e) k) (fun k => wn1 (ix2 k j))
    (fun _ _ => hh _ _) (fun _ => hwn1 _)]

/-- The two arrangements agree end to end at real-valued features, first-layer weights and bias, and second-layer
    neighbour weights. (The second layer's self weights and bias enter both sides in the same way.) -/
theorem netP_eq_netR (hx : ∀ i, IsReal (x i)) (hws0 : ∀ i, IsReal (ws0 i)) (hwn0 : ∀ i, IsReal (wn0 i))
    (hb0 : ∀ i, IsReal (b0 i)) (hwn1 : ∀ i, IsReal (wn1 i)) (d : Fin 1000) (j : Fin 41) :
    netP x ws0 wn0 b0 ws1 wn1 b1 s0 d0 s1 d1 d j = netR x ws0 wn0 b0 ws1 wn1 b1 s0 d0 s1 d1 d j := by
  unfold netP netR
  have hh : hidP x ws0 wn0 b0 s0 d0 = hidR x ws0 wn0 b0 s0 d0 :=
    funext fun d => funext fun k => hid_eq x ws0 wn0 b0 s0 d0 hx hwn0 d k
  rw [hh]
  exact out_eq ws1 wn1 b1 s1 d1 _ (fun d k => hidR_real x ws0 wn0 b0 s0 d0 hx hws0 hwn0 hb0 d k) hwn1 d j

end Net

end Cert.SageSpec
-- ==== Proof.KRun.lean ====
/-
  The kernel program's run with its result named: every weakly fair execution terminates without a fault, the result
  buffer ends holding what the last segment boundary's contents give it, and the argument arrays end as launched.
  The run is the launch over the program's segments (two regions, a host stretch, three regions, a host stretch, a
  region); the final read takes every unscoped buffer at the last boundary's contents, the result's among them.
-/
import proofs.«129063_j1872605741714_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run_value : θ_run defs (onTc (τ := τ) (main (F := F))) ⟨m, fun _ => 0, ρ⟩ (fun r => ∀ c : Dev nD,
      r.2.mem ((c.tc : Thread nD τ).loc main_v46) = W8 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v46 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.KVal

end
-- ==== Proof.KCommon.lean ====
/-
  Two small tools for reading rank-2 arrays by coordinates.
-/
import Idealize.ShloMosaic.Lib.ValueIdx

noncomputable section

namespace Cert.KernelIdeal.KVal

open Idealize.ShloMosaic Idealize.ShloMosaic.ValueIdx

/-- The zero offset of a whole-block access, as the constant function. -/
theorem hz : (![0, 0] : Fin 2 → Nat) = fun _ => 0 := funext fun a => by fin_cases a <;> rfl

/-- A function of the two coordinates as a function of a rank-2 index. -/
def ofCoords2 {n0 n1 : Nat} {α : Type} (g : Fin n0 → Fin n1 → α) : (⟨2, ![n0, n1]⟩ : Shape).Idx → α :=
  fun i => g ⟨(i 0).val, idx2_lt0 i⟩ ⟨(i 1).val, idx2_lt1 i⟩

theorem ofCoords2_ix2 {n0 n1 : Nat} {α : Type} (g : Fin n0 → Fin n1 → α) (p : Fin n0) (q : Fin n1) :
    ofCoords2 g (ix2 p q) = g p q := rfl

end Cert.KernelIdeal.KVal

end
-- ==== Proof.KRegion0.lean ====
/-
  Region 0 of the kernel program: the projection of every feature row by the neighbour weights, block by block,
  read as one array.
-/
import proofs.«129063_j1872605741714_2_alg».proof.Proof.Gen.KernelIdeal.Frame
import proofs.«129063_j1872605741714_2_alg».proof.Proof.KCommon
import Idealize.ShloMosaic.Lib.ValueIdx
import Idealize.ShloMosaic.Lib.Pipeline.Value
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ### The product of region 0: rows of a [4400, 602] block against a [602, 256] matrix -/

theorem lhs0_0 (i : S4400x256.Idx) (q : dot_S4400x602_S602x256_S4400x256_1_0_0_1_n_n.contr.Idx) : (dot_S4400x602_S602x256_S4400x256_1_0_0_1_n_n.lhsIdx i q 0).val = (i 0).val := by
  unfold DotDims.lhsIdx
  rw [dif_neg (show ¬(0 : Fin S4400x602.rank) ∈ dot_S4400x602_S602x256_S4400x256_1_0_0_1_n_n.lhsBatch by decide), dif_pos (show (0 : Fin S4400x602.rank) ∈ dot_S4400x602_S602x256_S4400x256_1_0_0_1_n_n.lhsNonContracting by decide)]
  rfl
theorem lhs0_1 (i : S4400x256.Idx) (q : dot_S4400x602_S602x256_S4400x256_1_0_0_1_n_n.contr.Idx) : (dot_S4400x602_S602x256_S4400x256_1_0_0_1_n_n.lhsIdx i q 1).val = (q ⟨0, by decide⟩).val :=
  dot_S4400x602_S602x256_S4400x256_1_0_0_1_n_n.lhsIdx_val_of_single rfl i q
theorem rhs0_0 (i : S4400x256.Idx) (q : dot_S4400x602_S602x256_S4400x256_1_0_0_1_n_n.contr.Idx) : (dot_S4400x602_S602x256_S4400x256_1_0_0_1_n_n.rhsIdx i q 0).val = (q ⟨0, by decide⟩).val :=
  dot_S4400x602_S602x256_S4400x256_1_0_0_1_n_n.rhsIdx_val_of_single rfl i q
theorem rhs0_1 (i : S4400x256.Idx) (q : dot_S4400x602_S602x256_S4400x256_1_0_0_1_n_n.contr.Idx) : (dot_S4400x602_S602x256_S4400x256_1_0_0_1_n_n.rhsIdx i q 1).val = (i 1).val := by
  unfold DotDims.rhsIdx
  rw [dif_neg (show ¬(1 : Fin S602x256.rank) ∈ dot_S4400x602_S602x256_S4400x256_1_0_0_1_n_n.rhsBatch by decide), dif_pos (show (1 : Fin S602x256.rank) ∈ dot_S4400x602_S602x256_S4400x256_1_0_0_1_n_n.rhsNonContracting by decide)]
  rfl

/-- Entry (p, q) of the body's product of its two loaded blocks: the sum over the contracted axis (the changes of float
    format are the identity on exact values, and the accumulator starts at zero). -/
theorem pay0_apply (x0 : Vec Ideal S4400x602 .f32) (x1 : Vec Ideal S602x256 .f32) (p : Fin 4400) (q : Fin 256) :
    k0_pay1 (F := Ideal) x0 x1 (ix2 p q) = ∑ k : Fin 602, x0 (ix2 p k) * x1 (ix2 k q) := by
  unfold k0_pay1
  refine (Ideal.matmul_constant_zero_apply dot_S4400x602_S602x256_S4400x256_1_0_0_1_n_n none _ _ (ix2 p q)).trans ?_
  rw [← Equiv.sum_comp (contrEquiv1 dot_S4400x602_S602x256_S4400x256_1_0_0_1_n_n 602 rfl rfl).symm]
  refine Finset.sum_congr rfl fun k _ => ?_
  have hk := contrEquiv1_symm_val dot_S4400x602_S602x256_S4400x256_1_0_0_1_n_n 602 rfl rfl k
  have el : dot_S4400x602_S602x256_S4400x256_1_0_0_1_n_n.lhsIdx (ix2 p q) ((contrEquiv1 dot_S4400x602_S602x256_S4400x256_1_0_0_1_n_n 602 rfl rfl).symm k) = ix2 p k :=
    funext fun a => Fin.ext (by
      match a with
      | ⟨0, _⟩ => exact lhs0_0 _ _
      | ⟨1, _⟩ => exact (lhs0_1 _ _).trans hk)
  have er : dot_S4400x602_S602x256_S4400x256_1_0_0_1_n_n.rhsIdx (ix2 p q) ((contrEquiv1 dot_S4400x602_S602x256_S4400x256_1_0_0_1_n_n 602 rfl rfl).symm k) = ix2 k q :=
    funext fun a => Fin.ext (by
      match a with
      | ⟨0, _⟩ => exact (rhs0_0 _ _).trans hk
      | ⟨1, _⟩ => exact rhs0_1 _ _)
  rw [el, er]
  rfl

/-! ## Region 0: the array it writes, from the arrays it finds -/

/-- Region 0's array: every feature row times the neighbour weights. -/
def G0 (A : S286000x602.Idx → EReal) (B : S602x256.Idx → EReal) : S286000x256.Idx → EReal :=
  ofCoords2 (fun (d : Fin 286000) (q : Fin 256) => ∑ k : Fin 602, A (ix2 d k) * B (ix2 k q))

theorem G0_ix2 (A : S286000x602.Idx → EReal) (B : S602x256.Idx → EReal) (d : Fin 286000) (q : Fin 256) :
    G0 A B (ix2 d q) = ∑ k : Fin 602, A (ix2 d k) * B (ix2 k q) := rfl

/-- The printed index maps over the grid: the row block of the left operand moves with the output's, every other
    block index is zero, and the output's row block stays inside the array. -/
theorem idx_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) < 65 :=
  (by decide +kernel : ∀ t : Fin grid0.N, _)

/-- Every row block of the output is some point's. -/
theorem idx_onto0 : ∀ q0 : Fin 65, ∃ t : Fin cfg0.N, win0_2.index t = ![q0.val, 0] :=
  (by decide +kernel : ∀ q0 : Fin 65, ∃ t : Fin grid0.N, win0_2.index t = ![q0.val, 0])

/-- What point `t` writes back is block `t` of `G0` of the arrays the region finds. -/
theorem flushed0 (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero hz]
  simp only [View.ld_unit_zero (S := S4400x602) hz, View.ld_unit_zero (S := S602x256) hz]
  obtain ⟨e0, e1, e2, e3, e4, e5⟩ := idx_facts0 t
  funext j
  obtain ⟨p, q, rfl⟩ : ∃ (p : Fin 4400) (q : Fin 256), j = ix2 p q := ⟨j 0, j 1, eq_ix2 j⟩
  show k0_pay1 (F := Ideal) (iblk0 V c 0 t) (iblk0 V c 1 t) (ix2 p q) = _
  refine (pay0_apply (iblk0 V c 0 t) (iblk0 V c 1 t) p q).trans ?_
  have hp : p.val < 4400 := p.isLt
  have hq : q.val < 256 := q.isLt
  have hO : ((cfg0.win 2).blk t).view.emb (ix2 p q)
      = (ix2 (⟨win0_2.index t (0 : Fin 2) * 4400 + p.val, by omega⟩ : Fin 286000) q : S286000x256.Idx) := by
    funext a; apply Fin.ext
    match a with
    | ⟨0, _⟩ => show win0_2.index t (0 : Fin 2) * 4400 + 1 * p.val = win0_2.index t (0 : Fin 2) * 4400 + p.val; omega
    | ⟨1, _⟩ => show win0_2.index t (1 : Fin 2) * 256 + 1 * q.val = q.val; omega
  show _ = G0 (V c main_arg0) (V c main_arg2) (((cfg0.win 2).blk t).view.emb (ix2 p q))
  rw [hO, G0_ix2]
  refine Finset.sum_congr rfl fun k _ => ?_
  have hk : k.val < 602 := k.isLt
  have h0 : ((cfg0.win 0).blk t).view.emb (ix2 p k) = (ix2 (⟨win0_2.index t (0 : Fin 2) * 4400 + p.val, by omega⟩ : Fin 286000) k : _) := by
    funext a; apply Fin.ext
    match a with
    | ⟨0, _⟩ => show win0_0.index t (0 : Fin 2) * 4400 + 1 * p.val = win0_2.index t (0 : Fin 2) * 4400 + p.val; omega
    | ⟨1, _⟩ => show win0_0.index t (1 : Fin 2) * 602 + 1 * k.val = k.val; omega
  have h1 : ((cfg0.win 1).blk t).view.emb (ix2 k q) = (ix2 k q : _) := by
    funext a; apply Fin.ext
    match a with
    | ⟨0, _⟩ => show win0_1.index t (0 : Fin 2) * 602 + 1 * k.val = k.val; omega
    | ⟨1, _⟩ => show win0_1.index t (1 : Fin 2) * 256 + 1 * q.val = q.val; omega
  have ha : iblk0 V c 0 t (ix2 p k) = V c main_arg0 (ix2 (⟨win0_2.index t (0 : Fin 2) * 4400 + p.val, by omega⟩ : Fin 286000) k) := by
    show V c main_arg0 (((cfg0.win 0).blk t).view.emb (ix2 p k)) = _
    rw [h0]
  have hb : iblk0 V c 1 t (ix2 k q) = V c main_arg2 (ix2 k q) := by
    show V c main_arg2 (((cfg0.win 1).blk t).view.emb (ix2 k q)) = _
    rw [h1]
  rw [ha, hb]

/-- An index of the output array is in point `t`'s block iff each coordinate is in the block's range. -/
theorem mem_blk0 (t : Fin cfg0.N) (i : S286000x256.Idx) :
    i ∈ ((cfg0.win 2).blk t).view.set ↔ ∀ a : Fin 2, win0_2.index t a * S4400x256.size a ≤ (i a).val ∧ (i a).val < win0_2.index t a * S4400x256.size a + S4400x256.size a := by
  show i ∈ ((View.whole main_v0).slice (win0_2.rect t)).set ↔ _
  rw [View.set_slice_whole, Rect.mem_set_unit]
  exact Iff.rfl

/-- The blocks tile the output array: row `r` is in the block of the point whose row block is `r / 4400`. -/
theorem cover0 (i : S286000x256.Idx) :
    ∃ t : Fin cfg0.N, (cfg0.win 2).flush t = true ∧ i ∈ ((cfg0.win 2).blk t).view.set := by
  have hi0 : (i 0).val < 286000 := idx2_lt0 i
  have hi1 : (i 1).val < 256 := idx2_lt1 i
  obtain ⟨t, ht⟩ := idx_onto0 ⟨(i 0).val / 4400, by omega⟩
  have q0 : win0_2.index t (0 : Fin 2) = (i 0).val / 4400 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 4400 ≤ (i 0).val ∧ (i 0).val < win0_2.index t (0 : Fin 2) * 4400 + 4400; omega
  | ⟨1, _⟩ => show win0_2.index t (1 : Fin 2) * 256 ≤ (i 1).val ∧ (i 1).val < win0_2.index t (1 : Fin 2) * 256 + 256; omega

/-- The output array after the region. -/
theorem final0 (c : Dev nD) : (dat0 V c).arrAt 2 cfg0.N = G0 (V c main_arg0) (V c main_arg2) :=
  (dat0 V c).arrAt_eq_of_cover 2 (G0 (V c main_arg0) (V c main_arg2)) (fun t _ => flushed0 V c t) cover0

end Cert.KernelIdeal.KVal

end
-- ==== Proof.KRegion1.lean ====
/-
  Region 1 of the kernel program: the first 11000 feature rows times the self weights, block by block, read as one array.
-/
import proofs.«129063_j1872605741714_2_alg».proof.Proof.Gen.KernelIdeal.Frame
import proofs.«129063_j1872605741714_2_alg».proof.Proof.KCommon
import Idealize.ShloMosaic.Lib.ValueIdx
import Idealize.ShloMosaic.Lib.Pipeline.Value
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ### The product of region 1: rows of a [2200, 602] block against a [602, 256] matrix -/

theorem lhs1_0 (i : S2200x256.Idx) (q : dot_S2200x602_S602x256_S2200x256_1_0_0_1_n_n.contr.Idx) : (dot_S2200x602_S602x256_S2200x256_1_0_0_1_n_n.lhsIdx i q 0).val = (i 0).val := by
  unfold DotDims.lhsIdx
  rw [dif_neg (show ¬(0 : Fin S2200x602.rank) ∈ dot_S2200x602_S602x256_S2200x256_1_0_0_1_n_n.lhsBatch by decide), dif_pos (show (0 : Fin S2200x602.rank) ∈ dot_S2200x602_S602x256_S2200x256_1_0_0_1_n_n.lhsNonContracting by decide)]
  rfl
theorem lhs1_1 (i : S2200x256.Idx) (q : dot_S2200x602_S602x256_S2200x256_1_0_0_1_n_n.contr.Idx) : (dot_S2200x602_S602x256_S2200x256_1_0_0_1_n_n.lhsIdx i q 1).val = (q ⟨0, by decide⟩).val :=
  dot_S2200x602_S602x256_S2200x256_1_0_0_1_n_n.lhsIdx_val_of_single rfl i q
theorem rhs1_0 (i : S2200x256.Idx) (q : dot_S2200x602_S602x256_S2200x256_1_0_0_1_n_n.contr.Idx) : (dot_S2200x602_S602x256_S2200x256_1_0_0_1_n_n.rhsIdx i q 0).val = (q ⟨0, by decide⟩).val :=
  dot_S2200x602_S602x256_S2200x256_1_0_0_1_n_n.rhsIdx_val_of_single rfl i q
theorem rhs1_1 (i : S2200x256.Idx) (q : dot_S2200x602_S602x256_S2200x256_1_0_0_1_n_n.contr.Idx) : (dot_S2200x602_S602x256_S2200x256_1_0_0_1_n_n.rhsIdx i q 1).val = (i 1).val := by
  unfold DotDims.rhsIdx
  rw [dif_neg (show ¬(1 : Fin S602x256.rank) ∈ dot_S2200x602_S602x256_S2200x256_1_0_0_1_n_n.rhsBatch by decide), dif_pos (show (1 : Fin S602x256.rank) ∈ dot_S2200x602_S602x256_S2200x256_1_0_0_1_n_n.rhsNonContracting by decide)]
  rfl

/-- Entry (p, q) of the body's product of its two loaded blocks: the sum over the contracted axis (the changes of float
    format are the identity on exact values, and the accumulator starts at zero). -/
theorem pay1_apply (x0 : Vec Ideal S2200x602 .f32) (x1 : Vec Ideal S602x256 .f32) (p : Fin 2200) (q : Fin 256) :
    k1_pay1 (F := Ideal) x0 x1 (ix2 p q) = ∑ k : Fin 602, x0 (ix2 p k) * x1 (ix2 k q) := by
  unfold k1_pay1
  refine (Ideal.matmul_constant_zero_apply dot_S2200x602_S602x256_S2200x256_1_0_0_1_n_n none _ _ (ix2 p q)).trans ?_
  rw [← Equiv.sum_comp (contrEquiv1 dot_S2200x602_S602x256_S2200x256_1_0_0_1_n_n 602 rfl rfl).symm]
  refine Finset.sum_congr rfl fun k _ => ?_
  have hk := contrEquiv1_symm_val dot_S2200x602_S602x256_S2200x256_1_0_0_1_n_n 602 rfl rfl k
  have el : dot_S2200x602_S602x256_S2200x256_1_0_0_1_n_n.lhsIdx (ix2 p q) ((contrEquiv1 dot_S2200x602_S602x256_S2200x256_1_0_0_1_n_n 602 rfl rfl).symm k) = ix2 p k :=
    funext fun a => Fin.ext (by
      match a with
      | ⟨0, _⟩ => exact lhs1_0 _ _
      | ⟨1, _⟩ => exact (lhs1_1 _ _).trans hk)
  have er : dot_S2200x602_S602x256_S2200x256_1_0_0_1_n_n.rhsIdx (ix2 p q) ((contrEquiv1 dot_S2200x602_S602x256_S2200x256_1_0_0_1_n_n 602 rfl rfl).symm k) = ix2 k q :=
    funext fun a => Fin.ext (by
      match a with
      | ⟨0, _⟩ => exact (rhs1_0 _ _).trans hk
      | ⟨1, _⟩ => exact rhs1_1 _ _)
  rw [el, er]
  rfl

/-! ## Region 1: the array it writes, from the arrays it finds -/

/-- Region 1's array: the first 11000 feature rows times the self weights. -/
def G1 (A : S286000x602.Idx → EReal) (B : S602x256.Idx → EReal) : S11000x256.Idx → EReal :=
  ofCoords2 (fun (d : Fin 11000) (q : Fin 256) => ∑ k : Fin 602, A (ix2 (⟨d.val, by have := d.isLt; omega⟩ : Fin 286000) k) * B (ix2 k q))

theorem G1_ix2 (A : S286000x602.Idx → EReal) (B : S602x256.Idx → EReal) (d : Fin 11000) (q : Fin 256) :
    G1 A B (ix2 d q) = ∑ k : Fin 602, A (ix2 (⟨d.val, by have := d.isLt; omega⟩ : Fin 286000) k) * B (ix2 k q) := rfl

/-- The printed index maps over the grid: the row block of the left operand moves with the output's, every other
    block index is zero, and the output's row block stays inside the array. -/
theorem idx_facts1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) < 5 :=
  (by decide +kernel : ∀ t : Fin grid1.N, _)

/-- Every row block of the output is some point's. -/
theorem idx_onto1 : ∀ q0 : Fin 5, ∃ t : Fin cfg1.N, win1_2.index t = ![q0.val, 0] :=
  (by decide +kernel : ∀ q0 : Fin 5, ∃ t : Fin grid1.N, win1_2.index t = ![q0.val, 0])

/-- What point `t` writes back is block `t` of `G1` of the arrays the region finds. -/
theorem flushed1 (c : Dev nD) (t : Fin cfg1.N) :
    (dat1 V c).flushed 2 t = ((cfg1.win 2).blk t).view.read (Elt Ideal) (G1 (V c main_arg0) (V c main_arg1)) := by
  show (cfg1.win 2).cut (grid1.coords t) ((dat1 V c).after 2 t) = _
  rw [after1_2]
  unfold out1_2
  rw [View.canon_unit_zero hz]
  simp only [View.ld_unit_zero (S := S2200x602) hz, View.ld_unit_zero (S := S602x256) hz]
  obtain ⟨e0, e1, e2, e3, e4, e5⟩ := idx_facts1 t
  funext j
  obtain ⟨p, q, rfl⟩ : ∃ (p : Fin 2200) (q : Fin 256), j = ix2 p q := ⟨j 0, j 1, eq_ix2 j⟩
  show k1_pay1 (F := Ideal) (iblk1 V c 0 t) (iblk1 V c 1 t) (ix2 p q) = _
  refine (pay1_apply (iblk1 V c 0 t) (iblk1 V c 1 t) p q).trans ?_
  have hp : p.val < 2200 := p.isLt
  have hq : q.val < 256 := q.isLt
  have hO : ((cfg1.win 2).blk t).view.emb (ix2 p q)
      = (ix2 (⟨win1_2.index t (0 : Fin 2) * 2200 + p.val, by omega⟩ : Fin 11000) q : S11000x256.Idx) := by
    funext a; apply Fin.ext
    match a with
    | ⟨0, _⟩ => show win1_2.index t (0 : Fin 2) * 2200 + 1 * p.val = win1_2.index t (0 : Fin 2) * 2200 + p.val; omega
    | ⟨1, _⟩ => show win1_2.index t (1 : Fin 2) * 256 + 1 * q.val = q.val; omega
  show _ = G1 (V c main_arg0) (V c main_arg1) (((cfg1.win 2).blk t).view.emb (ix2 p q))
  rw [hO, G1_ix2]
  refine Finset.sum_congr rfl fun k _ => ?_
  have hk : k.val < 602 := k.isLt
  have h0 : ((cfg1.win 0).blk t).view.emb (ix2 p k) = (ix2 (⟨win1_2.index t (0 : Fin 2) * 2200 + p.val, by omega⟩ : Fin 286000) k : _) := by
    funext a; apply Fin.ext
    match a with
    | ⟨0, _⟩ => show win1_0.index t (0 : Fin 2) * 2200 + 1 * p.val = win1_2.index t (0 : Fin 2) * 2200 + p.val; omega
    | ⟨1, _⟩ => show win1_0.index t (1 : Fin 2) * 602 + 1 * k.val = k.val; omega
  have h1 : ((cfg1.win 1).blk t).view.emb (ix2 k q) = (ix2 k q : _) := by
    funext a; apply Fin.ext
    match a with
    | ⟨0, _⟩ => show win1_1.index t (0 : Fin 2) * 602 + 1 * k.val = k.val; omega
    | ⟨1, _⟩ => show win1_1.index t (1 : Fin 2) * 256 + 1 * q.val = q.val; omega
  have ha : iblk1 V c 0 t (ix2 p k) = V c main_arg0 (ix2 (⟨win1_2.index t (0 : Fin 2) * 2200 + p.val, by omega⟩ : Fin 286000) k) := by
    show V c main_arg0 (((cfg1.win 0).blk t).view.emb (ix2 p k)) = _
    rw [h0]
  have hb : iblk1 V c 1 t (ix2 k q) = V c main_arg1 (ix2 k q) := by
    show V c main_arg1 (((cfg1.win 1).blk t).view.emb (ix2 k q)) = _
    rw [h1]
  rw [ha, hb]

/-- An index of the output array is in point `t`'s block iff each coordinate is in the block's range. -/
theorem mem_blk1 (t : Fin cfg1.N) (i : S11000x256.Idx) :
    i ∈ ((cfg1.win 2).blk t).view.set ↔ ∀ a : Fin 2, win1_2.index t a * S2200x256.size a ≤ (i a).val ∧ (i a).val < win1_2.index t a * S2200x256.size a + S2200x256.size a := by
  show i ∈ ((View.whole main_v1).slice (win1_2.rect t)).set ↔ _
  rw [View.set_slice_whole, Rect.mem_set_unit]
  exact Iff.rfl

/-- The blocks tile the output array: row `r` is in the block of the point whose row block is `r / 2200`. -/
theorem cover1 (i : S11000x256.Idx) :
    ∃ t : Fin cfg1.N, (cfg1.win 2).flush t = true ∧ i ∈ ((cfg1.win 2).blk t).view.set := by
  have hi0 : (i 0).val < 11000 := idx2_lt0 i
  have hi1 : (i 1).val < 256 := idx2_lt1 i
  obtain ⟨t, ht⟩ := idx_onto1 ⟨(i 0).val / 2200, by omega⟩
  have q0 : win1_2.index t (0 : Fin 2) = (i 0).val / 2200 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 2200 ≤ (i 0).val ∧ (i 0).val < win1_2.index t (0 : Fin 2) * 2200 + 2200; omega
  | ⟨1, _⟩ => show win1_2.index t (1 : Fin 2) * 256 ≤ (i 1).val ∧ (i 1).val < win1_2.index t (1 : Fin 2) * 256 + 256; omega

/-- The output array after the region. -/
theorem final1 (c : Dev nD) : (dat1 V c).arrAt 2 cfg1.N = G1 (V c main_arg0) (V c main_arg1) :=
  (dat1 V c).arrAt_eq_of_cover 2 (G1 (V c main_arg0) (V c main_arg1)) (fun t _ => flushed1 V c t) cover1

end Cert.KernelIdeal.KVal

end
-- ==== Proof.KRegion2.lean ====
/-
  Region 2 of the kernel program: the first layer's combine — self term plus aggregate plus bias row, clamped below at
  zero — block by block, read as one array.
-/
import proofs.«129063_j1872605741714_2_alg».proof.Proof.Gen.KernelIdeal.Frame
import proofs.«129063_j1872605741714_2_alg».proof.Proof.KCommon
import Idealize.ShloMosaic.Lib.ValueIdx
import Idealize.ShloMosaic.Lib.Pipeline.Value
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ### The combine of region 2: (self + aggregate) + bias row, clamped below at zero -/

/-- Entry (p, q) of the body's result from its three loaded blocks. -/
theorem pay2_apply (x0 x1 : Vec Ideal S2200x256 .f32) (x2 : Vec Ideal S1x256 .f32) (p : Fin 2200) (q : Fin 256) :
    k2_pay1 (F := Ideal) x0 x1 x2 (ix2 p q)
      = max ((x0 (ix2 p q) + x1 (ix2 p q)) + x2 (ix2 ⟨0, Nat.one_pos⟩ q)) 0 := by
  unfold k2_pay1
  simp only [shapeCast_self]
  have hb : broadcastTo S2200x256 x2 broadcasts_S1x256_S2200x256 (ix2 p q) = x2 (ix2 ⟨0, Nat.one_pos⟩ q) :=
    broadcastTo_apply x2 _ (ix2 p q) (ix2 ⟨0, Nat.one_pos⟩ q) (fun a => by
      match a with
      | ⟨0, _⟩ => rfl
      | ⟨1, _⟩ => rfl)
  show max ((x0 (ix2 p q) + x1 (ix2 p q)) + broadcastTo S2200x256 x2 broadcasts_S1x256_S2200x256 (ix2 p q)) (Ideal.ofBits .f32 0x00000000#32) = _
  rw [hb, Ideal.ofBits_zero_f32]

/-! ## Region 2: the array it writes, from the arrays it finds -/

/-- Region 2's array: entry by entry (self + aggregate) + bias, clamped below at zero. -/
def G2 (A0 A1 : S11000x256.Idx → EReal) (Bv : S1x256.Idx → EReal) : S11000x256.Idx → EReal :=
  ofCoords2 (fun (d : Fin 11000) (q : Fin 256) => max ((A0 (ix2 d q) + A1 (ix2 d q)) + Bv (ix2 ⟨0, Nat.one_pos⟩ q)) 0)

theorem G2_ix2 (A0 A1 : S11000x256.Idx → EReal) (Bv : S1x256.Idx → EReal) (d : Fin 11000) (q : Fin 256) :
    G2 A0 A1 Bv (ix2 d q) = max ((A0 (ix2 d q) + A1 (ix2 d q)) + Bv (ix2 ⟨0, Nat.one_pos⟩ q)) 0 := rfl

/-- The printed index maps over the grid: the two row-blocked operands move with the output, the bias row's block and
    every column block index are zero, and the output's row block stays inside the array. -/
theorem idx_facts2 : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (1 : Fin 2) = 0 ∧ win2_3.index t (0 : Fin 2) < 5 :=
  (by decide +kernel : ∀ t : Fin grid2.N, _)

/-- Every row block of the output is some point's. -/
theorem idx_onto2 : ∀ q0 : Fin 5, ∃ t : Fin cfg2.N, win2_3.index t = ![q0.val, 0] :=
  (by decide +kernel : ∀ q0 : Fin 5, ∃ t : Fin grid2.N, win2_3.index t = ![q0.val, 0])

/-- What point `t` writes back is block `t` of `G2` of the arrays the region finds. -/
theorem flushed2 (c : Dev nD) (t : Fin cfg2.N) :
    (dat2 V c).flushed 3 t = ((cfg2.win 3).blk t).view.read (Elt Ideal) (G2 (V c main_v1) (V c main_v21) (V c main_v22)) := by
  show (cfg2.win 3).cut (grid2.coords t) ((dat2 V c).after 3 t) = _
  rw [after2_3]
  unfold out2_3
  rw [View.canon_unit_zero hz]
  simp only [View.ld_unit_zero (S := S2200x256) hz, View.ld_unit_zero (S := S1x256) hz]
  obtain ⟨e0, e1, e2, e3, e4, e5, e6, e7⟩ := idx_facts2 t
  funext j
  obtain ⟨p, q, rfl⟩ : ∃ (p : Fin 2200) (q : Fin 256), j = ix2 p q := ⟨j 0, j 1, eq_ix2 j⟩
  show k2_pay1 (F := Ideal) (iblk2 V c 0 t) (iblk2 V c 1 t) (iblk2 V c 2 t) (ix2 p q) = _
  refine (pay2_apply (iblk2 V c 0 t) (iblk2 V c 1 t) (iblk2 V c 2 t) p q).trans ?_
  have hp : p.val < 2200 := p.isLt
  have hq : q.val < 256 := q.isLt
  have hO : ((cfg2.win 3).blk t).view.emb (ix2 p q)
      = (ix2 (⟨win2_3.index t (0 : Fin 2) * 2200 + p.val, by omega⟩ : Fin 11000) q : S11000x256.Idx) := by
    funext a; apply Fin.ext
    match a with
    | ⟨0, _⟩ => show win2_3.index t (0 : Fin 2) * 2200 + 1 * p.val = win2_3.index t (0 : Fin 2) * 2200 + p.val; omega
    | ⟨1, _⟩ => show win2_3.index t (1 : Fin 2) * 256 + 1 * q.val = q.val; omega
  show _ = G2 (V c main_v1) (V c main_v21) (V c main_v22) (((cfg2.win 3).blk t).view.emb (ix2 p q))
  rw [hO, G2_ix2]
  have h0 : ((cfg2.win 0).blk t).view.emb (ix2 p q) = (ix2 (⟨win2_3.index t (0 : Fin 2) * 2200 + p.val, by omega⟩ : Fin 11000) q : _) := by
    funext a; apply Fin.ext
    match a with
    | ⟨0, _⟩ => show win2_0.index t (0 : Fin 2) * 2200 + 1 * p.val = win2_3.index t (0 : Fin 2) * 2200 + p.val; omega
    | ⟨1, _⟩ => show win2_0.index t (1 : Fin 2) * 256 + 1 * q.val = q.val; omega
  have h1 : ((cfg2.win 1).blk t).view.emb (ix2 p q) = (ix2 (⟨win2_3.index t (0 : Fin 2) * 2200 + p.val, by omega⟩ : Fin 11000) q : _) := by
    funext a; apply Fin.ext
    match a with
    | ⟨0, _⟩ => show win2_1.index t (0 : Fin 2) * 2200 + 1 * p.val = win2_3.index t (0 : Fin 2) * 2200 + p.val; omega
    | ⟨1, _⟩ => show win2_1.index t (1 : Fin 2) * 256 + 1 * q.val = q.val; omega
  have h2 : ((cfg2.win 2).blk t).view.emb (ix2 (⟨0, Nat.one_pos⟩ : Fin 1) q) = (ix2 (⟨0, Nat.one_pos⟩ : Fin 1) q : _) := by
    funext a; apply Fin.ext
    match a with
    | ⟨0, _⟩ => show win2_2.index t (0 : Fin 2) * 1 + 1 * 0 = 0; omega
    | ⟨1, _⟩ => show win2_2.index t (1 : Fin 2) * 256 + 1 * q.val = q.val; omega
  have ha : iblk2 V c 0 t (ix2 p q) = V c main_v1 (ix2 (⟨win2_3.index t (0 : Fin 2) * 2200 + p.val, by omega⟩ : Fin 11000) q) := by
    show V c main_v1 (((cfg2.win 0).blk t).view.emb (ix2 p q)) = _
    rw [h0]
  have hb : iblk2 V c 1 t (ix2 p q) = V c main_v21 (ix2 (⟨win2_3.index t (0 : Fin 2) * 2200 + p.val, by omega⟩ : Fin 11000) q) := by
    show V c main_v21 (((cfg2.win 1).blk t).view.emb (ix2 p q)) = _
    rw [h1]
  have hc : iblk2 V c 2 t (ix2 (⟨0, Nat.one_pos⟩ : Fin 1) q) = V c main_v22 (ix2 (⟨0, Nat.one_pos⟩ : Fin 1) q) := by
    show V c main_v22 (((cfg2.win 2).blk t).view.emb (ix2 (⟨0, Nat.one_pos⟩ : Fin 1) q)) = _
    rw [h2]
  rw [ha, hb, hc]

/-- An index of the output array is in point `t`'s block iff each coordinate is in the block's range. -/
theorem mem_blk2 (t : Fin cfg2.N) (i : S11000x256.Idx) :
    i ∈ ((cfg2.win 3).blk t).view.set ↔ ∀ a : Fin 2, win2_3.index t a * S2200x256.size a ≤ (i a).val ∧ (i a).val < win2_3.index t a * S2200x256.size a + S2200x256.size a := by
  show i ∈ ((View.whole main_v23).slice (win2_3.rect t)).set ↔ _
  rw [View.set_slice_whole, Rect.mem_set_unit]
  exact Iff.rfl

/-- The blocks tile the output array: row `r` is in the block of the point whose row block is `r / 2200`. -/
theorem cover2 (i : S11000x256.Idx) :
    ∃ t : Fin cfg2.N, (cfg2.win 3).flush t = true ∧ i ∈ ((cfg2.win 3).blk t).view.set := by
  have hi0 : (i 0).val < 11000 := idx2_lt0 i
  have hi1 : (i 1).val < 256 := idx2_lt1 i
  obtain ⟨t, ht⟩ := idx_onto2 ⟨(i 0).val / 2200, by omega⟩
  have q0 : win2_3.index t (0 : Fin 2) = (i 0).val / 2200 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 2200 ≤ (i 0).val ∧ (i 0).val < win2_3.index t (0 : Fin 2) * 2200 + 2200; omega
  | ⟨1, _⟩ => show win2_3.index t (1 : Fin 2) * 256 ≤ (i 1).val ∧ (i 1).val < win2_3.index t (1 : Fin 2) * 256 + 256; omega

/-- The output array after the region. -/
theorem final2 (c : Dev nD) : (dat2 V c).arrAt 3 cfg2.N = G2 (V c main_v1) (V c main_v21) (V c main_v22) :=
  (dat2 V c).arrAt_eq_of_cover 3 (G2 (V c main_v1) (V c main_v21) (V c main_v22)) (fun t _ => flushed2 V c t) cover2

end Cert.KernelIdeal.KVal

end
-- ==== Proof.KRegion3.lean ====
/-
  Region 3 of the kernel program: every hidden row times the second layer's neighbour weights, block by block,
  read as one array.
-/
import proofs.«129063_j1872605741714_2_alg».proof.Proof.Gen.KernelIdeal.Frame
import proofs.«129063_j1872605741714_2_alg».proof.Proof.KCommon
import Idealize.ShloMosaic.Lib.ValueIdx
import Idealize.ShloMosaic.Lib.Pipeline.Value
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ### The product of region 3: rows of a [2200, 256] block against a [256, 41] matrix -/

theorem lhs3_0 (i : S2200x41.Idx) (q : dot_S2200x256_S256x41_S2200x41_1_0_0_1_n_n.contr.Idx) : (dot_S2200x256_S256x41_S2200x41_1_0_0_1_n_n.lhsIdx i q 0).val = (i 0).val := by
  unfold DotDims.lhsIdx
  rw [dif_neg (show ¬(0 : Fin S2200x256.rank) ∈ dot_S2200x256_S256x41_S2200x41_1_0_0_1_n_n.lhsBatch by decide), dif_pos (show (0 : Fin S2200x256.rank) ∈ dot_S2200x256_S256x41_S2200x41_1_0_0_1_n_n.lhsNonContracting by decide)]
  rfl
theorem lhs3_1 (i : S2200x41.Idx) (q : dot_S2200x256_S256x41_S2200x41_1_0_0_1_n_n.contr.Idx) : (dot_S2200x256_S256x41_S2200x41_1_0_0_1_n_n.lhsIdx i q 1).val = (q ⟨0, by decide⟩).val :=
  dot_S2200x256_S256x41_S2200x41_1_0_0_1_n_n.lhsIdx_val_of_single rfl i q
theorem rhs3_0 (i : S2200x41.Idx) (q : dot_S2200x256_S256x41_S2200x41_1_0_0_1_n_n.contr.Idx) : (dot_S2200x256_S256x41_S2200x41_1_0_0_1_n_n.rhsIdx i q 0).val = (q ⟨0, by decide⟩).val :=
  dot_S2200x256_S256x41_S2200x41_1_0_0_1_n_n.rhsIdx_val_of_single rfl i q
theorem rhs3_1 (i : S2200x41.Idx) (q : dot_S2200x256_S256x41_S2200x41_1_0_0_1_n_n.contr.Idx) : (dot_S2200x256_S256x41_S2200x41_1_0_0_1_n_n.rhsIdx i q 1).val = (i 1).val := by
  unfold DotDims.rhsIdx
  rw [dif_neg (show ¬(1 : Fin S256x41.rank) ∈ dot_S2200x256_S256x41_S2200x41_1_0_0_1_n_n.rhsBatch by decide), dif_pos (show (1 : Fin S256x41.rank) ∈ dot_S2200x256_S256x41_S2200x41_1_0_0_1_n_n.rhsNonContracting by decide)]
  rfl

/-- Entry (p, q) of the body's product of its two loaded blocks: the sum over the contracted axis (the changes of float
    format are the identity on exact values, and the accumulator starts at zero). -/
theorem pay3_apply (x0 : Vec Ideal S2200x256 .bf16) (x1 : Vec Ideal S256x41 .f32) (p : Fin 2200) (q : Fin 41) :
    k3_pay1 (F := Ideal) x0 x1 (ix2 p q) = ∑ k : Fin 256, x0 (ix2 p k) * x1 (ix2 k q) := by
  unfold k3_pay1
  rw [shapeCast_self]
  refine (Ideal.matmul_constant_zero_apply dot_S2200x256_S256x41_S2200x41_1_0_0_1_n_n none _ _ (ix2 p q)).trans ?_
  rw [← Equiv.sum_comp (contrEquiv1 dot_S2200x256_S256x41_S2200x41_1_0_0_1_n_n 256 rfl rfl).symm]
  refine Finset.sum_congr rfl fun k _ => ?_
  have hk := contrEquiv1_symm_val dot_S2200x256_S256x41_S2200x41_1_0_0_1_n_n 256 rfl rfl k
  have el : dot_S2200x256_S256x41_S2200x41_1_0_0_1_n_n.lhsIdx (ix2 p q) ((contrEquiv1 dot_S2200x256_S256x41_S2200x41_1_0_0_1_n_n 256 rfl rfl).symm k) = ix2 p k :=
    funext fun a => Fin.ext (by
      match a with
      | ⟨0, _⟩ => exact lhs3_0 _ _
      | ⟨1, _⟩ => exact (lhs3_1 _ _).trans hk)
  have er : dot_S2200x256_S256x41_S2200x41_1_0_0_1_n_n.rhsIdx (ix2 p q) ((contrEquiv1 dot_S2200x256_S256x41_S2200x41_1_0_0_1_n_n 256 rfl rfl).symm k) = ix2 k q :=
    funext fun a => Fin.ext (by
      match a with
      | ⟨0, _⟩ => exact (rhs3_0 _ _).trans hk
      | ⟨1, _⟩ => exact rhs3_1 _ _)
  rw [el, er]
  rfl

/-! ## Region 3: the array it writes, from the arrays it finds -/

/-- Region 3's array: every hidden row times the second layer's neighbour weights. -/
def G3 (H : S11000x256.Idx → EReal) (B : S256x41.Idx → EReal) : S11000x41.Idx → EReal :=
  ofCoords2 (fun (d : Fin 11000) (q : Fin 41) => ∑ k : Fin 256, H (ix2 d k) * B (ix2 k q))

theorem G3_ix2 (H : S11000x256.Idx → EReal) (B : S256x41.Idx → EReal) (d : Fin 11000) (q : Fin 41) :
    G3 H B (ix2 d q) = ∑ k : Fin 256, H (ix2 d k) * B (ix2 k q) := rfl

/-- The printed index maps over the grid: the row block of the left operand moves with the output's, every other
    block index is zero, and the output's row block stays inside the array. -/
theorem idx_facts3 : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) < 5 :=
  (by decide +kernel : ∀ t : Fin grid3.N, _)

/-- Every row block of the output is some point's. -/
theorem idx_onto3 : ∀ q0 : Fin 5, ∃ t : Fin cfg3.N, win3_2.index t = ![q0.val, 0] :=
  (by decide +kernel : ∀ q0 : Fin 5, ∃ t : Fin grid3.N, win3_2.index t = ![q0.val, 0])

/-- What point `t` writes back is block `t` of `G3` of the arrays the region finds. -/
theorem flushed3 (c : Dev nD) (t : Fin cfg3.N) :
    (dat3 V c).flushed 2 t = ((cfg3.win 2).blk t).view.read (Elt Ideal) (G3 (V c main_v23) (V c main_arg5)) := by
  show (cfg3.win 2).cut (grid3.coords t) ((dat3 V c).after 2 t) = _
  rw [after3_2]
  unfold out3_2
  rw [View.canon_unit_zero hz]
  simp only [View.ld_unit_zero (S := S2200x256) hz, View.ld_unit_zero (S := S256x41) hz]
  obtain ⟨e0, e1, e2, e3, e4, e5⟩ := idx_facts3 t
  funext j
  obtain ⟨p, q, rfl⟩ : ∃ (p : Fin 2200) (q : Fin 41), j = ix2 p q := ⟨j 0, j 1, eq_ix2 j⟩
  show k3_pay1 (F := Ideal) (iblk3 V c 0 t) (iblk3 V c 1 t) (ix2 p q) = _
  refine (pay3_apply (iblk3 V c 0 t) (iblk3 V c 1 t) p q).trans ?_
  have hp : p.val < 2200 := p.isLt
  have hq : q.val < 41 := q.isLt
  have hO : ((cfg3.win 2).blk t).view.emb (ix2 p q)
      = (ix2 (⟨win3_2.index t (0 : Fin 2) * 2200 + p.val, by omega⟩ : Fin 11000) q : S11000x41.Idx) := by
    funext a; apply Fin.ext
    match a with
    | ⟨0, _⟩ => show win3_2.index t (0 : Fin 2) * 2200 + 1 * p.val = win3_2.index t (0 : Fin 2) * 2200 + p.val; omega
    | ⟨1, _⟩ => show win3_2.index t (1 : Fin 2) * 41 + 1 * q.val = q.val; omega
  show _ = G3 (V c main_v23) (V c main_arg5) (((cfg3.win 2).blk t).view.emb (ix2 p q))
  rw [hO, G3_ix2]
  refine Finset.sum_congr rfl fun k _ => ?_
  have hk : k.val < 256 := k.isLt
  have h0 : ((cfg3.win 0).blk t).view.emb (ix2 p k) = (ix2 (⟨win3_2.index t (0 : Fin 2) * 2200 + p.val, by omega⟩ : Fin 11000) k : _) := by
    funext a; apply Fin.ext
    match a with
    | ⟨0, _⟩ => show win3_0.index t (0 : Fin 2) * 2200 + 1 * p.val = win3_2.index t (0 : Fin 2) * 2200 + p.val; omega
    | ⟨1, _⟩ => show win3_0.index t (1 : Fin 2) * 256 + 1 * k.val = k.val; omega
  have h1 : ((cfg3.win 1).blk t).view.emb (ix2 k q) = (ix2 k q : _) := by
    funext a; apply Fin.ext
    match a with
    | ⟨0, _⟩ => show win3_1.index t (0 : Fin 2) * 256 + 1 * k.val = k.val; omega
    | ⟨1, _⟩ => show win3_1.index t (1 : Fin 2) * 41 + 1 * q.val = q.val; omega
  have ha : iblk3 V c 0 t (ix2 p k) = V c main_v23 (ix2 (⟨win3_2.index t (0 : Fin 2) * 2200 + p.val, by omega⟩ : Fin 11000) k) := by
    show V c main_v23 (((cfg3.win 0).blk t).view.emb (ix2 p k)) = _
    rw [h0]
  have hb : iblk3 V c 1 t (ix2 k q) = V c main_arg5 (ix2 k q) := by
    show V c main_arg5 (((cfg3.win 1).blk t).view.emb (ix2 k q)) = _
    rw [h1]
  rw [ha, hb]

/-- An index of the output array is in point `t`'s block iff each coordinate is in the block's range. -/
theorem mem_blk3 (t : Fin cfg3.N) (i : S11000x41.Idx) :
    i ∈ ((cfg3.win 2).blk t).view.set ↔ ∀ a : Fin 2, win3_2.index t a * S2200x41.size a ≤ (i a).val ∧ (i a).val < win3_2.index t a * S2200x41.size a + S2200x41.size a := by
  show i ∈ ((View.whole main_v24).slice (win3_2.rect t)).set ↔ _
  rw [View.set_slice_whole, Rect.mem_set_unit]
  exact Iff.rfl

/-- The blocks tile the output array: row `r` is in the block of the point whose row block is `r / 2200`. -/
theorem cover3 (i : S11000x41.Idx) :
    ∃ t : Fin cfg3.N, (cfg3.win 2).flush t = true ∧ i ∈ ((cfg3.win 2).blk t).view.set := by
  have hi0 : (i 0).val < 11000 := idx2_lt0 i
  have hi1 : (i 1).val < 41 := idx2_lt1 i
  obtain ⟨t, ht⟩ := idx_onto3 ⟨(i 0).val / 2200, by omega⟩
  have q0 : win3_2.index t (0 : Fin 2) = (i 0).val / 2200 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 2200 ≤ (i 0).val ∧ (i 0).val < win3_2.index t (0 : Fin 2) * 2200 + 2200; omega
  | ⟨1, _⟩ => show win3_2.index t (1 : Fin 2) * 41 ≤ (i 1).val ∧ (i 1).val < win3_2.index t (1 : Fin 2) * 41 + 41; omega

/-- The output array after the region. -/
theorem final3 (c : Dev nD) : (dat3 V c).arrAt 2 cfg3.N = G3 (V c main_v23) (V c main_arg5) :=
  (dat3 V c).arrAt_eq_of_cover 2 (G3 (V c main_v23) (V c main_arg5)) (fun t _ => flushed3 V c t) cover3

end Cert.KernelIdeal.KVal

end
-- ==== Proof.KRegion4.lean ====
/-
  Region 4 of the kernel program: the first 1000 hidden rows times the second layer's self weights, one block,
  read as one array.
-/
import proofs.«129063_j1872605741714_2_alg».proof.Proof.Gen.KernelIdeal.Frame
import proofs.«129063_j1872605741714_2_alg».proof.Proof.KCommon
import Idealize.ShloMosaic.Lib.ValueIdx
import Idealize.ShloMosaic.Lib.Pipeline.Value
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ### The product of region 4: rows of a [1000, 256] block against a [256, 41] matrix -/

theorem lhs4_0 (i : S1000x41.Idx) (q : dot_S1000x256_S256x41_S1000x41_1_0_0_1_n_n.contr.Idx) : (dot_S1000x256_S256x41_S1000x41_1_0_0_1_n_n.lhsIdx i q 0).val = (i 0).val := by
  unfold DotDims.lhsIdx
  rw [dif_neg (show ¬(0 : Fin S1000x256.rank) ∈ dot_S1000x256_S256x41_S1000x41_1_0_0_1_n_n.lhsBatch by decide), dif_pos (show (0 : Fin S1000x256.rank) ∈ dot_S1000x256_S256x41_S1000x41_1_0_0_1_n_n.lhsNonContracting by decide)]
  rfl
theorem lhs4_1 (i : S1000x41.Idx) (q : dot_S1000x256_S256x41_S1000x41_1_0_0_1_n_n.contr.Idx) : (dot_S1000x256_S256x41_S1000x41_1_0_0_1_n_n.lhsIdx i q 1).val = (q ⟨0, by decide⟩).val :=
  dot_S1000x256_S256x41_S1000x41_1_0_0_1_n_n.lhsIdx_val_of_single rfl i q
theorem rhs4_0 (i : S1000x41.Idx) (q : dot_S1000x256_S256x41_S1000x41_1_0_0_1_n_n.contr.Idx) : (dot_S1000x256_S256x41_S1000x41_1_0_0_1_n_n.rhsIdx i q 0).val = (q ⟨0, by decide⟩).val :=
  dot_S1000x256_S256x41_S1000x41_1_0_0_1_n_n.rhsIdx_val_of_single rfl i q
theorem rhs4_1 (i : S1000x41.Idx) (q : dot_S1000x256_S256x41_S1000x41_1_0_0_1_n_n.contr.Idx) : (dot_S1000x256_S256x41_S1000x41_1_0_0_1_n_n.rhsIdx i q 1).val = (i 1).val := by
  unfold DotDims.rhsIdx
  rw [dif_neg (show ¬(1 : Fin S256x41.rank) ∈ dot_S1000x256_S256x41_S1000x41_1_0_0_1_n_n.rhsBatch by decide), dif_pos (show (1 : Fin S256x41.rank) ∈ dot_S1000x256_S256x41_S1000x41_1_0_0_1_n_n.rhsNonContracting by decide)]
  rfl

/-- Entry (p, q) of the body's product of its two loaded blocks: the sum over the contracted axis (the changes of float
    format are the identity on exact values, and the accumulator starts at zero). -/
theorem pay4_apply (x0 : Vec Ideal S1000x256 .bf16) (x1 : Vec Ideal S256x41 .f32) (p : Fin 1000) (q : Fin 41) :
    k4_pay1 (F := Ideal) x0 x1 (ix2 p q) = ∑ k : Fin 256, x0 (ix2 p k) * x1 (ix2 k q) := by
  unfold k4_pay1
  rw [shapeCast_self]
  refine (Ideal.matmul_constant_zero_apply dot_S1000x256_S256x41_S1000x41_1_0_0_1_n_n none _ _ (ix2 p q)).trans ?_
  rw [← Equiv.sum_comp (contrEquiv1 dot_S1000x256_S256x41_S1000x41_1_0_0_1_n_n 256 rfl rfl).symm]
  refine Finset.sum_congr rfl fun k _ => ?_
  have hk := contrEquiv1_symm_val dot_S1000x256_S256x41_S1000x41_1_0_0_1_n_n 256 rfl rfl k
  have el : dot_S1000x256_S256x41_S1000x41_1_0_0_1_n_n.lhsIdx (ix2 p q) ((contrEquiv1 dot_S1000x256_S256x41_S1000x41_1_0_0_1_n_n 256 rfl rfl).symm k) = ix2 p k :=
    funext fun a => Fin.ext (by
      match a with
      | ⟨0, _⟩ => exact lhs4_0 _ _
      | ⟨1, _⟩ => exact (lhs4_1 _ _).trans hk)
  have er : dot_S1000x256_S256x41_S1000x41_1_0_0_1_n_n.rhsIdx (ix2 p q) ((contrEquiv1 dot_S1000x256_S256x41_S1000x41_1_0_0_1_n_n 256 rfl rfl).symm k) = ix2 k q :=
    funext fun a => Fin.ext (by
      match a with
      | ⟨0, _⟩ => exact (rhs4_0 _ _).trans hk
      | ⟨1, _⟩ => exact rhs4_1 _ _)
  rw [el, er]
  rfl

/-! ## Region 4: the array it writes, from the arrays it finds -/

/-- Region 4's array: the first 1000 hidden rows times the second layer's self weights. -/
def G4 (H : S11000x256.Idx → EReal) (B : S256x41.Idx → EReal) : S1000x41.Idx → EReal :=
  ofCoords2 (fun (d : Fin 1000) (q : Fin 41) => ∑ k : Fin 256, H (ix2 (⟨d.val, by have := d.isLt; omega⟩ : Fin 11000) k) * B (ix2 k q))

theorem G4_ix2 (H : S11000x256.Idx → EReal) (B : S256x41.Idx → EReal) (d : Fin 1000) (q : Fin 41) :
    G4 H B (ix2 d q) = ∑ k : Fin 256, H (ix2 (⟨d.val, by have := d.isLt; omega⟩ : Fin 11000) k) * B (ix2 k q) := rfl

/-- The printed index maps over the grid: the row block of the left operand moves with the output's, every other
    block index is zero, and the output's row block stays inside the array. -/
theorem idx_facts4 : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (1 : Fin 2) = 0 ∧ win4_2.index t (0 : Fin 2) < 1 :=
  (by decide +kernel : ∀ t : Fin grid4.N, _)

/-- Every row block of the output is some point's. -/
theorem idx_onto4 : ∀ q0 : Fin 1, ∃ t : Fin cfg4.N, win4_2.index t = ![q0.val, 0] :=
  (by decide +kernel : ∀ q0 : Fin 1, ∃ t : Fin grid4.N, win4_2.index t = ![q0.val, 0])

/-- What point `t` writes back is block `t` of `G4` of the arrays the region finds. -/
theorem flushed4 (c : Dev nD) (t : Fin cfg4.N) :
    (dat4 V c).flushed 2 t = ((cfg4.win 2).blk t).view.read (Elt Ideal) (G4 (V c main_v23) (V c main_arg4)) := by
  show (cfg4.win 2).cut (grid4.coords t) ((dat4 V c).after 2 t) = _
  rw [after4_2]
  unfold out4_2
  rw [View.canon_unit_zero hz]
  simp only [View.ld_unit_zero (S := S1000x256) hz, View.ld_unit_zero (S := S256x41) hz]
  obtain ⟨e0, e1, e2, e3, e4, e5⟩ := idx_facts4 t
  funext j
  obtain ⟨p, q, rfl⟩ : ∃ (p : Fin 1000) (q : Fin 41), j = ix2 p q := ⟨j 0, j 1, eq_ix2 j⟩
  show k4_pay1 (F := Ideal) (iblk4 V c 0 t) (iblk4 V c 1 t) (ix2 p q) = _
  refine (pay4_apply (iblk4 V c 0 t) (iblk4 V c 1 t) p q).trans ?_
  have hp : p.val < 1000 := p.isLt
  have hq : q.val < 41 := q.isLt
  have hO : ((cfg4.win 2).blk t).view.emb (ix2 p q)
      = (ix2 (⟨win4_2.index t (0 : Fin 2) * 1000 + p.val, by omega⟩ : Fin 1000) q : S1000x41.Idx) := by
    funext a; apply Fin.ext
    match a with
    | ⟨0, _⟩ => show win4_2.index t (0 : Fin 2) * 1000 + 1 * p.val = win4_2.index t (0 : Fin 2) * 1000 + p.val; omega
    | ⟨1, _⟩ => show win4_2.index t (1 : Fin 2) * 41 + 1 * q.val = q.val; omega
  show _ = G4 (V c main_v23) (V c main_arg4) (((cfg4.win 2).blk t).view.emb (ix2 p q))
  rw [hO, G4_ix2]
  refine Finset.sum_congr rfl fun k _ => ?_
  have hk : k.val < 256 := k.isLt
  have h0 : ((cfg4.win 0).blk t).view.emb (ix2 p k) = (ix2 (⟨win4_2.index t (0 : Fin 2) * 1000 + p.val, by omega⟩ : Fin 11000) k : _) := by
    funext a; apply Fin.ext
    match a with
    | ⟨0, _⟩ => show win4_0.index t (0 : Fin 2) * 1000 + 1 * p.val = win4_2.index t (0 : Fin 2) * 1000 + p.val; omega
    | ⟨1, _⟩ => show win4_0.index t (1 : Fin 2) * 256 + 1 * k.val = k.val; omega
  have h1 : ((cfg4.win 1).blk t).view.emb (ix2 k q) = (ix2 k q : _) := by
    funext a; apply Fin.ext
    match a with
    | ⟨0, _⟩ => show win4_1.index t (0 : Fin 2) * 256 + 1 * k.val = k.val; omega
    | ⟨1, _⟩ => show win4_1.index t (1 : Fin 2) * 41 + 1 * q.val = q.val; omega
  have ha : iblk4 V c 0 t (ix2 p k) = V c main_v23 (ix2 (⟨win4_2.index t (0 : Fin 2) * 1000 + p.val, by omega⟩ : Fin 11000) k) := by
    show V c main_v23 (((cfg4.win 0).blk t).view.emb (ix2 p k)) = _
    rw [h0]
  have hb : iblk4 V c 1 t (ix2 k q) = V c main_arg4 (ix2 k q) := by
    show V c main_arg4 (((cfg4.win 1).blk t).view.emb (ix2 k q)) = _
    rw [h1]
  rw [ha, hb]

/-- An index of the output array is in point `t`'s block iff each coordinate is in the block's range. -/
theorem mem_blk4 (t : Fin cfg4.N) (i : S1000x41.Idx) :
    i ∈ ((cfg4.win 2).blk t).view.set ↔ ∀ a : Fin 2, win4_2.index t a * S1000x41.size a ≤ (i a).val ∧ (i a).val < win4_2.index t a * S1000x41.size a + S1000x41.size a := by
  show i ∈ ((View.whole main_v25).slice (win4_2.rect t)).set ↔ _
  rw [View.set_slice_whole, Rect.mem_set_unit]
  exact Iff.rfl

/-- The blocks tile the output array: row `r` is in the block of the point whose row block is `r / 1000`. -/
theorem cover4 (i : S1000x41.Idx) :
    ∃ t : Fin cfg4.N, (cfg4.win 2).flush t = true ∧ i ∈ ((cfg4.win 2).blk t).view.set := by
  have hi0 : (i 0).val < 1000 := idx2_lt0 i
  have hi1 : (i 1).val < 41 := idx2_lt1 i
  obtain ⟨t, ht⟩ := idx_onto4 ⟨(i 0).val / 1000, by omega⟩
  have q0 : win4_2.index t (0 : Fin 2) = (i 0).val / 1000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 1000 ≤ (i 0).val ∧ (i 0).val < win4_2.index t (0 : Fin 2) * 1000 + 1000; omega
  | ⟨1, _⟩ => show win4_2.index t (1 : Fin 2) * 41 ≤ (i 1).val ∧ (i 1).val < win4_2.index t (1 : Fin 2) * 41 + 41; omega

/-- The output array after the region. -/
theorem final4 (c : Dev nD) : (dat4 V c).arrAt 2 cfg4.N = G4 (V c main_v23) (V c main_arg4) :=
  (dat4 V c).arrAt_eq_of_cover 2 (G4 (V c main_v23) (V c main_arg4)) (fun t _ => flushed4 V c t) cover4

end Cert.KernelIdeal.KVal

end
-- ==== Proof.KRegion5.lean ====
/-
  Region 5 of the kernel program: the second layer's combine — self term plus aggregate plus bias row — one block,
  read as one array.
-/
import proofs.«129063_j1872605741714_2_alg».proof.Proof.Gen.KernelIdeal.Frame
import proofs.«129063_j1872605741714_2_alg».proof.Proof.KCommon
import Idealize.ShloMosaic.Lib.ValueIdx
import Idealize.ShloMosaic.Lib.Pipeline.Value
import Idealize.ShloMosaic.PureOps.Ideal.Laws

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ### The combine of region 5: (self + aggregate) + bias row -/

/-- Entry (p, q) of the body's result from its three loaded blocks. -/
theorem pay5_apply (x0 x1 : Vec Ideal S1000x41 .f32) (x2 : Vec Ideal S1x41 .f32) (p : Fin 1000) (q : Fin 41) :
    k5_pay1 (F := Ideal) x0 x1 x2 (ix2 p q)
      = (x0 (ix2 p q) + x1 (ix2 p q)) + x2 (ix2 ⟨0, Nat.one_pos⟩ q) := by
  unfold k5_pay1
  simp only [shapeCast_self]
  have hb : broadcastTo S1000x41 x2 broadcasts_S1x41_S1000x41 (ix2 p q) = x2 (ix2 ⟨0, Nat.one_pos⟩ q) :=
    broadcastTo_apply x2 _ (ix2 p q) (ix2 ⟨0, Nat.one_pos⟩ q) (fun a => by
      match a with
      | ⟨0, _⟩ => rfl
      | ⟨1, _⟩ => rfl)
  show (x0 (ix2 p q) + x1 (ix2 p q)) + broadcastTo S1000x41 x2 broadcasts_S1x41_S1000x41 (ix2 p q) = _
  rw [hb]

/-! ## Region 5: the array it writes, from the arrays it finds -/

/-- Region 5's array: entry by entry (self + aggregate) + bias. -/
def G5 (A0 A1 : S1000x41.Idx → EReal) (Bv : S1x41.Idx → EReal) : S1000x41.Idx → EReal :=
  ofCoords2 (fun (d : Fin 1000) (q : Fin 41) => (A0 (ix2 d q) + A1 (ix2 d q)) + Bv (ix2 ⟨0, Nat.one_pos⟩ q))

theorem G5_ix2 (A0 A1 : S1000x41.Idx → EReal) (Bv : S1x41.Idx → EReal) (d : Fin 1000) (q : Fin 41) :
    G5 A0 A1 Bv (ix2 d q) = (A0 (ix2 d q) + A1 (ix2 d q)) + Bv (ix2 ⟨0, Nat.one_pos⟩ q) := rfl

/-- The printed index maps over the grid: the two row-blocked operands move with the output, the bias row's block and
    every column block index are zero, and the output's row block stays inside the array. -/
theorem idx_facts5 : ∀ t : Fin cfg5.N,
    win5_0.index t (0 : Fin 2) = win5_3.index t (0 : Fin 2) ∧ win5_0.index t (1 : Fin 2) = 0
    ∧ win5_1.index t (0 : Fin 2) = win5_3.index t (0 : Fin 2) ∧ win5_1.index t (1 : Fin 2) = 0
    ∧ win5_2.index t (0 : Fin 2) = 0 ∧ win5_2.index t (1 : Fin 2) = 0
    ∧ win5_3.index t (1 : Fin 2) = 0 ∧ win5_3.index t (0 : Fin 2) < 1 :=
  (by decide +kernel : ∀ t : Fin grid5.N, _)

/-- Every row block of the output is some point's. -/
theorem idx_onto5 : ∀ q0 : Fin 1, ∃ t : Fin cfg5.N, win5_3.index t = ![q0.val, 0] :=
  (by decide +kernel : ∀ q0 : Fin 1, ∃ t : Fin grid5.N, win5_3.index t = ![q0.val, 0])

/-- What point `t` writes back is block `t` of `G5` of the arrays the region finds. -/
theorem flushed5 (c : Dev nD) (t : Fin cfg5.N) :
    (dat5 V c).flushed 3 t = ((cfg5.win 3).blk t).view.read (Elt Ideal) (G5 (V c main_v25) (V c main_v44) (V c main_v45)) := by
  show (cfg5.win 3).cut (grid5.coords t) ((dat5 V c).after 3 t) = _
  rw [after5_3]
  unfold out5_3
  rw [View.canon_unit_zero hz]
  simp only [View.ld_unit_zero (S := S1000x41) hz, View.ld_unit_zero (S := S1x41) hz]
  obtain ⟨e0, e1, e2, e3, e4, e5, e6, e7⟩ := idx_facts5 t
  funext j
  obtain ⟨p, q, rfl⟩ : ∃ (p : Fin 1000) (q : Fin 41), j = ix2 p q := ⟨j 0, j 1, eq_ix2 j⟩
  show k5_pay1 (F := Ideal) (iblk5 V c 0 t) (iblk5 V c 1 t) (iblk5 V c 2 t) (ix2 p q) = _
  refine (pay5_apply (iblk5 V c 0 t) (iblk5 V c 1 t) (iblk5 V c 2 t) p q).trans ?_
  have hp : p.val < 1000 := p.isLt
  have hq : q.val < 41 := q.isLt
  have hO : ((cfg5.win 3).blk t).view.emb (ix2 p q)
      = (ix2 (⟨win5_3.index t (0 : Fin 2) * 1000 + p.val, by omega⟩ : Fin 1000) q : S1000x41.Idx) := by
    funext a; apply Fin.ext
    match a with
    | ⟨0, _⟩ => show win5_3.index t (0 : Fin 2) * 1000 + 1 * p.val = win5_3.index t (0 : Fin 2) * 1000 + p.val; omega
    | ⟨1, _⟩ => show win5_3.index t (1 : Fin 2) * 41 + 1 * q.val = q.val; omega
  show _ = G5 (V c main_v25) (V c main_v44) (V c main_v45) (((cfg5.win 3).blk t).view.emb (ix2 p q))
  rw [hO, G5_ix2]
  have h0 : ((cfg5.win 0).blk t).view.emb (ix2 p q) = (ix2 (⟨win5_3.index t (0 : Fin 2) * 1000 + p.val, by omega⟩ : Fin 1000) q : _) := by
    funext a; apply Fin.ext
    match a with
    | ⟨0, _⟩ => show win5_0.index t (0 : Fin 2) * 1000 + 1 * p.val = win5_3.index t (0 : Fin 2) * 1000 + p.val; omega
    | ⟨1, _⟩ => show win5_0.index t (1 : Fin 2) * 41 + 1 * q.val = q.val; omega
  have h1 : ((cfg5.win 1).blk t).view.emb (ix2 p q) = (ix2 (⟨win5_3.index t (0 : Fin 2) * 1000 + p.val, by omega⟩ : Fin 1000) q : _) := by
    funext a; apply Fin.ext
    match a with
    | ⟨0, _⟩ => show win5_1.index t (0 : Fin 2) * 1000 + 1 * p.val = win5_3.index t (0 : Fin 2) * 1000 + p.val; omega
    | ⟨1, _⟩ => show win5_1.index t (1 : Fin 2) * 41 + 1 * q.val = q.val; omega
  have h2 : ((cfg5.win 2).blk t).view.emb (ix2 (⟨0, Nat.one_pos⟩ : Fin 1) q) = (ix2 (⟨0, Nat.one_pos⟩ : Fin 1) q : _) := by
    funext a; apply Fin.ext
    match a with
    | ⟨0, _⟩ => show win5_2.index t (0 : Fin 2) * 1 + 1 * 0 = 0; omega
    | ⟨1, _⟩ => show win5_2.index t (1 : Fin 2) * 41 + 1 * q.val = q.val; omega
  have ha : iblk5 V c 0 t (ix2 p q) = V c main_v25 (ix2 (⟨win5_3.index t (0 : Fin 2) * 1000 + p.val, by omega⟩ : Fin 1000) q) := by
    show V c main_v25 (((cfg5.win 0).blk t).view.emb (ix2 p q)) = _
    rw [h0]
  have hb : iblk5 V c 1 t (ix2 p q) = V c main_v44 (ix2 (⟨win5_3.index t (0 : Fin 2) * 1000 + p.val, by omega⟩ : Fin 1000) q) := by
    show V c main_v44 (((cfg5.win 1).blk t).view.emb (ix2 p q)) = _
    rw [h1]
  have hc : iblk5 V c 2 t (ix2 (⟨0, Nat.one_pos⟩ : Fin 1) q) = V c main_v45 (ix2 (⟨0, Nat.one_pos⟩ : Fin 1) q) := by
    show V c main_v45 (((cfg5.win 2).blk t).view.emb (ix2 (⟨0, Nat.one_pos⟩ : Fin 1) q)) = _
    rw [h2]
  rw [ha, hb, hc]

/-- An index of the output array is in point `t`'s block iff each coordinate is in the block's range. -/
theorem mem_blk5 (t : Fin cfg5.N) (i : S1000x41.Idx) :
    i ∈ ((cfg5.win 3).blk t).view.set ↔ ∀ a : Fin 2, win5_3.index t a * S1000x41.size a ≤ (i a).val ∧ (i a).val < win5_3.index t a * S1000x41.size a + S1000x41.size a := by
  show i ∈ ((View.whole main_v46).slice (win5_3.rect t)).set ↔ _
  rw [View.set_slice_whole, Rect.mem_set_unit]
  exact Iff.rfl

/-- The blocks tile the output array: row `r` is in the block of the point whose row block is `r / 1000`. -/
theorem cover5 (i : S1000x41.Idx) :
    ∃ t : Fin cfg5.N, (cfg5.win 3).flush t = true ∧ i ∈ ((cfg5.win 3).blk t).view.set := by
  have hi0 : (i 0).val < 1000 := idx2_lt0 i
  have hi1 : (i 1).val < 41 := idx2_lt1 i
  obtain ⟨t, ht⟩ := idx_onto5 ⟨(i 0).val / 1000, by omega⟩
  have q0 : win5_3.index t (0 : Fin 2) = (i 0).val / 1000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 1000 ≤ (i 0).val ∧ (i 0).val < win5_3.index t (0 : Fin 2) * 1000 + 1000; omega
  | ⟨1, _⟩ => show win5_3.index t (1 : Fin 2) * 41 ≤ (i 1).val ∧ (i 1).val < win5_3.index t (1 : Fin 2) * 41 + 41; omega

/-- The output array after the region. -/
theorem final5 (c : Dev nD) : (dat5 V c).arrAt 3 cfg5.N = G5 (V c main_v25) (V c main_v44) (V c main_v45) :=
  (dat5 V c).arrAt_eq_of_cover 3 (G5 (V c main_v25) (V c main_v44) (V c main_v45)) (fun t _ => flushed5 V c t) cover5

end Cert.KernelIdeal.KVal

end
-- ==== Proof.KBoundary.lean ====
/-
  The kernel program's buffers at its segment boundaries: the argument arrays carried back to the launch memory (no
  host operation and no region writes one), and each intermediate array at the whole-array function of the region that
  wrote it.
-/
import proofs.«129063_j1872605741714_2_alg».proof.Proof.Gen.KernelIdeal.Frame
import proofs.«129063_j1872605741714_2_alg».proof.Proof.KRegion0
import proofs.«129063_j1872605741714_2_alg».proof.Proof.KRegion1
import proofs.«129063_j1872605741714_2_alg».proof.Proof.KRegion2
import proofs.«129063_j1872605741714_2_alg».proof.Proof.KRegion3
import proofs.«129063_j1872605741714_2_alg».proof.Proof.KRegion4
import proofs.«129063_j1872605741714_2_alg».proof.Proof.KRegion5

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-! ## The arguments, where a later segment reads them -/

/-- Region 1 finds the features as launched. -/
theorem w1_arg0 : W1 m ρ c (Proc.devRef .tc main_arg0) = m ((c : Thread nD τ).loc main_arg0) :=
  calc W1 m ρ c (Proc.devRef .tc main_arg0)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
/-- Region 1 finds the first layer's self weights as launched. -/
theorem w1_arg1 : W1 m ρ c (Proc.devRef .tc main_arg1) = m ((c : Thread nD τ).loc main_arg1) :=
  calc W1 m ρ c (Proc.devRef .tc main_arg1)
    _ = W0 m ρ c (Proc.devRef .tc main_arg1) := W1_of_ne m ρ c main_arg1 (by decide)
    _ = m ((c : Thread nD τ).loc main_arg1) := rfl
/-- The first host stretch finds the first layer's bias as launched. -/
theorem w2_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := W1_of_ne m ρ c main_arg3 (by decide)
    _ = m ((c : Thread nD τ).loc main_arg3) := rfl
/-- The first host stretch finds the first layer's source list as launched. -/
theorem w2_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl
/-- The first host stretch finds the first layer's destination list as launched. -/
theorem w2_arg8 : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl
/-- Region 3 finds the second layer's neighbour weights as launched. -/
theorem w4_arg5 : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := W1_of_ne m ρ c main_arg5 (by decide)
    _ = m ((c : Thread nD τ).loc main_arg5) := rfl
/-- Region 4 finds the second layer's self weights as launched. -/
theorem w5_arg4 : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl
/-- The second host stretch finds the second layer's bias as launched. -/
theorem w6_arg6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := W1_of_ne m ρ c main_arg6 (by decide)
    _ = m ((c : Thread nD τ).loc main_arg6) := rfl
/-- The second host stretch finds the second layer's source list as launched. -/
theorem w6_arg9 : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl
/-- The second host stretch finds the second layer's destination list as launched. -/
theorem w6_arg10 : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

/-! ## The intermediate arrays -/

/-- After region 0: every feature row projected by the neighbour weights. -/
theorem w1_v0 : W1 m ρ c (Proc.devRef .tc main_v0) = G0 (m ((c : Thread nD τ).loc main_arg0)) (m ((c : Thread nD τ).loc main_arg2)) :=
  (W1_arr m ρ c 2).trans (final0 (V0 m ρ) c)

/-- Region 1 does not touch the projected features. -/
theorem w2_v0_keep : W2 m ρ c (Proc.devRef .tc main_v0) = W1 m ρ c (Proc.devRef .tc main_v0) :=
  calc W2 m ρ c (Proc.devRef .tc main_v0)
    _ = W1 m ρ c (Proc.devRef .tc main_v0) := W2_of_ne m ρ c main_v0 (by decide)

/-- The first host stretch finds the projected features. -/
theorem w2_v0 : W2 m ρ c (Proc.devRef .tc main_v0) = G0 (m ((c : Thread nD τ).loc main_arg0)) (m ((c : Thread nD τ).loc main_arg2)) :=
  (w2_v0_keep m ρ c).trans (w1_v0 m ρ c)

/-- After region 1: the first layer's self term. -/
theorem w2_v1 : W2 m ρ c (Proc.devRef .tc main_v1) = G1 (m ((c : Thread nD τ).loc main_arg0)) (m ((c : Thread nD τ).loc main_arg1)) := by
  refine ((W2_arr m ρ c 2).trans (final1 (V1 m ρ) c)).trans ?_
  show G1 (W1 m ρ c (Proc.devRef .tc main_arg0)) (W1 m ρ c (Proc.devRef .tc main_arg1)) = _
  rw [w1_arg0, w1_arg1]

/-- After region 2: the hidden layer, from what the first host stretch leaves. -/
theorem w4_v23 : W4 m ρ c (Proc.devRef .tc main_v23)
    = G2 (W3 m ρ c (Proc.devRef .tc main_v1)) (W3 m ρ c (Proc.devRef .tc main_v21)) (W3 m ρ c (Proc.devRef .tc main_v22)) :=
  (W4_arr m ρ c 3).trans (final2 (V3 m ρ) c)

/-- Region 3 reads the hidden layer and leaves it in place. -/
theorem w5_v23_keep : W5 m ρ c (Proc.devRef .tc main_v23) = W4 m ρ c (Proc.devRef .tc main_v23) :=
  calc W5 m ρ c (Proc.devRef .tc main_v23)
    _ = W4 m ρ c (Proc.devRef .tc main_v23) := (W5_arr m ρ c 0).trans (((dat3 (V4 m ρ) c).arrAt_in 0 rfl _).trans (A_eq3 (V4 m ρ) c 0))

/-- After region 3: every hidden row projected by the second layer's neighbour weights. -/
theorem w5_v24 : W5 m ρ c (Proc.devRef .tc main_v24) = G3 (W4 m ρ c (Proc.devRef .tc main_v23)) (m ((c : Thread nD τ).loc main_arg5)) := by
  refine ((W5_arr m ρ c 2).trans (final3 (V4 m ρ) c)).trans ?_
  show G3 (W4 m ρ c (Proc.devRef .tc main_v23)) (W4 m ρ c (Proc.devRef .tc main_arg5)) = _
  rw [w4_arg5]

/-- Region 4 does not touch the projected hidden rows. -/
theorem w6_v24_keep : W6 m ρ c (Proc.devRef .tc main_v24) = W5 m ρ c (Proc.devRef .tc main_v24) :=
  calc W6 m ρ c (Proc.devRef .tc main_v24)
    _ = W5 m ρ c (Proc.devRef .tc main_v24) := W6_of_ne m ρ c main_v24 (by decide)

/-- After region 4: the second layer's self term. -/
theorem w6_v25 : W6 m ρ c (Proc.devRef .tc main_v25) = G4 (W4 m ρ c (Proc.devRef .tc main_v23)) (m ((c : Thread nD τ).loc main_arg4)) := by
  refine ((W6_arr m ρ c 2).trans (final4 (V5 m ρ) c)).trans ?_
  show G4 (W5 m ρ c (Proc.devRef .tc main_v23)) (W5 m ρ c (Proc.devRef .tc main_arg4)) = _
  rw [w5_v23_keep, w5_arg4]

/-- The second host stretch finds the projected hidden rows. -/
theorem w6_v24 : W6 m ρ c (Proc.devRef .tc main_v24) = G3 (W4 m ρ c (Proc.devRef .tc main_v23)) (m ((c : Thread nD τ).loc main_arg5)) :=
  (w6_v24_keep m ρ c).trans (w5_v24 m ρ c)

/-- After region 5: the result, from what the second host stretch leaves. -/
theorem w8_v46 : W8 m ρ c (Proc.devRef .tc main_v46)
    = G5 (W7 m ρ c (Proc.devRef .tc main_v25)) (W7 m ρ c (Proc.devRef .tc main_v44)) (W7 m ρ c (Proc.devRef .tc main_v45)) :=
  (W8_arr m ρ c 3).trans (final5 (V7 m ρ) c)

end Cert.KernelIdeal.KVal

end
-- ==== Proof.LibRowTake.lean ====
/-
  ROWS OF A RANK-2 ARRAY READ AND ACCUMULATED AT AN INDEX. Three host operations read at one element:
  the gather that takes whole rows of an `[N, D]` operand at `E` start rows (`x[idx]` on a rank-2 array) is the
  operand at the start row, read signed and clamped into `[0, N − 1]`, at the same column; the accumulating scatter
  that adds the `E` rows of an `[E, D]` update into an `[M, D]` operand at `E` destination rows (a segment sum) is the
  operand's element plus the sum of the update's elements, same column, over the edges whose destination row, read
  signed and not clamped, is that row; and the rank-1 version of the scatter (a segment count).
-/
import Idealize.ShloMosaic.PureOps.Ideal
import Idealize.ShloMosaic.Lib.ValueIdx

noncomputable section

open scoped BigOperators

namespace Idealize.ShloMosaic.RowTake

open Idealize.ShloMosaic Idealize.ShloMosaic.ValueIdx

/-! ## Gather of rows -/

section Gather
variable {α : Type}

/-- The dimension numbers of a row gather: operand `[N, D]`, start indices `[E, 1]`, result `[E, D]`; the result's
    axis 1 is the offset axis, the operand's axis 0 is collapsed and is the one the start index names, the slice is
    one whole row. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, j)`: the operand at row `idx[e, 0]`, read signed and clamped into `[0, N − 1]`,
    column `j`. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j)
      = x (ix2 ⟨min (idx (ix2 e ⟨0, Nat.one_pos⟩)).toInt.toNat (N - 1), by omega⟩ j) := by
  -- axis 0: the clamped start row; no batching and no offset coordinate there
  have h0 : (rowGatherDims N E D wf).start (ix2 e j) idx 0 + (rowGatherDims N E D wf).batchCoord (ix2 e j) 0
      + (rowGatherDims N E D wf).offCoord (ix2 e j) 0 = min (idx (ix2 e ⟨0, Nat.one_pos⟩)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e j) ⟨List.idxOf (0 : Fin 2) (rowGatherDims N E D wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  -- axis 1: no start, no batching; the offset coordinate is the result's column
  have h1 : (rowGatherDims N E D wf).start (ix2 e j) idx 1 + (rowGatherDims N E D wf).batchCoord (ix2 e j) 1
      + (rowGatherDims N E D wf).offCoord (ix2 e j) 1 = j.val := by
    rw [GatherDims.batchCoord_eq_zero _ _ _ List.not_mem_nil]
    unfold GatherDims.start
    rw [dif_neg (show (1 : Fin 2) ∉ (rowGatherDims N E D wf).startIndexMap from
      fun h => absurd (List.mem_singleton.mp h) (by decide : (1 : Fin 2) ≠ 0))]
    have hk : (1 : Fin 2) ∈ (rowGatherDims N E D wf).sKept :=
      (GatherDims.mem_sKept _ _).mpr ⟨fun h => absurd (List.mem_singleton.mp h) (by decide : (1 : Fin 2) ≠ 0), List.not_mem_nil⟩
    unfold GatherDims.offCoord
    rw [dif_pos hk]
    simp only [Nat.zero_add]
    rfl
  unfold Host.gather
  congr 1
  funext a
  refine Fin.ext ?_
  match a with
  | ⟨0, _⟩ => exact h0
  | ⟨1, _⟩ => exact h1

end Gather

/-! ## Accumulating scatter of rows -/

section Scatter

/-- The dimension numbers of a row scatter: operand `[M, D]`, scatter indices `[E, 1]`, updates `[E, D]`; the updates'
    axis 1 is the window axis, the operand's axis 0 is inserted and is the one the scatter index names. -/
abbrev rowScatterDims (M E D : Nat)
    (wf : ScatterDims.WF ⟨2, ![M, D]⟩ ⟨2, ![E, 1]⟩ ⟨2, ![E, D]⟩ [1] [0] [0] 1) :
    ScatterDims ⟨2, ![M, D]⟩ ⟨2, ![E, 1]⟩ ⟨2, ![E, D]⟩ where
  updateWindowDims := [1]
  insertedWindowDims := [0]
  scatterDimsToOperandDims := [0]
  indexVectorDim := 1
  wf := wf

/-- Where update element `(e, c)` lands: at operand element `(r, j)` exactly when the columns agree and the
    destination row `idx[e, 0]`, read signed, is `r`; a destination outside `[0, M)` lands nowhere. -/
theorem rowScatter_resultIdx?_eq_some_iff {M E D w : Nat}
    (wf : ScatterDims.WF ⟨2, ![M, D]⟩ ⟨2, ![E, 1]⟩ ⟨2, ![E, D]⟩ [1] [0] [0] 1)
    (idx : IVec ⟨2, ![E, 1]⟩ w) (e : Fin E) (c : Fin D) (r : Fin M) (j : Fin D) :
    (rowScatterDims M E D wf).resultIdx? (ix2 e c) idx = some (ix2 r j)
      ↔ c = j ∧ (idx (ix2 e ⟨0, Nat.one_pos⟩)).toInt = (r.val : ℤ) := by
  have hs0 : (rowScatterDims M E D wf).start (ix2 e c) idx 0 = (idx (ix2 e ⟨0, Nat.one_pos⟩)).toInt := by
    unfold ScatterDims.start
    rw [dif_pos (show (0 : Fin 2) ∈ (rowScatterDims M E D wf).scatterDimsToOperandDims from List.mem_singleton.mpr rfl)]
    have hsi : (rowScatterDims M E D wf).siIdx (ix2 e c)
        ⟨List.idxOf (0 : Fin 2) (rowScatterDims M E D wf).scatterDimsToOperandDims,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
  have hs1 : (rowScatterDims M E D wf).start (ix2 e c) idx 1 = 0 := by
    unfold ScatterDims.start
    rw [dif_neg (show (1 : Fin 2) ∉ (rowScatterDims M E D wf).scatterDimsToOperandDims from
      fun h => absurd (List.mem_singleton.mp h) (by decide : (1 : Fin 2) ≠ 0))]
  have hw0 : (rowScatterDims M E D wf).window (ix2 e c) 0 = 0 := by
    unfold ScatterDims.window
    rw [dif_neg (show (0 : Fin 2) ∉ (rowScatterDims M E D wf).sKept from by
      simp [ScatterDims.sKept, Shape.kept, List.mem_filter])]
  have hw1 : (rowScatterDims M E D wf).window (ix2 e c) 1 = c.val := by
    have hk : (1 : Fin 2) ∈ (rowScatterDims M E D wf).sKept := by
      simp [ScatterDims.sKept, Shape.kept, List.mem_filter, List.mem_finRange]
    unfold ScatterDims.window
    rw [dif_pos hk]
    rfl
  have hz0 : (⟨2, ![M, D]⟩ : Shape).size 0 = M := rfl
  have hz1 : (⟨2, ![M, D]⟩ : Shape).size 1 = D := rfl
  unfold ScatterDims.resultIdx?
  split
  · rename_i h
    rw [Option.some.injEq]
    constructor
    · intro hf
      have e0 := congrArg Fin.val (congrFun hf 0)
      have e1 := congrArg Fin.val (congrFun hf 1)
      have b0 := h 0
      simp only [hs0, hw0, hs1, hw1] at e0 e1 b0
      change _ = r.val at e0
      change _ = j.val at e1
      refine ⟨Fin.ext ?_, ?_⟩ <;> omega
    · rintro ⟨rfl, hr⟩
      funext a
      refine Fin.ext ?_
      match a with
      | ⟨0, _⟩ =>
        show ((rowScatterDims M E D wf).start (ix2 e c) idx 0 + ((rowScatterDims M E D wf).window (ix2 e c) 0 : ℕ)).toNat = r.val
        rw [hs0, hw0, hr]; simp
      | ⟨1, _⟩ =>
        show ((rowScatterDims M E D wf).start (ix2 e c) idx 1 + ((rowScatterDims M E D wf).window (ix2 e c) 1 : ℕ)).toNat = c.val
        rw [hs1, hw1]; simp
  · rename_i h
    constructor
    · intro hf; exact absurd hf (by simp)
    · rintro ⟨rfl, hr⟩
      exfalso; apply h
      intro a
      match a with
      | ⟨0, _⟩ =>
        show 0 ≤ (rowScatterDims M E D wf).start (ix2 e c) idx 0 + ((rowScatterDims M E D wf).window (ix2 e c) 0 : ℕ)
          ∧ (rowScatterDims M E D wf).start (ix2 e c) idx 0 + ((rowScatterDims M E D wf).window (ix2 e c) 0 : ℕ)
            < ((⟨2, ![M, D]⟩ : Shape).size 0 : ℕ)
        rw [hs0, hw0, hr, hz0]; have := r.isLt; omega
      | ⟨1, _⟩ =>
        show 0 ≤ (rowScatterDims M E D wf).start (ix2 e c) idx 1 + ((rowScatterDims M E D wf).window (ix2 e c) 1 : ℕ)
          ∧ (rowScatterDims M E D wf).start (ix2 e c) idx 1 + ((rowScatterDims M E D wf).window (ix2 e c) 1 : ℕ)
            < ((⟨2, ![M, D]⟩ : Shape).size 1 : ℕ)
        rw [hs1, hw1, hz1]; have := c.isLt; omega

/-- THE ACCUMULATING ROW SCATTER READ AT `(r, j)`: the operand's element plus the sum, over the edges `e` whose
    destination row `idx[e, 0]` (read signed, not clamped) is `r`, of the update's element `(e, j)`. -/
theorem rowScatterAdd_apply {M E D w : Nat}
    (wf : ScatterDims.WF ⟨2, ![M, D]⟩ ⟨2, ![E, 1]⟩ ⟨2, ![E, D]⟩ [1] [0] [0] 1)
    (x : (⟨2, ![M, D]⟩ : Shape).Idx → EReal) (idx : IVec ⟨2, ![E, 1]⟩ w)
    (upd : (⟨2, ![E, D]⟩ : Shape).Idx → EReal) (r : Fin M) (j : Fin D) :
    Ideal.hostScatterAdd (rowScatterDims M E D wf) x idx upd (ix2 r j)
      = x (ix2 r j) + ∑ e ∈ Finset.univ.filter
          (fun e : Fin E => (idx (ix2 e ⟨0, Nat.one_pos⟩)).toInt = (r.val : ℤ)), upd (ix2 e j) := by
  unfold Ideal.hostScatterAdd
  congr 1
  rw [Finset.sum_filter, Finset.sum_filter, sum_idx2]
  refine Finset.sum_congr rfl fun e _ => ?_
  simp only [rowScatter_resultIdx?_eq_some_iff]
  by_cases hP : (idx (ix2 e ⟨0, Nat.one_pos⟩)).toInt = (r.val : ℤ)
  · simp only [hP, and_true, if_true]
    rw [Finset.sum_ite_eq' Finset.univ j (fun b => upd (ix2 e b))]
    simp
  · simp only [hP, and_false, if_false]
    exact Finset.sum_const_zero

end Scatter

/-! ## Accumulating scatter into a rank-1 array -/

section VecScatter

/-- The dimension numbers of the rank-1 scatter: operand `[M]`, scatter indices `[E, 1]`, updates `[E]`; no window
    axis, the operand's one axis is inserted and is the one the scatter index names. -/
abbrev vecScatterDims (M E : Nat)
    (wf : ScatterDims.WF ⟨1, ![M]⟩ ⟨2, ![E, 1]⟩ ⟨1, ![E]⟩ [] [0] [0] 1) :
    ScatterDims ⟨1, ![M]⟩ ⟨2, ![E, 1]⟩ ⟨1, ![E]⟩ where
  updateWindowDims := []
  insertedWindowDims := [0]
  scatterDimsToOperandDims := [0]
  indexVectorDim := 1
  wf := wf

/-- Where update element `e` lands: at operand element `r` exactly when the destination `idx[e, 0]`, read signed, is
    `r`; a destination outside `[0, M)` lands nowhere. -/
theorem vecScatter_resultIdx?_eq_some_iff {M E w : Nat}
    (wf : ScatterDims.WF ⟨1, ![M]⟩ ⟨2, ![E, 1]⟩ ⟨1, ![E]⟩ [] [0] [0] 1)
    (idx : IVec ⟨2, ![E, 1]⟩ w) (e : Fin E) (r : Fin M) :
    (vecScatterDims M E wf).resultIdx? (ix1 e) idx = some (ix1 r)
      ↔ (idx (ix2 e ⟨0, Nat.one_pos⟩)).toInt = (r.val : ℤ) := by
  have hs0 : (vecScatterDims M E wf).start (ix1 e) idx 0 = (idx (ix2 e ⟨0, Nat.one_pos⟩)).toInt := by
    unfold ScatterDims.start
    rw [dif_pos (show (0 : Fin 1) ∈ (vecScatterDims M E wf).scatterDimsToOperandDims from List.mem_singleton.mpr rfl)]
    have hsi : (vecScatterDims M E wf).siIdx (ix1 e)
        ⟨List.idxOf (0 : Fin 1) (vecScatterDims M E wf).scatterDimsToOperandDims,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
  have hw0 : (vecScatterDims M E wf).window (ix1 e) 0 = 0 := by
    unfold ScatterDims.window
    rw [dif_neg (show (0 : Fin 1) ∉ (vecScatterDims M E wf).sKept from by
      simp [ScatterDims.sKept, Shape.kept, List.mem_filter])]
  have hz0 : (⟨1, ![M]⟩ : Shape).size 0 = M := rfl
  unfold ScatterDims.resultIdx?
  split
  · rename_i h
    rw [Option.some.injEq]
    constructor
    · intro hf
      have e0 := congrArg Fin.val (congrFun hf 0)
      have b0 := h 0
      simp only [hs0, hw0] at e0 b0
      change _ = r.val at e0
      omega
    · intro hr
      funext a
      refine Fin.ext ?_
      match a with
      | ⟨0, _⟩ =>
        show ((vecScatterDims M E wf).start (ix1 e) idx 0 + ((vecScatterDims M E wf).window (ix1 e) 0 : ℕ)).toNat = r.val
        rw [hs0, hw0, hr]; simp
  · rename_i h
    constructor
    · intro hf; exact absurd hf (by simp)
    · intro hr
      exfalso; apply h
      intro a
      match a with
      | ⟨0, _⟩ =>
        show 0 ≤ (vecScatterDims M E wf).start (ix1 e) idx 0 + ((vecScatterDims M E wf).window (ix1 e) 0 : ℕ)
          ∧ (vecScatterDims M E wf).start (ix1 e) idx 0 + ((vecScatterDims M E wf).window (ix1 e) 0 : ℕ)
            < ((⟨1, ![M]⟩ : Shape).size 0 : ℕ)
        rw [hs0, hw0, hr, hz0]; have := r.isLt; omega

/-- A rank-1 index is its one coordinate. -/
def idxEquiv1 {n : Nat} : Fin n ≃ (⟨1, ![n]⟩ : Shape).Idx where
  toFun a := ix1 a
  invFun i := i 0
  left_inv _ := rfl
  right_inv i := (eq_ix1 i).symm

/-- THE ACCUMULATING RANK-1 SCATTER READ AT `r`: the operand's element plus the sum, over the edges `e` whose
    destination `idx[e, 0]` (read signed, not clamped) is `r`, of the update's element `e`. -/
theorem vecScatterAdd_apply {M E w : Nat}
    (wf : ScatterDims.WF ⟨1, ![M]⟩ ⟨2, ![E, 1]⟩ ⟨1, ![E]⟩ [] [0] [0] 1)
    (x : (⟨1, ![M]⟩ : Shape).Idx → EReal) (idx : IVec ⟨2, ![E, 1]⟩ w)
    (upd : (⟨1, ![E]⟩ : Shape).Idx → EReal) (r : Fin M) :
    Ideal.hostScatterAdd (vecScatterDims M E wf) x idx upd (ix1 r)
      = x (ix1 r) + ∑ e ∈ Finset.univ.filter
          (fun e : Fin E => (idx (ix2 e ⟨0, Nat.one_pos⟩)).toInt = (r.val : ℤ)), upd (ix1 e) := by
  unfold Ideal.hostScatterAdd
  congr 1
  rw [Finset.sum_filter, Finset.sum_filter, ← Equiv.sum_comp (idxEquiv1 (n := E))]
  refine Finset.sum_congr rfl fun e _ => ?_
  show (if (vecScatterDims M E wf).resultIdx? (ix1 e) idx = some (ix1 r) then upd (ix1 e) else 0) = _
  simp only [vecScatter_resultIdx?_eq_some_iff]

end VecScatter

end Idealize.ShloMosaic.RowTake

end
-- ==== Proof.KernelHost2.lean ====
/-
  THE KERNEL PROGRAM'S FIRST HOST STRETCH READ AT AN INDEX. Between its second and third tiled regions the program
  computes, on whole arrays, the mean over each destination node's incoming edges of the projected source rows:
  it wraps the negative source indices, gathers the rows of the `[286000, 256]` table at them, widens them,
  scatter-adds them into a zero `[11000, 256]` array at the destination indices, scatter-adds ones into a zero
  `[11000]` array at the same indices, clamps that count below by one and divides; it also reshapes the `[256]` bias
  to a `[1, 256]` row. Read at one element the quotient is the segment mean of the specification
  (`Cert.SageSpec.segMean`) of the table's rows the edges name, the bias row is the bias, and every buffer the
  stretch does not write keeps its contents.
-/
import proofs.«129063_j1872605741714_2_alg».proof.Proof.Gen.KernelIdeal.Launch
import proofs.«129063_j1872605741714_2_alg».proof.Proof.SageSpec
import proofs.«129063_j1872605741714_2_alg».proof.Proof.LibRowTake
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.KernelIdeal.Host2

open Cert.KernelIdeal Cert.KernelIdeal.Gen Idealize.ShloMosaic Idealize.ShloMosaic.TcCoe Idealize.SL.Sem
open Idealize.ShloMosaic.StableHlo Idealize.ShloMosaic.ValueIdx Idealize.ShloMosaic.RowTake

variable (W : Valuation τ sig (Elt Ideal))

/-! ## The edge index arrays as the host stretch computes them -/

/-- The source index array the gather reads: a negative index wrapped by the table's 286000 rows, as an `[E, 1]`
    array. -/
def srcIdx0 (a7 : IVec S275000 32) : IVec S275000x1 32 :=
  broadcastInDim S275000x1 ![0] bcast_S275000_S275000x1_0
    (select (cmpi .slt a7 (broadcastInDim S275000 ![] bcast_S_S275000 (constantI S_ 32 0#32)))
      (addi a7 (broadcastInDim S275000 ![] bcast_S_S275000 (constantI S_ 32 286000#32))) a7)

/-- The destination index array the two scatters read: the destination list as an `[E, 1]` array. -/
def dstIdx0 (a8 : IVec S275000 32) : IVec S275000x1 32 :=
  broadcastInDim S275000x1 ![0] bcast_S275000_S275000x1_0 a8

/-! ## The literals, broadcast -/

/-- The zero literal broadcast, at any index. -/
theorem zeros_apply {t : Shape} (h : S_.BroadcastsInDim t (![] : Fin 0 → Fin t.rank)) (i : t.Idx) :
    (broadcastInDim t ![] h (constant (F := Ideal) S_ .f32 0x00000000#32) i : EReal) = 0 := by
  rw [broadcastInDim_scalar_apply]; exact Ideal.ofBits_zero_f32

/-- The one literal broadcast, at any index. -/
theorem ones_apply {t : Shape} (h : S_.BroadcastsInDim t (![] : Fin 0 → Fin t.rank)) (i : t.Idx) :
    (broadcastInDim t ![] h (constant (F := Ideal) S_ .f32 0x3F800000#32) i : EReal) = 1 := by
  rw [broadcastInDim_scalar_apply]; exact Ideal.ofBits_one_f32

/-! ## The aggregated rows -/

/-- THE MEAN AGGREGATION READ AT `(r, j)`: the segment mean, over the edges whose destination is `r`, of column `j`
    of the table row each edge's (wrapped, clamped) source index names. -/
theorem agg0_apply (r : Fin 11000) (j : Fin 256) :
    (StableHlo.after (hostOps2 (F := Ideal)) W (Proc.devRef .tc main_v21) : S11000x256.Idx → EReal) (ix2 r j)
      = Cert.SageSpec.segMean (dstIdx0 (W (Proc.devRef .tc main_arg8))) r
          (fun e => (W (Proc.devRef .tc main_v0) : S286000x256.Idx → EReal)
            (ix2 (Cert.SageSpec.rowOf 286000 (by decide) (srcIdx0 (W (Proc.devRef .tc main_arg7))) e) j)) := by
  show StableHlo.after (hostOps2 (F := Ideal)) W (Proc.devRef .tc main_v21) (ix2 r j) = _
  after_results_simp
  rw [hostDivf_apply]
  rw [show ∀ (x : FVec Ideal S11000x256 .f32) (i : IVec S275000x1 32) (u : FVec Ideal S275000x256 .f32),
      Host.scatterAdd scatter_S11000x256_S275000x1_S275000x256_1_0_0_1 x i u
        = Ideal.hostScatterAdd (rowScatterDims 11000 275000 256 scatter_S11000x256_S275000x1_S275000x256_1_0_0_1_wf) x i u
      from fun _ _ _ => rfl]
  rw [rowScatterAdd_apply, zeros_apply]
  -- the divisor: two broadcasts of the clamped count
  rw [broadcastInDim_apply ![0, 1] bcast_S11000x1_S11000x256_0_1 _ (ix2 r j) (ix2 r ⟨0, Nat.one_pos⟩) (fun a => match a with
    | ⟨0, _⟩ => by show r.val = if (11000 : Nat) = 1 then 0 else r.val; rw [if_neg (by decide)]
    | ⟨1, _⟩ => by show 0 = if (1 : Nat) = 1 then 0 else j.val; rw [if_pos rfl])]
  rw [broadcastInDim_apply ![0] bcast_S11000_S11000x1_0 _ (ix2 r ⟨0, Nat.one_pos⟩) (ix1 r) (fun a => match a with
    | ⟨0, _⟩ => by show r.val = if (11000 : Nat) = 1 then 0 else r.val; rw [if_neg (by decide)])]
  rw [maximumf_apply, ones_apply]
  rw [show ∀ (x : FVec Ideal S11000 .f32) (i : IVec S275000x1 32) (u : FVec Ideal S275000 .f32),
      Host.scatterAdd scatter_S11000_S275000x1_S275000_n_0_0_1 x i u
        = Ideal.hostScatterAdd (vecScatterDims 11000 275000 scatter_S11000_S275000x1_S275000_n_0_0_1_wf) x i u
      from fun _ _ _ => rfl]
  rw [vecScatterAdd_apply, zeros_apply]
  -- both sums run over the segment's edges; read the gathered row and the unit update edge by edge
  unfold Cert.SageSpec.segMean Cert.SageSpec.cnt Cert.SageSpec.seg
  refine congrArg₂ Ideal.div (congrArg (fun t : EReal => 0 + t) (Finset.sum_congr rfl fun e _ => ?_))
    (congrArg (fun t : EReal => max (0 + t) 1) (Finset.sum_congr rfl fun e _ => ?_))
  · exact rowGather_apply (N := 286000) (by decide) gather_S286000x256_S275000x1_S275000x256_1_0_n_n_0_1_1256_wf
      (W (Proc.devRef .tc main_v0)) (srcIdx0 (W (Proc.devRef .tc main_arg7))) e j
  · exact ones_apply _ _

/-! ## The bias row -/

/-- The bias as a `[1, 256]` row: element `(0, j)` is the bias's element `j`. -/
theorem bias0_apply (j : Fin 256) :
    (StableHlo.after (hostOps2 (F := Ideal)) W (Proc.devRef .tc main_v22) : S1x256.Idx → EReal) (ix2 ⟨0, Nat.one_pos⟩ j)
      = (W (Proc.devRef .tc main_arg3) : S256.Idx → EReal) (ix1 j) := by
  show StableHlo.after (hostOps2 (F := Ideal)) W (Proc.devRef .tc main_v22) (ix2 ⟨0, Nat.one_pos⟩ j) = _
  after_results_simp
  exact shapeCast_apply _ shapeCasts_S256_S1x256 (ix2 ⟨0, Nat.one_pos⟩ j) (ix1 j) (by
    rw [Shape.rowMajor_val_two, Shape.rowMajor_val_one]; show j.val = 0 * 256 + j.val; omega)

/-! ## What the stretch leaves alone -/

section Kept
variable {F : FTy → Type} [FloatOps F]

/-- The buffers the stretch writes, in order. -/
def written2 : List (Ref sig .tc) :=
  [main_c, main_v2, main_v3, main_c_0, main_v4, main_v5, main_v6, main_v7, main_v8, main_v9, main_cst, main_v10, main_v11,
    main_v12, main_cst_1, main_v13, main_cst_2, main_v14, main_v15, main_v16, main_cst_3, main_v17, main_v18, main_v19,
    main_v20, main_v21, main_v22]

/-- A buffer the stretch does not write holds after it what it held before. -/
theorem kept2 (V : Valuation τ sig (Elt F)) (b : Ref sig .tc) (hb : b ∉ written2) :
    StableHlo.after (hostOps2 (F := F)) V (Proc.devRef .tc b) = V (Proc.devRef .tc b) := by
  refine StableHlo.after_of_writes_sub (W := written2) _ V ?_ hb
  simp only [hostOps2, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map_of_mem (by decide)))

end Kept

end Cert.KernelIdeal.Host2

end
-- ==== Proof.KChain0.lean ====
/-
  The kernel program's hidden layer read entry by entry: the combine region's array, from the self term of region 1,
  the aggregate the first host stretch computes from region 0's projected rows, and the bias row — the projected
  arrangement of the specification.
-/
import proofs.«129063_j1872605741714_2_alg».proof.Proof.KBoundary
import proofs.«129063_j1872605741714_2_alg».proof.Proof.KernelHost2
import proofs.«129063_j1872605741714_2_alg».proof.Proof.SageSpec

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- The first host stretch does not touch the self term. -/
theorem w3_v1 : W3 m ρ c (Proc.devRef .tc main_v1) = W2 m ρ c (Proc.devRef .tc main_v1) :=
  StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- Entry (d, q) of the hidden layer. -/
theorem hidden_apply (d : Fin 11000) (q : Fin 256) :
    W4 m ρ c (Proc.devRef .tc main_v23) (ix2 d q)
      = Cert.SageSpec.hidP (m ((c : Thread nD τ).loc main_arg0)) (m ((c : Thread nD τ).loc main_arg1))
          (m ((c : Thread nD τ).loc main_arg2)) (m ((c : Thread nD τ).loc main_arg3))
          (Cert.KernelIdeal.Host2.srcIdx0 (m ((c : Thread nD τ).loc main_arg7)))
          (Cert.KernelIdeal.Host2.dstIdx0 (m ((c : Thread nD τ).loc main_arg8))) d q := by
  refine (congrFun (w4_v23 m ρ c) (ix2 d q)).trans ?_
  refine (G2_ix2 _ _ _ d q).trans ?_
  have h1 : W3 m ρ c (Proc.devRef .tc main_v1) (ix2 d q)
      = Cert.SageSpec.self0 (m ((c : Thread nD τ).loc main_arg0)) (m ((c : Thread nD τ).loc main_arg1)) d q :=
    (congrFun ((w3_v1 m ρ c).trans (w2_v1 m ρ c)) (ix2 d q)).trans rfl
  have h2 : W3 m ρ c (Proc.devRef .tc main_v21) (ix2 d q)
      = Cert.SageSpec.segMean (Cert.KernelIdeal.Host2.dstIdx0 (m ((c : Thread nD τ).loc main_arg8))) d
          (fun e => Cert.SageSpec.proj0 (m ((c : Thread nD τ).loc main_arg0)) (m ((c : Thread nD τ).loc main_arg2))
            (Cert.SageSpec.rowOf 286000 (by decide) (Cert.KernelIdeal.Host2.srcIdx0 (m ((c : Thread nD τ).loc main_arg7))) e) q) := by
    refine (Cert.KernelIdeal.Host2.agg0_apply (W2 m ρ c) d q).trans ?_
    rw [w2_arg7, w2_arg8, w2_v0]
    rfl
  have h3 : W3 m ρ c (Proc.devRef .tc main_v22) (ix2 (⟨0, Nat.one_pos⟩ : Fin 1) q)
      = m ((c : Thread nD τ).loc main_arg3) (ix1 q) := by
    refine (Cert.KernelIdeal.Host2.bias0_apply (W2 m ρ c) q).trans ?_
    rw [w2_arg3]
  rw [h1, h2, h3]
  rfl

end Cert.KernelIdeal.KVal

end
-- ==== Proof.KernelHost5.lean ====
/-
  The kernel program's second host stretch read at an index.

  Between its fifth and sixth regions the kernel's main function runs a stretch of host operations that aggregates
  the projected hidden rows over the second layer's edges: the source indices are wrapped and broadcast to an [E, 1]
  array, the rows of the projected table are gathered at them, an accumulating scatter adds the gathered rows into a
  zero table at the destination indices, a second accumulating scatter adds ones into a zero vector to count each
  destination's edges, the count is floored at one and broadcast along the row, and the sums are divided by it;
  last, the bias vector is reshaped to a one-row table. Read at row `r` and column `j`, the aggregate is the mean
  over the edges of segment `r` of the projected table at each edge's clamped source row: the specification's
  `segMean`.
-/
import proofs.«129063_j1872605741714_2_alg».proof.Proof.Gen.KernelIdeal.Launch
import proofs.«129063_j1872605741714_2_alg».proof.Proof.SageSpec
import proofs.«129063_j1872605741714_2_alg».proof.Proof.LibRowTake
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.Host5

open Cert.KernelIdeal Cert.KernelIdeal.Gen Idealize.ShloMosaic Idealize.ShloMosaic.TcCoe Idealize.SL.Sem
open Idealize.ShloMosaic.StableHlo Idealize.ShloMosaic.ValueIdx Idealize.ShloMosaic.RowTake

/-! ## The index arrays -/

/-- The source indices as the gather reads them: a negative index wrapped by the table's row count, then broadcast
    to an [E, 1] array. -/
def srcIdx1 (a9 : IVec S10000 32) : IVec S10000x1 32 :=
  broadcastInDim S10000x1 ![0] bcast_S10000_S10000x1_0
    (select (cmpi .slt a9 (broadcastInDim S10000 ![] bcast_S_S10000 (constantI S_ 32 0#32)))
      (addi a9 (broadcastInDim S10000 ![] bcast_S_S10000 (constantI S_ 32 11000#32))) a9)

/-- The destination indices as the scatters read them: broadcast to an [E, 1] array. -/
def dstIdx1 (a10 : IVec S10000 32) : IVec S10000x1 32 :=
  broadcastInDim S10000x1 ![0] bcast_S10000_S10000x1_0 a10

/-! ## The stretch's results as pure terms -/

/-- The summed rows: the gathered rows of the table added into a zero table at the destination indices. -/
def rowSums (x24 : S11000x41.Idx → EReal) (a9 a10 : IVec S10000 32) : S1000x41.Idx → EReal :=
  Host.scatterAdd (F := Ideal) (φ := .f32) scatter_S1000x41_S10000x1_S10000x41_1_0_0_1
    (broadcastInDim S1000x41 ![] bcast_S_S1000x41 (constant (F := Ideal) S_ .f32 0x00000000#32))
    (dstIdx1 a10)
    (Host.gather gather_S11000x41_S10000x1_S10000x41_1_0_n_n_0_1_141 x24 (srcIdx1 a9))

/-- The edge counts: ones added into a zero vector at the destination indices. -/
def counts (a10 : IVec S10000 32) : S1000.Idx → EReal :=
  Host.scatterAdd (F := Ideal) (φ := .f32) scatter_S1000_S10000x1_S10000_n_0_0_1
    (broadcastInDim S1000 ![] bcast_S_S1000 (constant (F := Ideal) S_ .f32 0x00000000#32))
    (dstIdx1 a10)
    (broadcastInDim S10000 ![] bcast_S_S10000 (constant (F := Ideal) S_ .f32 0x3F800000#32))

/-- The divisors: the counts floored at one, broadcast along the row. -/
def divisors (a10 : IVec S10000 32) : S1000x41.Idx → EReal :=
  broadcastInDim S1000x41 ![0, 1] bcast_S1000x1_S1000x41_0_1
    (broadcastInDim S1000x1 ![0] bcast_S1000_S1000x1_0
      (maximumf (F := Ideal) (φ := .f32) (counts a10)
        (broadcastInDim S1000 ![] bcast_S_S1000 (constant (F := Ideal) S_ .f32 0x3F800000#32))))

/-- The aggregate: the summed rows divided by the divisors. -/
def agg1 (x24 : S11000x41.Idx → EReal) (a9 a10 : IVec S10000 32) : S1000x41.Idx → EReal :=
  Host.divf (F := Ideal) (φ := .f32) (rowSums x24 a9 a10) (divisors a10)

variable (W : Valuation τ sig (Elt Ideal))

/-- After the stretch the aggregate's buffer holds the aggregate of the contents before it. -/
theorem after_v44 : StableHlo.after (hostOps5 (F := Ideal)) W (Proc.devRef .tc main_v44)
    = agg1 (W (Proc.devRef .tc main_v24)) (W (Proc.devRef .tc main_arg9)) (W (Proc.devRef .tc main_arg10)) := by
  after_results_simp
  rfl

/-- After the stretch the reshaped bias's buffer holds the bias vector as a one-row table. -/
theorem after_v45 : StableHlo.after (hostOps5 (F := Ideal)) W (Proc.devRef .tc main_v45)
    = (shapeCast S1x41 (W (Proc.devRef .tc main_arg6) : S41.Idx → EReal) shapeCasts_S41_S1x41 : S1x41.Idx → EReal) := by
  after_results_simp
  rfl

/-! ## The literals and the constant arrays -/

/-- The pattern `0x3F800000` denotes one. -/
theorem ofBits_one_f32 : Ideal.ofBits .f32 0x3F800000#32 = 1 := by
  simp [Ideal.ofBits, Ideal.ieee, -EReal.coe_mul]; norm_num

/-- The zero literal broadcast to any shape is zero everywhere. -/
theorem zeros_apply {t : Shape} (h : S_.BroadcastsInDim t (![] : Fin 0 → Fin t.rank)) (i : t.Idx) :
    broadcastInDim t ![] h (constant (F := Ideal) S_ .f32 0x00000000#32) i = (0 : EReal) := by
  rw [broadcastInDim_apply _ h _ i (fun a => a.elim0) (fun a => a.elim0)]
  exact Ideal.ofBits_zero_f32

/-- The one literal broadcast to any shape is one everywhere. -/
theorem ones_apply {t : Shape} (h : S_.BroadcastsInDim t (![] : Fin 0 → Fin t.rank)) (i : t.Idx) :
    broadcastInDim t ![] h (constant (F := Ideal) S_ .f32 0x3F800000#32) i = (1 : EReal) := by
  rw [broadcastInDim_apply _ h _ i (fun a => a.elim0) (fun a => a.elim0)]
  exact ofBits_one_f32

/-! ## The operations read at an index -/

/-- The summed rows at `(r, j)`: the sum, over the edges of segment `r`, of the table at the edge's clamped source
    row, column `j`. -/
theorem rowSums_apply (x24 : S11000x41.Idx → EReal) (a9 a10 : IVec S10000 32) (r : Fin 1000) (j : Fin 41) :
    rowSums x24 a9 a10 (ix2 r j)
      = (0 : EReal) + ∑ e ∈ Cert.SageSpec.seg (dstIdx1 a10) r,
          x24 (ix2 (Cert.SageSpec.rowOf 11000 (by decide) (srcIdx1 a9) e) j) := by
  refine (rowScatterAdd_apply scatter_S1000x41_S10000x1_S10000x41_1_0_0_1_wf _ (dstIdx1 a10) _ r j).trans ?_
  congr 1
  · exact zeros_apply bcast_S_S1000x41 _
  · exact Finset.sum_congr rfl (fun e _ =>
      rowGather_apply (by decide) gather_S11000x41_S10000x1_S10000x41_1_0_n_n_0_1_141_wf x24 (srcIdx1 a9) e j)

/-- The edge count at `r`: a one for every edge of segment `r`. -/
theorem counts_apply (a10 : IVec S10000 32) (r : Fin 1000) :
    counts a10 (ix1 r) = (0 : EReal) + ∑ _e ∈ Cert.SageSpec.seg (dstIdx1 a10) r, (1 : EReal) := by
  refine (vecScatterAdd_apply scatter_S1000_S10000x1_S10000_n_0_0_1_wf _ (dstIdx1 a10) _ r).trans ?_
  congr 1
  · exact zeros_apply bcast_S_S1000 _
  · exact Finset.sum_congr rfl (fun e _ => ones_apply bcast_S_S10000 _)

/-- The divisor at `(r, j)`: the count of segment `r`, floored at one. -/
theorem divisors_apply (a10 : IVec S10000 32) (r : Fin 1000) (j : Fin 41) :
    divisors a10 (ix2 r j) = Cert.SageSpec.cnt (dstIdx1 a10) r := by
  unfold divisors
  rw [broadcastInDim_apply _ bcast_S1000x1_S1000x41_0_1 _ (ix2 r j) (ix2 r ⟨0, Nat.one_pos⟩) (fun a => match a with
      | ⟨0, _⟩ => by show r.val = if (1000 : Nat) = 1 then 0 else r.val; rw [if_neg (by decide)]
      | ⟨1, _⟩ => by show 0 = if (1 : Nat) = 1 then 0 else j.val; rw [if_pos rfl]),
    broadcastInDim_apply _ bcast_S1000_S1000x1_0 _ (ix2 r ⟨0, Nat.one_pos⟩) (ix1 r) (fun a => match a with
      | ⟨0, _⟩ => by show r.val = if (1000 : Nat) = 1 then 0 else r.val; rw [if_neg (by decide)])]
  show max (counts a10 (ix1 r))
    (broadcastInDim S1000 ![] bcast_S_S1000 (constant (F := Ideal) S_ .f32 0x3F800000#32) (ix1 r)) = _
  rw [counts_apply, ones_apply]
  rfl

/-! ## The stretch's results read at an index -/

/-- The aggregate's buffer after the stretch, at `(r, j)`: the mean over segment `r` of the table at each edge's
    clamped source row, column `j`. -/
theorem agg1_apply (r : Fin 1000) (j : Fin 41) :
    (StableHlo.after (hostOps5 (F := Ideal)) W (Proc.devRef .tc main_v44) : S1000x41.Idx → EReal) (ix2 r j)
      = Cert.SageSpec.segMean (dstIdx1 (W (Proc.devRef .tc main_arg10))) r
          (fun e => (W (Proc.devRef .tc main_v24) : S11000x41.Idx → EReal)
            (ix2 (Cert.SageSpec.rowOf 11000 (by decide) (srcIdx1 (W (Proc.devRef .tc main_arg9))) e) j)) := by
  refine (congrFun (after_v44 W) (ix2 r j)).trans ?_
  show Ideal.div (rowSums _ _ _ (ix2 r j)) (divisors _ (ix2 r j)) = _
  rw [rowSums_apply, divisors_apply]
  rfl

/-- The reshaped bias's buffer after the stretch, at `(0, j)`: the bias vector at `j`. -/
theorem bias1_apply (j : Fin 41) :
    (StableHlo.after (hostOps5 (F := Ideal)) W (Proc.devRef .tc main_v45) : S1x41.Idx → EReal)
        (ix2 ⟨0, Nat.one_pos⟩ j)
      = (W (Proc.devRef .tc main_arg6) : S41.Idx → EReal) (ix1 j) := by
  refine (congrFun (after_v45 W) _).trans ?_
  refine shapeCast_apply _ shapeCasts_S41_S1x41 _ (ix1 j) ?_
  rw [Shape.rowMajor_val_one, Shape.rowMajor_val_two]
  show j.val = 0 * _ + j.val
  rw [Nat.zero_mul, Nat.zero_add]

/-! ## What the stretch leaves unchanged -/

/-- The references the stretch's operations write. -/
abbrev hostOps5_W : List (Ref sig .tc) :=
  [main_c_4, main_v26, main_v27, main_c_5, main_v28, main_v29, main_v30, main_v31, main_v32, main_cst_6, main_v33, main_v34, main_v35, main_cst_7, main_v36, main_cst_8, main_v37, main_v38, main_v39, main_cst_9, main_v40, main_v41, main_v42, main_v43, main_v44, main_v45]

theorem hostOps5_writes : (hostOps5 : List (HloOp τ sig (Elt Ideal))).Forall fun op =>
    op.writes ⊆ (hostOps5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes,
      StableHlo.reshape_writes, Finset.singleton_subset_iff, List.mem_toFinset]
     exact List.mem_map_of_mem (by decide))

/-- A buffer the stretch does not write keeps its contents. -/
theorem kept5 (b : Ref sig .tc) (hb : b ∉ hostOps5_W) :
    StableHlo.after (hostOps5 (F := Ideal)) W (Proc.devRef .tc b) = W (Proc.devRef .tc b) :=
  StableHlo.after_of_writes_sub hostOps5 W hostOps5_writes hb

theorem kept5_v25 : StableHlo.after (hostOps5 (F := Ideal)) W (Proc.devRef .tc main_v25)
    = W (Proc.devRef .tc main_v25) := kept5 W main_v25 (by decide)
theorem kept5_v24 : StableHlo.after (hostOps5 (F := Ideal)) W (Proc.devRef .tc main_v24)
    = W (Proc.devRef .tc main_v24) := kept5 W main_v24 (by decide)
theorem kept5_arg6 : StableHlo.after (hostOps5 (F := Ideal)) W (Proc.devRef .tc main_arg6)
    = W (Proc.devRef .tc main_arg6) := kept5 W main_arg6 (by decide)

end Cert.KernelIdeal.Host5
-- ==== Proof.KChain1.lean ====
/-
  The kernel program's second layer read at an index.

  The result buffer at the last boundary is the sixth region's whole-array function of three buffers the second host
  stretch leaves: the second layer's self term (the fifth region's matrix product, which the stretch does not write),
  the aggregate (the stretch's segment mean of the fourth region's projected hidden rows) and the bias as a one-row
  table (the stretch's reshape). Read at row `d` and column `j` and carried back to the launch memory, their sum is
  the specification's output layer in the projected arrangement over the hidden table the third region left.
-/
import proofs.«129063_j1872605741714_2_alg».proof.Proof.KBoundary
import proofs.«129063_j1872605741714_2_alg».proof.Proof.KernelHost5
import proofs.«129063_j1872605741714_2_alg».proof.Proof.SageSpec

noncomputable section

namespace Cert.KernelIdeal.KVal

open Idealize.ShloMosaic Idealize.ShloMosaic.TcCoe Idealize.ShloMosaic.ValueIdx Idealize.SL.Sem
open Cert.KernelIdeal Cert.KernelIdeal.Gen Cert.KernelIdeal.Host5

/-- The aggregate after the second host stretch, with the three buffers it reads named. -/
theorem agg1_apply_of (W : Valuation τ sig (Elt Ideal)) (x24 : S11000x41.Idx → EReal) (a9 a10 : IVec S10000 32)
    (h24 : (W (Proc.devRef .tc main_v24) : S11000x41.Idx → EReal) = x24)
    (h9 : (W (Proc.devRef .tc main_arg9) : IVec S10000 32) = a9)
    (h10 : (W (Proc.devRef .tc main_arg10) : IVec S10000 32) = a10) (d : Fin 1000) (j : Fin 41) :
    (StableHlo.after (hostOps5 (F := Ideal)) W (Proc.devRef .tc main_v44) : S1000x41.Idx → EReal) (ix2 d j)
      = Cert.SageSpec.segMean (dstIdx1 a10) d
          (fun e => x24 (ix2 (Cert.SageSpec.rowOf 11000 (by decide) (srcIdx1 a9) e) j)) := by
  subst h24 h9 h10
  exact agg1_apply W d j

/-- The output layer's three summands over abstract arrays are the specification's projected arrangement. -/
theorem outP_of_parts (H : S11000x256.Idx → EReal) (ws1 wn1 : S256x41.Idx → EReal) (b1 : S41.Idx → EReal)
    (s1 d1 : IVec S10000x1 32) (d : Fin 1000) (j : Fin 41) :
    (G4 H ws1 (ix2 d j)
        + Cert.SageSpec.segMean d1 d (fun e => G3 H wn1 (ix2 (Cert.SageSpec.rowOf 11000 (by decide) s1 e) j)))
      + b1 (ix1 j)
      = Cert.SageSpec.outP ws1 wn1 b1 s1 d1 (fun d k => H (ix2 d k)) d j := rfl

/-- A sum of three terms rewritten term by term. -/
theorem add3_congr {a a' b b' c c' : EReal} (ha : a = a') (hb : b = b') (hc : c = c') :
    (a + b) + c = (a' + b') + c' := by rw [ha, hb, hc]

variable (m : (ℓ : Loc nD τ sig) → Buf (Elt Ideal) ℓ) (ρ : Dev nD → PrngReg) (c : Dev nD)

/-- THE RESULT AT `(d, j)`: the specification's output layer, projected arrangement, at the launch memory's second-layer
    weights, bias and edge lists, over the hidden table the third region left. -/
theorem out_apply (d : Fin 1000) (j : Fin 41) :
    (W8 m ρ c (Proc.devRef .tc main_v46) : S1000x41.Idx → EReal) (ix2 d j)
      = Cert.SageSpec.outP (m ((c : Thread nD τ).loc main_arg4)) (m ((c : Thread nD τ).loc main_arg5))
          (m ((c : Thread nD τ).loc main_arg6))
          (srcIdx1 (m ((c : Thread nD τ).loc main_arg9))) (dstIdx1 (m ((c : Thread nD τ).loc main_arg10)))
          (fun d k => (W4 m ρ c (Proc.devRef .tc main_v23) : S11000x256.Idx → EReal) (ix2 d k)) d j := by
  have h25 : (W7 m ρ c (Proc.devRef .tc main_v25) : S1000x41.Idx → EReal) (ix2 d j)
      = G4 (W4 m ρ c (Proc.devRef .tc main_v23)) (m ((c : Thread nD τ).loc main_arg4)) (ix2 d j) :=
    congrFun ((kept5_v25 (W6 m ρ c)).trans (w6_v25 m ρ c)) (ix2 d j)
  have h44 : (W7 m ρ c (Proc.devRef .tc main_v44) : S1000x41.Idx → EReal) (ix2 d j)
      = Cert.SageSpec.segMean (dstIdx1 (m ((c : Thread nD τ).loc main_arg10))) d
          (fun e => G3 (W4 m ρ c (Proc.devRef .tc main_v23)) (m ((c : Thread nD τ).loc main_arg5))
            (ix2 (Cert.SageSpec.rowOf 11000 (by decide) (srcIdx1 (m ((c : Thread nD τ).loc main_arg9))) e) j)) :=
    agg1_apply_of (W6 m ρ c) _ _ _ (w6_v24 m ρ c) (w6_arg9 m ρ c) (w6_arg10 m ρ c) d j
  have h45 : (W7 m ρ c (Proc.devRef .tc main_v45) : S1x41.Idx → EReal) (ix2 ⟨0, Nat.one_pos⟩ j)
      = (m ((c : Thread nD τ).loc main_arg6) : S41.Idx → EReal) (ix1 j) :=
    (bias1_apply (W6 m ρ c) j).trans (congrFun (w6_arg6 m ρ c) (ix1 j))
  refine (congrFun (w8_v46 m ρ c) (ix2 d j)).trans ?_
  rw [G5_ix2]
  refine (add3_congr h25 h44 h45).trans ?_
  exact outP_of_parts _ _ _ _ _ _ d j

end Cert.KernelIdeal.KVal
-- ==== Proof.KChain.lean ====
/-
  The kernel program's result read entry by entry: the projected arrangement of the specification at the launch
  memory's argument arrays — the second layer's entry over the hidden table, and the hidden table's entries.
-/
import proofs.«129063_j1872605741714_2_alg».proof.Proof.KChain0
import proofs.«129063_j1872605741714_2_alg».proof.Proof.KChain1

set_option maxRecDepth 16384

noncomputable section

namespace Cert.KernelIdeal.KVal

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- Entry (d, j) of the kernel's result. -/
theorem kernel_apply (d : Fin 1000) (j : Fin 41) :
    W8 m ρ c (Proc.devRef .tc main_v46) (ix2 d j)
      = Cert.SageSpec.netP (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (m ((c : Thread nD τ).loc main_arg6))
          (Cert.KernelIdeal.Host2.srcIdx0 (m ((c : Thread nD τ).loc main_arg7)))
          (Cert.KernelIdeal.Host2.dstIdx0 (m ((c : Thread nD τ).loc main_arg8)))
          (Cert.KernelIdeal.Host5.srcIdx1 (m ((c : Thread nD τ).loc main_arg9)))
          (Cert.KernelIdeal.Host5.dstIdx1 (m ((c : Thread nD τ).loc main_arg10))) d j := by
  refine (out_apply m ρ c d j).trans ?_
  have hh : (fun (d' : Fin 11000) (k : Fin 256) => W4 m ρ c (Proc.devRef .tc main_v23) (ix2 d' k))
      = Cert.SageSpec.hidP (m ((c : Thread nD τ).loc main_arg0)) (m ((c : Thread nD τ).loc main_arg1))
          (m ((c : Thread nD τ).loc main_arg2)) (m ((c : Thread nD τ).loc main_arg3))
          (Cert.KernelIdeal.Host2.srcIdx0 (m ((c : Thread nD τ).loc main_arg7)))
          (Cert.KernelIdeal.Host2.dstIdx0 (m ((c : Thread nD τ).loc main_arg8))) :=
    funext fun d' => funext fun k => hidden_apply m ρ c d' k
  unfold Cert.SageSpec.netP
  rw [← hh]

end Cert.KernelIdeal.KVal

end
-- ==== Proof.RefStages.lean ====
/-
  The reference program's stages, read index by index at the exact (extended-real) instance.

  Bottom-up, each stage at explicit coordinates: the segment counts (an accumulating scatter of ones, clamped below by
  one), the gathered rows, their segment sums and means, the two contractions of each layer, the bias and the
  rectifier; the result is the two-layer mean-aggregation network in the plain arrangement (mean of the source rows,
  then the neighbour weights), over the edge lists as the gather and the scatter read them.
-/
import proofs.«129063_j1872605741714_2_alg».proof.Proof.Gen.ReferenceIdeal.Run
import proofs.«129063_j1872605741714_2_alg».proof.Proof.Gen.ReferenceIdeal.Read
import proofs.«129063_j1872605741714_2_alg».proof.Proof.SageSpec
import proofs.«129063_j1872605741714_2_alg».proof.Proof.LibRowTake
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx Idealize.ShloMosaic.RowTake
open Cert.SageSpec

/-- The segment count before the clamp: zero plus one for every edge of the segment. -/
theorem v14_apply (x8 : (⟨S275000, .i32⟩ : BufTy).Contents (Elt Ideal)) (r : Fin 11000) :
    Read.val_main_v14 (F := Ideal) x8 (ix1 r)
      = (0 : EReal) + ∑ _e ∈ seg (Read.val_main_v9 (F := Ideal) x8) r, (1 : EReal) := by
  refine (vecScatterAdd_apply (M := 11000) (E := 275000) scatter_S11000_S275000x1_S275000_n_0_0_1_wf
    (Read.val_main_v12 (F := Ideal)) (Read.val_main_v13 (F := Ideal) x8) (Read.val_main_v11 (F := Ideal)) r).trans ?_
  simp only [Read.val_main_v12_apply, Read.val_main_cst_2_apply, Read.val_main_v11_apply, Read.val_main_cst_1_apply,
    Ideal.ofBits_def, Ideal.ofBits_zero_f32, Ideal.ofBits_one_f32]
  rfl

/-- The divisor of segment r. -/
theorem v16_apply (x8 : (⟨S275000, .i32⟩ : BufTy).Contents (Elt Ideal)) (r : Fin 11000) :
    Read.val_main_v16 (F := Ideal) x8 (ix1 r) = cnt (Read.val_main_v9 (F := Ideal) x8) r := by
  rw [Read.val_main_v16_apply, v14_apply, Read.val_main_v15_apply, Read.val_main_cst_3_apply]
  simp only [Ideal.ofBits_def, Ideal.ofBits_one_f32, Ideal.maximumf_def]
  rfl

/-- The gathered rows: edge e reads the feature row its source index names. -/
theorem v7_apply (x0 : (⟨S286000x602, .f32⟩ : BufTy).Contents (Elt Ideal)) (x7 : (⟨S275000, .i32⟩ : BufTy).Contents (Elt Ideal)) (e : Fin 275000) (k : Fin 602) :
    Read.val_main_v7 (F := Ideal) x0 x7 (ix2 e k) = x0 (ix2 (rowOf 286000 (by decide) (Read.val_main_v6 (F := Ideal) x7) e) k) :=
  rowGather_apply (N := 286000) (E := 275000) (D := 602) (by decide)
    gather_S286000x602_S275000x1_S275000x602_1_0_n_n_0_1_1602_wf x0 (Read.val_main_v6 (F := Ideal) x7) e k

/-- The segment sums of the gathered rows. -/
theorem v10_apply (x0 : (⟨S286000x602, .f32⟩ : BufTy).Contents (Elt Ideal)) (x7 x8 : (⟨S275000, .i32⟩ : BufTy).Contents (Elt Ideal)) (r : Fin 11000) (k : Fin 602) :
    Read.val_main_v10 (F := Ideal) x0 x7 x8 (ix2 r k)
      = (0 : EReal) + ∑ e ∈ seg (Read.val_main_v9 (F := Ideal) x8) r, x0 (ix2 (rowOf 286000 (by decide) (Read.val_main_v6 (F := Ideal) x7) e) k) := by
  refine (rowScatterAdd_apply (M := 11000) (E := 275000) (D := 602) scatter_S11000x602_S275000x1_S275000x602_1_0_0_1_wf
    (Read.val_main_v8 (F := Ideal)) (Read.val_main_v9 (F := Ideal) x8) (Read.val_main_v7 (F := Ideal) x0 x7) r k).trans ?_
  simp only [Read.val_main_v8_apply, Read.val_main_cst_apply, Ideal.ofBits_def, Ideal.ofBits_zero_f32, v7_apply]
  rfl

/-- The divisor broadcast along the columns. -/
theorem v18_apply (x8 : (⟨S275000, .i32⟩ : BufTy).Contents (Elt Ideal)) (r : Fin 11000) (k : Fin 602) :
    Read.val_main_v18 (F := Ideal) x8 (ix2 r k) = cnt (Read.val_main_v9 (F := Ideal) x8) r := by
  rw [Read.val_main_v18_apply, Read.val_main_v17_apply]
  have hi : Read.idx_main_v17 (Read.idx_main_v18 (ix2 r k)) = ix1 r :=
    funext fun a => match a with | ⟨0, _⟩ => rfl
  rw [hi, v16_apply]

/-- The mean rows. -/
theorem v19_apply (x0 : (⟨S286000x602, .f32⟩ : BufTy).Contents (Elt Ideal)) (x7 x8 : (⟨S275000, .i32⟩ : BufTy).Contents (Elt Ideal)) (r : Fin 11000) (k : Fin 602) :
    Read.val_main_v19 (F := Ideal) x0 x7 x8 (ix2 r k)
      = segMean (Read.val_main_v9 (F := Ideal) x8) r (fun e => x0 (ix2 (rowOf 286000 (by decide) (Read.val_main_v6 (F := Ideal) x7) e) k)) := by
  rw [Read.val_main_v19_apply, v10_apply, v18_apply, Ideal.hostDivf_def]
  rfl

/-- The self term of the first layer. -/
theorem v20_apply (x0 : (⟨S286000x602, .f32⟩ : BufTy).Contents (Elt Ideal)) (x1 : (⟨S602x256, .f32⟩ : BufTy).Contents (Elt Ideal)) (r : Fin 11000) (c : Fin 256) :
    Read.val_main_v20 (F := Ideal) x0 x1 (ix2 r c) = self0 x0 x1 r c := by
  rw [Read.val_main_v20_apply]
  refine Finset.sum_congr rfl fun k _ => ?_
  rw [Read.val_main_v0_apply]
  have hl : Read.idx_main_v0 (Read.lidx_main_v20 (ix2 r c) k) = ix2 (up0 r) k :=
    funext fun a => match a with | ⟨0, _⟩ => rfl | ⟨1, _⟩ => rfl
  have hr : Read.ridx_main_v20 (ix2 r c) k = ix2 k c :=
    funext fun a => match a with | ⟨0, _⟩ => rfl | ⟨1, _⟩ => rfl
  rw [hl, hr]

/-- The neighbour term of the first layer: the mean rows times the neighbour weights. -/
theorem v21_apply (x0 : (⟨S286000x602, .f32⟩ : BufTy).Contents (Elt Ideal)) (x2 : (⟨S602x256, .f32⟩ : BufTy).Contents (Elt Ideal)) (x7 x8 : (⟨S275000, .i32⟩ : BufTy).Contents (Elt Ideal)) (r : Fin 11000) (c : Fin 256) :
    Read.val_main_v21 (F := Ideal) x0 x2 x7 x8 (ix2 r c)
      = ∑ k : Fin 602, segMean (Read.val_main_v9 (F := Ideal) x8) r (fun e => x0 (ix2 (rowOf 286000 (by decide) (Read.val_main_v6 (F := Ideal) x7) e) k)) * x2 (ix2 k c) := by
  rw [Read.val_main_v21_apply]
  refine Finset.sum_congr rfl fun k _ => ?_
  have hl : Read.lidx_main_v21 (ix2 r c) k = ix2 r k :=
    funext fun a => match a with | ⟨0, _⟩ => rfl | ⟨1, _⟩ => rfl
  have hr : Read.ridx_main_v21 (ix2 r c) k = ix2 k c :=
    funext fun a => match a with | ⟨0, _⟩ => rfl | ⟨1, _⟩ => rfl
  rw [hl, hr, v19_apply]

/-- The first bias broadcast along the rows. -/
theorem v24_apply (x3 : (⟨S256, .f32⟩ : BufTy).Contents (Elt Ideal)) (r : Fin 11000) (c : Fin 256) :
    Read.val_main_v24 (F := Ideal) x3 (ix2 r c) = x3 (ix1 c) := by
  rw [Read.val_main_v24_apply, Read.val_main_v23_apply]
  have hi : Read.idx_main_v23 (Read.idx_main_v24 (ix2 r c)) = ix1 c :=
    funext fun a => match a with | ⟨0, _⟩ => rfl
  rw [hi]

/-- The hidden layer. -/
theorem v26_apply (x0 : (⟨S286000x602, .f32⟩ : BufTy).Contents (Elt Ideal)) (x1 x2 : (⟨S602x256, .f32⟩ : BufTy).Contents (Elt Ideal)) (x3 : (⟨S256, .f32⟩ : BufTy).Contents (Elt Ideal)) (x7 x8 : (⟨S275000, .i32⟩ : BufTy).Contents (Elt Ideal)) (r : Fin 11000) (c : Fin 256) :
    Read.val_main_v26 (F := Ideal) x0 x1 x2 x3 x7 x8 (ix2 r c)
      = hidR x0 x1 x2 x3 (Read.val_main_v6 (F := Ideal) x7) (Read.val_main_v9 (F := Ideal) x8) r c := by
  rw [Read.val_main_v26_apply, Read.val_main_v25_apply, Read.val_main_v22_apply, v20_apply, v21_apply, v24_apply,
    Read.val_main_call0_v0_apply, Read.val_main_call0_cst_apply]
  simp only [Ideal.ofBits_def, Ideal.ofBits_zero_f32, Ideal.maximumf_def, Ideal.addf_def]
  rfl

/-- The second segment count before the clamp. -/
theorem v41_apply (x10 : (⟨S10000, .i32⟩ : BufTy).Contents (Elt Ideal)) (d : Fin 1000) :
    Read.val_main_v41 (F := Ideal) x10 (ix1 d)
      = (0 : EReal) + ∑ _e ∈ seg (Read.val_main_v36 (F := Ideal) x10) d, (1 : EReal) := by
  refine (vecScatterAdd_apply (M := 1000) (E := 10000) scatter_S1000_S10000x1_S10000_n_0_0_1_wf
    (Read.val_main_v39 (F := Ideal)) (Read.val_main_v40 (F := Ideal) x10) (Read.val_main_v38 (F := Ideal)) d).trans ?_
  simp only [Read.val_main_v39_apply, Read.val_main_cst_8_apply, Read.val_main_v38_apply, Read.val_main_cst_7_apply,
    Ideal.ofBits_def, Ideal.ofBits_zero_f32, Ideal.ofBits_one_f32]
  rfl

/-- The divisor of segment d of the second layer. -/
theorem v43_apply (x10 : (⟨S10000, .i32⟩ : BufTy).Contents (Elt Ideal)) (d : Fin 1000) :
    Read.val_main_v43 (F := Ideal) x10 (ix1 d) = cnt (Read.val_main_v36 (F := Ideal) x10) d := by
  rw [Read.val_main_v43_apply, v41_apply, Read.val_main_v42_apply, Read.val_main_cst_9_apply]
  simp only [Ideal.ofBits_def, Ideal.ofBits_one_f32, Ideal.maximumf_def]
  rfl

/-- The gathered hidden rows. -/
theorem v34_apply (x0 : (⟨S286000x602, .f32⟩ : BufTy).Contents (Elt Ideal)) (x1 x2 : (⟨S602x256, .f32⟩ : BufTy).Contents (Elt Ideal)) (x3 : (⟨S256, .f32⟩ : BufTy).Contents (Elt Ideal)) (x7 x8 : (⟨S275000, .i32⟩ : BufTy).Contents (Elt Ideal)) (x9 : (⟨S10000, .i32⟩ : BufTy).Contents (Elt Ideal)) (e : Fin 10000) (k : Fin 256) :
    Read.val_main_v34 (F := Ideal) x0 x1 x2 x3 x7 x8 x9 (ix2 e k) = hidR x0 x1 x2 x3 (Read.val_main_v6 (F := Ideal) x7) (Read.val_main_v9 (F := Ideal) x8) (rowOf 11000 (by decide) (Read.val_main_v33 (F := Ideal) x9) e) k :=
  (rowGather_apply (N := 11000) (E := 10000) (D := 256) (by decide)
    gather_S11000x256_S10000x1_S10000x256_1_0_n_n_0_1_1256_wf (Read.val_main_v26 (F := Ideal) x0 x1 x2 x3 x7 x8)
    (Read.val_main_v33 (F := Ideal) x9) e k).trans (v26_apply x0 x1 x2 x3 x7 x8 _ k)

/-- The segment sums of the gathered hidden rows. -/
theorem v37_apply (x0 : (⟨S286000x602, .f32⟩ : BufTy).Contents (Elt Ideal)) (x1 x2 : (⟨S602x256, .f32⟩ : BufTy).Contents (Elt Ideal)) (x3 : (⟨S256, .f32⟩ : BufTy).Contents (Elt Ideal)) (x7 x8 : (⟨S275000, .i32⟩ : BufTy).Contents (Elt Ideal)) (x9 x10 : (⟨S10000, .i32⟩ : BufTy).Contents (Elt Ideal)) (d : Fin 1000) (k : Fin 256) :
    Read.val_main_v37 (F := Ideal) x0 x1 x2 x3 x7 x8 x9 x10 (ix2 d k)
      = (0 : EReal) + ∑ e ∈ seg (Read.val_main_v36 (F := Ideal) x10) d, hidR x0 x1 x2 x3 (Read.val_main_v6 (F := Ideal) x7) (Read.val_main_v9 (F := Ideal) x8) (rowOf 11000 (by decide) (Read.val_main_v33 (F := Ideal) x9) e) k := by
  refine (rowScatterAdd_apply (M := 1000) (E := 10000) (D := 256) scatter_S1000x256_S10000x1_S10000x256_1_0_0_1_wf
    (Read.val_main_v35 (F := Ideal)) (Read.val_main_v36 (F := Ideal) x10)
    (Read.val_main_v34 (F := Ideal) x0 x1 x2 x3 x7 x8 x9) d k).trans ?_
  simp only [Read.val_main_v35_apply, Read.val_main_cst_6_apply, Ideal.ofBits_def, Ideal.ofBits_zero_f32, v34_apply]
  rfl

/-- The second divisor broadcast along the columns. -/
theorem v45_apply (x10 : (⟨S10000, .i32⟩ : BufTy).Contents (Elt Ideal)) (d : Fin 1000) (k : Fin 256) :
    Read.val_main_v45 (F := Ideal) x10 (ix2 d k) = cnt (Read.val_main_v36 (F := Ideal) x10) d := by
  rw [Read.val_main_v45_apply, Read.val_main_v44_apply]
  have hi : Read.idx_main_v44 (Read.idx_main_v45 (ix2 d k)) = ix1 d :=
    funext fun a => match a with | ⟨0, _⟩ => rfl
  rw [hi, v43_apply]

/-- The mean hidden rows. -/
theorem v46_apply (x0 : (⟨S286000x602, .f32⟩ : BufTy).Contents (Elt Ideal)) (x1 x2 : (⟨S602x256, .f32⟩ : BufTy).Contents (Elt Ideal)) (x3 : (⟨S256, .f32⟩ : BufTy).Contents (Elt Ideal)) (x7 x8 : (⟨S275000, .i32⟩ : BufTy).Contents (Elt Ideal)) (x9 x10 : (⟨S10000, .i32⟩ : BufTy).Contents (Elt Ideal)) (d : Fin 1000) (k : Fin 256) :
    Read.val_main_v46 (F := Ideal) x0 x1 x2 x3 x7 x8 x9 x10 (ix2 d k)
      = segMean (Read.val_main_v36 (F := Ideal) x10) d (fun e => hidR x0 x1 x2 x3 (Read.val_main_v6 (F := Ideal) x7) (Read.val_main_v9 (F := Ideal) x8) (rowOf 11000 (by decide) (Read.val_main_v33 (F := Ideal) x9) e) k) := by
  rw [Read.val_main_v46_apply, v37_apply, v45_apply, Ideal.hostDivf_def]
  rfl

/-- The self term of the second layer. -/
theorem v47_apply (x0 : (⟨S286000x602, .f32⟩ : BufTy).Contents (Elt Ideal)) (x1 x2 : (⟨S602x256, .f32⟩ : BufTy).Contents (Elt Ideal)) (x3 : (⟨S256, .f32⟩ : BufTy).Contents (Elt Ideal)) (x7 x8 : (⟨S275000, .i32⟩ : BufTy).Contents (Elt Ideal)) (x4 : (⟨S256x41, .f32⟩ : BufTy).Contents (Elt Ideal)) (d : Fin 1000) (j : Fin 41) :
    Read.val_main_v47 (F := Ideal) x0 x1 x2 x3 x4 x7 x8 (ix2 d j)
      = ∑ k : Fin 256, hidR x0 x1 x2 x3 (Read.val_main_v6 (F := Ideal) x7) (Read.val_main_v9 (F := Ideal) x8) (up1 d) k * x4 (ix2 k j) := by
  rw [Read.val_main_v47_apply]
  refine Finset.sum_congr rfl fun k _ => ?_
  rw [Read.val_main_v27_apply]
  have hl : Read.idx_main_v27 (Read.lidx_main_v47 (ix2 d j) k) = ix2 (up1 d) k :=
    funext fun a => match a with | ⟨0, _⟩ => rfl | ⟨1, _⟩ => rfl
  have hr : Read.ridx_main_v47 (ix2 d j) k = ix2 k j :=
    funext fun a => match a with | ⟨0, _⟩ => rfl | ⟨1, _⟩ => rfl
  rw [hl, hr, v26_apply]

/-- The neighbour term of the second layer. -/
theorem v48_apply (x0 : (⟨S286000x602, .f32⟩ : BufTy).Contents (Elt Ideal)) (x1 x2 : (⟨S602x256, .f32⟩ : BufTy).Contents (Elt Ideal)) (x3 : (⟨S256, .f32⟩ : BufTy).Contents (Elt Ideal)) (x7 x8 : (⟨S275000, .i32⟩ : BufTy).Contents (Elt Ideal)) (x5 : (⟨S256x41, .f32⟩ : BufTy).Contents (Elt Ideal)) (x9 x10 : (⟨S10000, .i32⟩ : BufTy).Contents (Elt Ideal)) (d : Fin 1000) (j : Fin 41) :
    Read.val_main_v48 (F := Ideal) x0 x1 x2 x3 x5 x7 x8 x9 x10 (ix2 d j)
      = ∑ k : Fin 256, segMean (Read.val_main_v36 (F := Ideal) x10) d (fun e => hidR x0 x1 x2 x3 (Read.val_main_v6 (F := Ideal) x7) (Read.val_main_v9 (F := Ideal) x8) (rowOf 11000 (by decide) (Read.val_main_v33 (F := Ideal) x9) e) k) * x5 (ix2 k j) := by
  rw [Read.val_main_v48_apply]
  refine Finset.sum_congr rfl fun k _ => ?_
  have hl : Read.lidx_main_v48 (ix2 d j) k = ix2 d k :=
    funext fun a => match a with | ⟨0, _⟩ => rfl | ⟨1, _⟩ => rfl
  have hr : Read.ridx_main_v48 (ix2 d j) k = ix2 k j :=
    funext fun a => match a with | ⟨0, _⟩ => rfl | ⟨1, _⟩ => rfl
  rw [hl, hr, v46_apply]

/-- The second bias broadcast along the rows. -/
theorem v51_apply (x6 : (⟨S41, .f32⟩ : BufTy).Contents (Elt Ideal)) (d : Fin 1000) (j : Fin 41) :
    Read.val_main_v51 (F := Ideal) x6 (ix2 d j) = x6 (ix1 j) := by
  rw [Read.val_main_v51_apply, Read.val_main_v50_apply]
  have hi : Read.idx_main_v50 (Read.idx_main_v51 (ix2 d j)) = ix1 j :=
    funext fun a => match a with | ⟨0, _⟩ => rfl
  rw [hi]

/-- THE REFERENCE'S RESULT AT (d, j): the two-layer network in the plain arrangement, over the prepared edge lists. -/
theorem ref_apply (x0 : (⟨S286000x602, .f32⟩ : BufTy).Contents (Elt Ideal)) (x1 x2 : (⟨S602x256, .f32⟩ : BufTy).Contents (Elt Ideal)) (x3 : (⟨S256, .f32⟩ : BufTy).Contents (Elt Ideal)) (x4 x5 : (⟨S256x41, .f32⟩ : BufTy).Contents (Elt Ideal)) (x6 : (⟨S41, .f32⟩ : BufTy).Contents (Elt Ideal))
    (x7 x8 : (⟨S275000, .i32⟩ : BufTy).Contents (Elt Ideal)) (x9 x10 : (⟨S10000, .i32⟩ : BufTy).Contents (Elt Ideal)) (d : Fin 1000) (j : Fin 41) :
    Read.val_main_v52 (F := Ideal) x0 x1 x2 x3 x4 x5 x6 x7 x8 x9 x10 (ix2 d j)
      = netR x0 x1 x2 x3 x4 x5 x6 (Read.val_main_v6 (F := Ideal) x7) (Read.val_main_v9 (F := Ideal) x8)
          (Read.val_main_v33 (F := Ideal) x9) (Read.val_main_v36 (F := Ideal) x10) d j := by
  rw [Read.val_main_v52_apply, Read.val_main_v49_apply, v47_apply, v48_apply, v51_apply]
  simp only [Ideal.addf_def]
  rfl

end Cert.ReferenceIdeal.RefValue

end
-- ==== Proof.lean ====
/-
  Two-layer mean-aggregation message passing (a sampled graph network: 286000 source nodes with 602 features, 11000
  then 1000 destination nodes, hidden width 256, 41 classes), the kernel program against its reference, over the
  extended reals.

  A layer maps node features f to  act (f[:M] · Ws + agg(f) · Wn + b),  where agg(f)[d] is the sum of the rows
  f[src e] over the edges e with dst e = d, divided by max (number of such edges) 1; act is the clamp at zero in the
  first layer and the identity in the second.  The reference aggregates the rows first and multiplies by Wn after.
  The kernel multiplies every row by Wn first (a blocked matrix product on the chip), gathers and aggregates the
  narrower projected rows on the host, and adds the three terms in a small combine region; the self terms are blocked
  products over the leading rows of the same tables.  Changes of float format are the identity on exact values.

  The two arrangements agree because the aggregate is linear in the rows:
      (Σ_e f[src e, ·] / n) · Wn  =  (Σ_e f[src e, ·] · Wn) / n .
  Over the extended reals that is distributivity, which holds at finite values only, so the proof uses the precondition:
  every float argument is a real number; the hidden layer then is one too (sums, products, quotients by n ≥ 1 and maxima
  of reals), which the second layer's exchange needs.  The integer edge lists are arbitrary: both programs wrap negative
  indices, clamp a source index into the table and drop an edge whose destination is out of range in the same way, and
  they gather from tables with the same number of rows, so they read the same rows and the same segments.

  The modules: SageSpec (the two arrangements as functions of the arguments), LibSegMean and SageLaw (the exchange law
  and the equality of the arrangements), LibRowTake (a row gather and the accumulating scatters read at an index),
  FiniteArgs (the precondition read entry by entry), KRegion0 … KRegion5 (each region's array from its blocks), KernelHost2
  and KernelHost5 (the host stretches between regions), KRun, KBoundary, KChain0, KChain1 and KChain (the kernel's run and its result entry by
  entry), RefStages (the reference's result entry by entry).
-/
import proofs.«129063_j1872605741714_2_alg».proof.Defs
import proofs.«129063_j1872605741714_2_alg».proof.Proof.Gen.Kernel
import proofs.«129063_j1872605741714_2_alg».proof.Proof.Gen.Kernel.Skeleton
import proofs.«129063_j1872605741714_2_alg».proof.Proof.Gen.Kernel.Launch
import proofs.«129063_j1872605741714_2_alg».proof.Proof.Gen.Kernel.Points
import proofs.«129063_j1872605741714_2_alg».proof.Proof.Gen.Kernel.Frame
import proofs.«129063_j1872605741714_2_alg».proof.Proof.Gen.KernelIdeal
import proofs.«129063_j1872605741714_2_alg».proof.Proof.Gen.KernelIdeal.Skeleton
import proofs.«129063_j1872605741714_2_alg».proof.Proof.Gen.KernelIdeal.Launch
import proofs.«129063_j1872605741714_2_alg».proof.Proof.Gen.KernelIdeal.Points
import proofs.«129063_j1872605741714_2_alg».proof.Proof.Gen.KernelIdeal.Frame
import proofs.«129063_j1872605741714_2_alg».proof.Proof.Gen.ReferenceIdeal
import proofs.«129063_j1872605741714_2_alg».proof.Proof.Gen.ReferenceIdeal.Run
import proofs.«129063_j1872605741714_2_alg».proof.Proof.Gen.ReferenceIdeal.Read
import proofs.«129063_j1872605741714_2_alg».proof.Proof.Gen.Pre_finite_inputs
import proofs.«129063_j1872605741714_2_alg».proof.Proof.FiniteArgs
import proofs.«129063_j1872605741714_2_alg».proof.Proof.SageLaw
import proofs.«129063_j1872605741714_2_alg».proof.Proof.KRun
import proofs.«129063_j1872605741714_2_alg».proof.Proof.KChain
import proofs.«129063_j1872605741714_2_alg».proof.Proof.RefStages
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

section Claims

variable [hKernel : Cert.Kernel.Facts] [hKernelIdeal : Cert.KernelIdeal.Facts] [hReferenceIdeal : Cert.ReferenceIdeal.Facts]
  [hPre : Cert.Pre_finite_inputs.Facts]

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with equal results: entry (d, j) of the kernel's is the projected arrangement of the
    network, of the reference's the plain arrangement, and on real arguments the two arrangements agree. -/
theorem algebraic : Cert.algebraic_KernelIdeal_ReferenceIdeal := by
  intro m ρ m' ρ' hpre hagree
  refine ⟨fun c => Cert.KernelIdeal.Gen.W8 m ρ c (Proc.devRef .tc Cert.KernelIdeal.main_v46),
    Cert.KernelIdeal.KVal.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v52_eq, a0, a1, a2, a3, a4, a5, a6, a7, a8, a9, a10]
  funext i
  obtain ⟨d, j, rfl⟩ : ∃ (d : Fin 1000) (j : Fin 41), i = ix2 d j := ⟨i 0, i 1, eq_ix2 i⟩
  refine (Cert.ReferenceIdeal.RefValue.ref_apply _ _ _ _ _ _ _ _ _ _ _ d j).trans ?_
  refine Eq.trans ?_ (Cert.KernelIdeal.KVal.kernel_apply m ρ c d j).symm
  exact (Cert.SageSpec.netP_eq_netR _ _ _ _ _ _ _ _ _ _ _
    (Cert.KernelIdeal.FiniteArgs.arg0_real m hpre c) (Cert.KernelIdeal.FiniteArgs.arg1_real m hpre c)
    (Cert.KernelIdeal.FiniteArgs.arg2_real m hpre c) (Cert.KernelIdeal.FiniteArgs.arg3_real m hpre c)
    (Cert.KernelIdeal.FiniteArgs.arg5_real m hpre c) d j).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
